-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v15_1)) (v3 : (c : Dev Cert.KernelIdeal.nD) → Buf (Elt Ideal) ((c.tc : Thread Cert.KernelIdeal.nD Cert.KernelIdeal.τ).loc Cert.KernelIdeal.main_v15_0)) (v4 : (c : Dev Cert.KernelIdeal.nD) → Buf (Elt Ideal) ((c.tc : Thread Cert.KernelIdeal.nD Cert.KernelIdeal.τ).loc Cert.KernelIdeal.main_v8_6)) (v5 : (c : Dev Cert.KernelIdeal.nD) → Buf (Elt Ideal) ((c.tc : Thread Cert.KernelIdeal.nD Cert.KernelIdeal.τ).loc Cert.KernelIdeal.main_v16_1)) (v6 : (c : Dev Cert.KernelIdeal.nD) → Buf (Elt Ideal) ((c.tc : Thread Cert.KernelIdeal.nD Cert.KernelIdeal.τ).loc Cert.KernelIdeal.main_v16_0)) (v7 : (c : Dev Cert.KernelIdeal.nD) → Buf (Elt Ideal) ((c.tc : Thread Cert.KernelIdeal.nD Cert.KernelIdeal.τ).loc Cert.KernelIdeal.main_v8_7)) (v8 : (c : Dev Cert.KernelIdeal.nD) → Buf (Elt Ideal) ((c.tc : Thread Cert.KernelIdeal.nD Cert.KernelIdeal.τ).loc Cert.KernelIdeal.main_v17_1)) (v9 : (c : Dev Cert.KernelIdeal.nD) → Buf (Elt Ideal) ((c.tc : Thread Cert.KernelIdeal.nD Cert.KernelIdeal.τ).loc Cert.KernelIdeal.main_v17_0)) (v10 : (c : Dev Cert.KernelIdeal.nD) → Buf (Elt Ideal) ((c.tc : Thread Cert.KernelIdeal.nD Cert.KernelIdeal.τ).loc Cert.KernelIdeal.main_v8_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_v15_0) = v3 c
          ∧ r.2.mem ((c.tc : Thread Cert.KernelIdeal.nD Cert.KernelIdeal.τ).loc Cert.KernelIdeal.main_v8_6) = v4 c
          ∧ r.2.mem ((c.tc : Thread Cert.KernelIdeal.nD Cert.KernelIdeal.τ).loc Cert.KernelIdeal.main_v16_1) = v5 c
          ∧ r.2.mem ((c.tc : Thread Cert.KernelIdeal.nD Cert.KernelIdeal.τ).loc Cert.KernelIdeal.main_v16_0) = v6 c
          ∧ r.2.mem ((c.tc : Thread Cert.KernelIdeal.nD Cert.KernelIdeal.τ).loc Cert.KernelIdeal.main_v8_7) = v7 c
          ∧ r.2.mem ((c.tc : Thread Cert.KernelIdeal.nD Cert.KernelIdeal.τ).loc Cert.KernelIdeal.main_v17_1) = v8 c
          ∧ r.2.mem ((c.tc : Thread Cert.KernelIdeal.nD Cert.KernelIdeal.τ).loc Cert.KernelIdeal.main_v17_0) = v9 c
          ∧ r.2.mem ((c.tc : Thread Cert.KernelIdeal.nD Cert.KernelIdeal.τ).loc Cert.KernelIdeal.main_v8_8) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_v99) = v5 c
          ∧ r.2.mem ((c.tc : Thread Cert.ReferenceIdeal.nD Cert.ReferenceIdeal.τ).loc Cert.ReferenceIdeal.main_v93) = v6 c
          ∧ r.2.mem ((c.tc : Thread Cert.ReferenceIdeal.nD Cert.ReferenceIdeal.τ).loc Cert.ReferenceIdeal.main_v102) = v7 c
          ∧ r.2.mem ((c.tc : Thread Cert.ReferenceIdeal.nD Cert.ReferenceIdeal.τ).loc Cert.ReferenceIdeal.main_v114) = v8 c
          ∧ r.2.mem ((c.tc : Thread Cert.ReferenceIdeal.nD Cert.ReferenceIdeal.τ).loc Cert.ReferenceIdeal.main_v108) = v9 c
          ∧ r.2.mem ((c.tc : Thread Cert.ReferenceIdeal.nD Cert.ReferenceIdeal.τ).loc Cert.ReferenceIdeal.main_v117) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512 : Shape := ⟨2, ![16, 512]⟩
abbrev S1024x512 : Shape := ⟨2, ![1024, 512]⟩
abbrev S1024x1024 : Shape := ⟨2, ![1024, 1024]⟩
abbrev S1024 : Shape := ⟨1, ![1024]⟩
abbrev S16x1024 : Shape := ⟨2, ![16, 1024]⟩
abbrev S16x1024x512 : Shape := ⟨3, ![16, 1024, 512]⟩
abbrev S16x1024x1024 : Shape := ⟨3, ![16, 1024, 1024]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S16x1024x512 : S_.BroadcastsInDim S16x1024x512 (![] : Fin 0 → Fin S16x1024x512.rank)
  reducesTo_S16x1024x512_S_d0_1_2 : S16x1024x512.ReducesTo [0, 1, 2] S_
  bcast_S_S16x1024x1024 : S_.BroadcastsInDim S16x1024x1024 (![] : Fin 0 → Fin S16x1024x1024.rank)
  reducesTo_S16x1024x1024_S_d0_1_2 : S16x1024x1024.ReducesTo [0, 1, 2] S_

variable [Facts]

def fn_part6 {F : FTy → Type} [FloatOps F] (main_arg21 : FVec F S16x1024x512 .f32) (main_arg22 : FVec F S16x1024x1024 .f32) (main_arg23 : FVec F S16x1024 .f32) (main_v98 : IVec S_ 1) (main_v101 : IVec S16x1024 1) (main_c_39 : IVec S_ 1) : IVec S_ 1 :=
  let main_v102 : IVec S_ 1 := (fun x v => Host.reduce IntOp.andi x v reducesTo_S16x1024_S_d0_1 h_S_) main_v101 main_c_39
  let main_v103 : IVec S_ 1 := andi main_v98 main_v102
  let main_v104 : FVec F S16x1024x512 .f32 := Host.absf main_arg21
  let main_cst_40 : FVec F S_ .f32 := constant S_ .f32 0x7F800000#32
  let main_v105 : FVec F S16x1024x512 .f32 := broadcastInDim S16x1024x512 ![] bcast_S_S16x1024x512 main_cst_40
  let main_v106 : IVec S16x1024x512 1 := cmpf .olt main_v104 main_v105
  let main_c_41 : IVec S_ 1 := constantI S_ 1 1#1
  let main_v107 : IVec S_ 1 := (fun x v => Host.reduce IntOp.andi x v reducesTo_S16x1024x512_S_d0_1_2 h_S_) main_v106 main_c_41
  let main_v108 : IVec S_ 1 := andi main_v103 main_v107
  let main_v109 : FVec F S16x1024x1024 .f32 := Host.absf main_arg22
  let main_cst_42 : FVec F S_ .f32 := constant S_ .f32 0x7F800000#32
  let main_v110 : FVec F S16x1024x1024 .f32 := broadcastInDim S16x1024x1024 ![] bcast_S_S16x1024x1024 main_cst_42
  let main_v111 : IVec S16x1024x1024 1 := cmpf .olt main_v109 main_v110
  let main_c_43 : IVec S_ 1 := constantI S_ 1 1#1
  let main_v112 : IVec S_ 1 := (fun x v => Host.reduce IntOp.andi x v reducesTo_S16x1024x1024_S_d0_1_2 h_S_) main_v111 main_c_43
  let main_v113 : IVec S_ 1 := andi main_v108 main_v112
  let main_v114 : FVec F S16x1024 .f32 := Host.absf main_arg23
  let main_cst_44 : FVec F S_ .f32 := constant S_ .f32 0x7F800000#32
  let main_v115 : FVec F S16x1024 .f32 := broadcastInDim S16x1024 ![] bcast_S_S16x1024 main_cst_44
  let main_v116 : IVec S16x1024 1 := cmpf .olt main_v114 main_v115
  let main_c_45 : IVec S_ 1 := constantI S_ 1 1#1
  let main_v117 : IVec S_ 1 := (fun x v => Host.reduce IntOp.andi x v reducesTo_S16x1024_S_d0_1 h_S_) main_v116 main_c_45
  let main_v118 : IVec S_ 1 := andi main_v113 main_v117
  main_v118

def fn_part5 {F : FTy → Type} [FloatOps F] (main_arg18 : FVec F S16x1024x512 .f32) (main_arg19 : FVec F S16x1024x1024 .f32) (main_arg20 : FVec F S16x1024 .f32) (main_arg21 : FVec F S16x1024x512 .f32) (main_arg22 : FVec F S16x1024x1024 .f32) (main_arg23 : FVec F S16x1024 .f32) (main_v83 : IVec S_ 1) (main_v84 : FVec F S16x1024 .f32) (main_cst_32 : FVec F S_ .f32) : IVec S_ 1 :=
  let main_v85 : FVec F S16x1024 .f32 := broadcastInDim S16x1024 ![] bcast_S_S16x1024 main_cst_32
  let main_v86 : IVec S16x1024 1 := cmpf .olt main_v84 main_v85
  let main_c_33 : IVec S_ 1 := constantI S_ 1 1#1
  let main_v87 : IVec S_ 1 := (fun x v => Host.reduce IntOp.andi x v reducesTo_S16x1024_S_d0_1 h_S_) main_v86 main_c_33
  let main_v88 : IVec S_ 1 := andi main_v83 main_v87
  let main_v89 : FVec F S16x1024x512 .f32 := Host.absf main_arg18
  let main_cst_34 : FVec F S_ .f32 := constant S_ .f32 0x7F800000#32
  let main_v90 : FVec F S16x1024x512 .f32 := broadcastInDim S16x1024x512 ![] bcast_S_S16x1024x512 main_cst_34
  let main_v91 : IVec S16x1024x512 1 := cmpf .olt main_v89 main_v90
  let main_c_35 : IVec S_ 1 := constantI S_ 1 1#1
  let main_v92 : IVec S_ 1 := (fun x v => Host.reduce IntOp.andi x v reducesTo_S16x1024x512_S_d0_1_2 h_S_) main_v91 main_c_35
  let main_v93 : IVec S_ 1 := andi main_v88 main_v92
  let main_v94 : FVec F S16x1024x1024 .f32 := Host.absf main_arg19
  let main_cst_36 : FVec F S_ .f32 := constant S_ .f32 0x7F800000#32
  let main_v95 : FVec F S16x1024x1024 .f32 := broadcastInDim S16x1024x1024 ![] bcast_S_S16x1024x1024 main_cst_36
  let main_v96 : IVec S16x1024x1024 1 := cmpf .olt main_v94 main_v95
  let main_c_37 : IVec S_ 1 := constantI S_ 1 1#1
  let main_v97 : IVec S_ 1 := (fun x v => Host.reduce IntOp.andi x v reducesTo_S16x1024x1024_S_d0_1_2 h_S_) main_v96 main_c_37
  let main_v98 : IVec S_ 1 := andi main_v93 main_v97
  let main_v99 : FVec F S16x1024 .f32 := Host.absf main_arg20
  let main_cst_38 : FVec F S_ .f32 := constant S_ .f32 0x7F800000#32
  let main_v100 : FVec F S16x1024 .f32 := broadcastInDim S16x1024 ![] bcast_S_S16x1024 main_cst_38
  let main_v101 : IVec S16x1024 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S16x1024 .f32) (main_arg15 : FVec F S16x1024x512 .f32) (main_arg16 : FVec F S16x1024x1024 .f32) (main_arg17 : FVec F S16x1024 .f32) (main_arg18 : FVec F S16x1024x512 .f32) (main_arg19 : FVec F S16x1024x1024 .f32) (main_arg20 : FVec F S16x1024 .f32) (main_arg21 : FVec F S16x1024x512 .f32) (main_arg22 : FVec F S16x1024x1024 .f32) (main_arg23 : FVec F S16x1024 .f32) (main_v63 : IVec S_ 1) (main_v67 : IVec S_ 1) : IVec S_ 1 :=
  let main_v68 : IVec S_ 1 := andi main_v63 main_v67
  let main_v69 : FVec F S16x1024 .f32 := Host.absf main_arg14
  let main_cst_26 : FVec F S_ .f32 := constant S_ .f32 0x7F800000#32
  let main_v70 : FVec F S16x1024 .f32 := broadcastInDim S16x1024 ![] bcast_S_S16x1024 main_cst_26
  let main_v71 : IVec S16x1024 1 := cmpf .olt main_v69 main_v70
  let main_c_27 : IVec S_ 1 := constantI S_ 1 1#1
  let main_v72 : IVec S_ 1 := (fun x v => Host.reduce IntOp.andi x v reducesTo_S16x1024_S_d0_1 h_S_) main_v71 main_c_27
  let main_v73 : IVec S_ 1 := andi main_v68 main_v72
  let main_v74 : FVec F S16x1024x512 .f32 := Host.absf main_arg15
  let main_cst_28 : FVec F S_ .f32 := constant S_ .f32 0x7F800000#32
  let main_v75 : FVec F S16x1024x512 .f32 := broadcastInDim S16x1024x512 ![] bcast_S_S16x1024x512 main_cst_28
  let main_v76 : IVec S16x1024x512 1 := cmpf .olt main_v74 main_v75
  let main_c_29 : IVec S_ 1 := constantI S_ 1 1#1
  let main_v77 : IVec S_ 1 := (fun x v => Host.reduce IntOp.andi x v reducesTo_S16x1024x512_S_d0_1_2 h_S_) main_v76 main_c_29
  let main_v78 : IVec S_ 1 := andi main_v73 main_v77
  let main_v79 : FVec F S16x1024x1024 .f32 := Host.absf main_arg16
  let main_cst_30 : FVec F S_ .f32 := constant S_ .f32 0x7F800000#32
  let main_v80 : FVec F S16x1024x1024 .f32 := broadcastInDim S16x1024x1024 ![] bcast_S_S16x1024x1024 main_cst_30
  let main_v81 : IVec S16x1024x1024 1 := cmpf .olt main_v79 main_v80
  let main_c_31 : IVec S_ 1 := constantI S_ 1 1#1
  let main_v82 : IVec S_ 1 := (fun x v => Host.reduce IntOp.andi x v reducesTo_S16x1024x1024_S_d0_1_2 h_S_) main_v81 main_c_31
  let main_v83 : IVec S_ 1 := andi main_v78 main_v82
  let main_v84 : FVec F S16x1024 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S1024x1024 .f32) (main_arg12 : FVec F S1024 .f32) (main_arg13 : FVec F S16x1024 .f32) (main_arg14 : FVec F S16x1024 .f32) (main_arg15 : FVec F S16x1024x512 .f32) (main_arg16 : FVec F S16x1024x1024 .f32) (main_arg17 : FVec F S16x1024 .f32) (main_arg18 : FVec F S16x1024x512 .f32) (main_arg19 : FVec F S16x1024x1024 .f32) (main_arg20 : FVec F S16x1024 .f32) (main_arg21 : FVec F S16x1024x512 .f32) (main_arg22 : FVec F S16x1024x1024 .f32) (main_arg23 : FVec F S16x1024 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S16x1024 .f32 := Host.absf main_arg13
  let main_cst_24 : FVec F S_ .f32 := constant S_ .f32 0x7F800000#32
  let main_v65 : FVec F S16x1024 .f32 := broadcastInDim S16x1024 ![] bcast_S_S16x1024 main_cst_24
  let main_v66 : IVec S16x1024 1 := cmpf .olt main_v64 main_v65
  let main_c_25 : IVec S_ 1 := constantI S_ 1 1#1
  let main_v67 : IVec S_ 1 := (fun x v => Host.reduce IntOp.andi x v reducesTo_S16x1024_S_d0_1 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S1024x512 .f32) (main_arg8 : FVec F S1024x1024 .f32) (main_arg9 : FVec F S1024 .f32) (main_arg10 : FVec F S1024x512 .f32) (main_arg11 : FVec F S1024x1024 .f32) (main_arg12 : FVec F S1024 .f32) (main_arg13 : FVec F S16x1024 .f32) (main_arg14 : FVec F S16x1024 .f32) (main_arg15 : FVec F S16x1024x512 .f32) (main_arg16 : FVec F S16x1024x1024 .f32) (main_arg17 : FVec F S16x1024 .f32) (main_arg18 : FVec F S16x1024x512 .f32) (main_arg19 : FVec F S16x1024x1024 .f32) (main_arg20 : FVec F S16x1024 .f32) (main_arg21 : FVec F S16x1024x512 .f32) (main_arg22 : FVec F S16x1024x1024 .f32) (main_arg23 : FVec F S16x1024 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x512 .f32 := Host.absf main_arg10
  let main_cst_18 : FVec F S_ .f32 := constant S_ .f32 0x7F800000#32
  let main_v50 : FVec F S1024x512 .f32 := broadcastInDim S1024x512 ![] bcast_S_S1024x512 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S1024x512 .f32) (main_arg5 : FVec F S1024x1024 .f32) (main_arg6 : FVec F S1024 .f32) (main_arg7 : FVec F S1024x512 .f32) (main_arg8 : FVec F S1024x1024 .f32) (main_arg9 : FVec F S1024 .f32) (main_arg10 : FVec F S1024x512 .f32) (main_arg11 : FVec F S1024x1024 .f32) (main_arg12 : FVec F S1024 .f32) (main_arg13 : FVec F S16x1024 .f32) (main_arg14 : FVec F S16x1024 .f32) (main_arg15 : FVec F S16x1024x512 .f32) (main_arg16 : FVec F S16x1024x1024 .f32) (main_arg17 : FVec F S16x1024 .f32) (main_arg18 : FVec F S16x1024x512 .f32) (main_arg19 : FVec F S16x1024x1024 .f32) (main_arg20 : FVec F S16x1024 .f32) (main_arg21 : FVec F S16x1024x512 .f32) (main_arg22 : FVec F S16x1024x1024 .f32) (main_arg23 : FVec F S16x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S16x512 .f32) (main_arg1 : FVec F S1024x512 .f32) (main_arg2 : FVec F S1024x1024 .f32) (main_arg3 : FVec F S1024 .f32) (main_arg4 : FVec F S1024x512 .f32) (main_arg5 : FVec F S1024x1024 .f32) (main_arg6 : FVec F S1024 .f32) (main_arg7 : FVec F S1024x512 .f32) (main_arg8 : FVec F S1024x1024 .f32) (main_arg9 : FVec F S1024 .f32) (main_arg10 : FVec F S1024x512 .f32) (main_arg11 : FVec F S1024x1024 .f32) (main_arg12 : FVec F S1024 .f32) (main_arg13 : FVec F S16x1024 .f32) (main_arg14 : FVec F S16x1024 .f32) (main_arg15 : FVec F S16x1024x512 .f32) (main_arg16 : FVec F S16x1024x1024 .f32) (main_arg17 : FVec F S16x1024 .f32) (main_arg18 : FVec F S16x1024x512 .f32) (main_arg19 : FVec F S16x1024x1024 .f32) (main_arg20 : FVec F S16x1024 .f32) (main_arg21 : FVec F S16x1024x512 .f32) (main_arg22 : FVec F S16x1024x1024 .f32) (main_arg23 : FVec F S16x1024 .f32) : IVec S_ 1 :=
  let main_v0 : FVec F S16x512 .f32 := Host.absf main_arg0
  let main_cst : FVec F S_ .f32 := constant S_ .f32 0x7F800000#32
  let main_v1 : FVec F S16x512 .f32 := broadcastInDim S16x512 ![] bcast_S_S16x512 main_cst
  let main_v2 : IVec S16x512 1 := cmpf .olt main_v0 main_v1
  let main_c : IVec S_ 1 := constantI S_ 1 1#1
  let main_v3 : IVec S_ 1 := (fun x v => Host.reduce IntOp.andi x v reducesTo_S16x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S16x512 : Shape := ⟨2, ![16, 512]⟩
abbrev S1024x512 : Shape := ⟨2, ![1024, 512]⟩
abbrev S1024x1024 : Shape := ⟨2, ![1024, 1024]⟩
abbrev S1024 : Shape := ⟨1, ![1024]⟩
abbrev S16x1024 : Shape := ⟨2, ![16, 1024]⟩
abbrev S16x1024x512 : Shape := ⟨3, ![16, 1024, 512]⟩
abbrev S16x1024x1024 : Shape := ⟨3, ![16, 1024, 1024]⟩
abbrev S1x1024 : Shape := ⟨2, ![1, 1024]⟩
abbrev S16x1024x1 : Shape := ⟨3, ![16, 1024, 1]⟩
abbrev S16x1x512 : Shape := ⟨3, ![16, 1, 512]⟩
abbrev S16x1x1024 : Shape := ⟨3, ![16, 1, 1024]⟩
abbrev S1x512x1024 : Shape := ⟨3, ![1, 512, 1024]⟩
abbrev S1x512x512 : Shape := ⟨3, ![1, 512, 512]⟩
abbrev S1x512x1 : Shape := ⟨3, ![1, 512, 1]⟩
abbrev S1x1x512 : Shape := ⟨3, ![1, 1, 512]⟩
abbrev S1x1x1024 : Shape := ⟨3, ![1, 1, 1024]⟩

abbrev nBuf : Space → Nat
  | .hbm => 53
  | .vmem => 75
  | .smem => 0
  | _ => 0

abbrev bufTy : (tb : Table) → Fin (tcTables nBuf tb) → BufTy
  | .hbm, ⟨0, _⟩ => ⟨S16x512, .f32⟩
  | .hbm, ⟨1, _⟩ => ⟨S1024x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S1024x1024, .f32⟩
  | .hbm, ⟨9, _⟩ => ⟨S1024, .f32⟩
  | .hbm, ⟨10, _⟩ => ⟨S1024x512, .f32⟩
  | .hbm, ⟨11, _⟩ => ⟨S1024x1024, .f32⟩
  | .hbm, ⟨12, _⟩ => ⟨S1024, .f32⟩
  | .hbm, ⟨13, _⟩ => ⟨S16x1024, .f32⟩
  | .hbm, ⟨14, _⟩ => ⟨S16x1024, .f32⟩
  | .hbm, ⟨15, _⟩ => ⟨S16x1024x512, .f32⟩
  | .hbm, ⟨16, _⟩ => ⟨S16x1024x1024, .f32⟩
  | .hbm, ⟨17, _⟩ => ⟨S16x1024, .f32⟩
  | .hbm, ⟨18, _⟩ => ⟨S16x1024x512, .f32⟩
  | .hbm, ⟨19, _⟩ => ⟨S16x1024x1024, .f32⟩
  | .hbm, ⟨20, _⟩ => ⟨S16x1024, .f32⟩
  | .hbm, ⟨21, _⟩ => ⟨S16x1024x512, .f32⟩
  | .hbm, ⟨22, _⟩ => ⟨S16x1024x1024, .f32⟩
  | .hbm, ⟨23, _⟩ => ⟨S16x1024, .f32⟩
  | .hbm, ⟨24, _⟩ => ⟨S1024x512, .bf16⟩
  | .hbm, ⟨25, _⟩ => ⟨S1024x1024, .bf16⟩
  | .hbm, ⟨26, _⟩ => ⟨S1024x512, .bf16⟩
  | .hbm, ⟨27, _⟩ => ⟨S1024x1024, .bf16⟩
  | .hbm, ⟨28, _⟩ => ⟨S1024x512, .bf16⟩
  | .hbm, ⟨29, _⟩ => ⟨S1024x1024, .bf16⟩
  | .hbm, ⟨30, _⟩ => ⟨S1024x512, .bf16⟩
  | .hbm, ⟨31, _⟩ => ⟨S1024x1024, .bf16⟩
  | .hbm, ⟨32, _⟩ => ⟨S16x1024, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S16x1024, .f32⟩
  | .hbm, ⟨37, _⟩ => ⟨S16x1024, .f32⟩
  | .hbm, ⟨38, _⟩ => ⟨S16x1024, .f32⟩
  | .hbm, ⟨39, _⟩ => ⟨S16x1024, .f32⟩
  | .hbm, ⟨40, _⟩ => ⟨S16x1024, .f32⟩
  | .hbm, ⟨41, _⟩ => ⟨S16x1024x1, .f32⟩
  | .hbm, ⟨42, _⟩ => ⟨S16x1024x1, .f32⟩
  | .hbm, ⟨43, _⟩ => ⟨S16x1024x1, .f32⟩
  | .hbm, ⟨44, _⟩ => ⟨S16x1024x1, .f32⟩
  | .hbm, ⟨45, _⟩ => ⟨S16x1x512, .f32⟩
  | .hbm, ⟨46, _⟩ => ⟨S16x1x1024, .f32⟩
  | .hbm, ⟨47, _⟩ => ⟨S16x1024x1024, .f32⟩
  | .hbm, ⟨48, _⟩ => ⟨S16x1024x512, .f32⟩
  | .hbm, ⟨49, _⟩ => ⟨S16x1024x1024, .f32⟩
  | .hbm, ⟨50, _⟩ => ⟨S16x1024x512, .f32⟩
  | .hbm, ⟨51, _⟩ => ⟨S16x1024x1024, .f32⟩
  | .hbm, ⟨52, _⟩ => ⟨S16x1024x512, .f32⟩
  | .local _ .vmem, ⟨0, _⟩ => ⟨S16x512, .f32⟩
  | .local _ .vmem, ⟨1, _⟩ => ⟨S1024x512, .bf16⟩
  | .local _ .vmem, ⟨2, _⟩ => ⟨S1024x1024, .bf16⟩
  | .local _ .vmem, ⟨3, _⟩ => ⟨S1024, .f32⟩
  | .local _ .vmem, ⟨4, _⟩ => ⟨S1024x512, .bf16⟩
  | .local _ .vmem, ⟨5, _⟩ => ⟨S1024x1024, .bf16⟩
  | .local _ .vmem, ⟨6, _⟩ => ⟨S1024, .f32⟩
  | .local _ .vmem, ⟨7, _⟩ => ⟨S1024x512, .bf16⟩
  | .local _ .vmem, ⟨8, _⟩ => ⟨S1024x1024, .bf16⟩
  | .local _ .vmem, ⟨9, _⟩ => ⟨S1024, .f32⟩
  | .local _ .vmem, ⟨10, _⟩ => ⟨S1024x512, .bf16⟩
  | .local _ .vmem, ⟨11, _⟩ => ⟨S1024x1024, .bf16⟩
  | .local _ .vmem, ⟨12, _⟩ => ⟨S1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | .local _ .vmem, ⟨19, _⟩ => ⟨S16x1024, .f32⟩
  | .local _ .vmem, ⟨20, _⟩ => ⟨S16x1024, .f32⟩
  | .local _ .vmem, ⟨21, _⟩ => ⟨S16x1024, .f32⟩
  | .local _ .vmem, ⟨22, _⟩ => ⟨S16x1024, .f32⟩
  | .local _ .vmem, ⟨23, _⟩ => ⟨S16x1024, .f32⟩
  | .local _ .vmem, ⟨24, _⟩ => ⟨S16x1024, .f32⟩
  | .local _ .vmem, ⟨25, _⟩ => ⟨S16x1024, .f32⟩
  | .local _ .vmem, ⟨26, _⟩ => ⟨S16x1024, .f32⟩
  | .local _ .vmem, ⟨27, _⟩ => ⟨S1x512x1024, .f32⟩
  | .local _ .vmem, ⟨28, _⟩ => ⟨S1x512x1024, .f32⟩
  | .local _ .vmem, ⟨29, _⟩ => ⟨S1x512x512, .f32⟩
  | .local _ .vmem, ⟨30, _⟩ => ⟨S1x512x512, .f32⟩
  | .local _ .vmem, ⟨31, _⟩ => ⟨S1x512x1, .f32⟩
  | .local _ .vmem, ⟨32, _⟩ => ⟨S1x512x1, .f32⟩
  | .local _ .vmem, ⟨33, _⟩ => ⟨S1x512x1, .f32⟩
  | .local _ .vmem, ⟨34, _⟩ => ⟨S1x512x1, .f32⟩
  | .local _ .vmem, ⟨35, _⟩ => ⟨S1x1x512, .f32⟩
  | .local _ .vmem, ⟨36, _⟩ => ⟨S1x1x512, .f32⟩
  | .local _ .vmem, ⟨37, _⟩ => ⟨S1x1x1024, .f32⟩
  | .local _ .vmem, ⟨38, _⟩ => ⟨S1x1x1024, .f32⟩
  | .local _ .vmem, ⟨39, _⟩ => ⟨S1x512x1024, .f32⟩
  | .local _ .vmem, ⟨40, _⟩ => ⟨S1x512x1024, .f32⟩
  | .local _ .vmem, ⟨41, _⟩ => ⟨S1x512x512, .f32⟩
  | .local _ .vmem, ⟨42, _⟩ => ⟨S1x512x512, .f32⟩
  | .local _ .vmem, ⟨43, _⟩ => ⟨S1x512x1024, .f32⟩
  | .local _ .vmem, ⟨44, _⟩ => ⟨S1x512x1024, .f32⟩
  | .local _ .vmem, ⟨45, _⟩ => ⟨S1x512x512, .f32⟩
  | .local _ .vmem, ⟨46, _⟩ => ⟨S1x512x512, .f32⟩
  | .local _ .vmem, ⟨47, _⟩ => ⟨S1x512x1, .f32⟩
  | .local _ .vmem, ⟨48, _⟩ => ⟨S1x512x1, .f32⟩
  | .local _ .vmem, ⟨49, _⟩ => ⟨S1x512x1, .f32⟩
  | .local _ .vmem, ⟨50, _⟩ => ⟨S1x512x1, .f32⟩
  | .local _ .vmem, ⟨51, _⟩ => ⟨S1x1x512, .f32⟩
  | .local _ .vmem, ⟨52, _⟩ => ⟨S1x1x512, .f32⟩
  | .local _ .vmem, ⟨53, _⟩ => ⟨S1x1x1024, .f32⟩
  | .local _ .vmem, ⟨54, _⟩ => ⟨S1x1x1024, .f32⟩
  | .local _ .vmem, ⟨55, _⟩ => ⟨S1x512x1024, .f32⟩
  | .local _ .vmem, ⟨56, _⟩ => ⟨S1x512x1024, .f32⟩
  | .local _ .vmem, ⟨57, _⟩ => ⟨S1x512x512, .f32⟩
  | .local _ .vmem, ⟨58, _⟩ => ⟨S1x512x512, .f32⟩
  | .local _ .vmem, ⟨59, _⟩ => ⟨S1x512x1024, .f32⟩
  | .local _ .vmem, ⟨60, _⟩ => ⟨S1x512x1024, .f32⟩
  | .local _ .vmem, ⟨61, _⟩ => ⟨S1x512x512, .f32⟩
  | .local _ .vmem, ⟨62, _⟩ => ⟨S1x512x512, .f32⟩
  | .local _ .vmem, ⟨63, _⟩ => ⟨S1x512x1, .f32⟩
  | .local _ .vmem, ⟨64, _⟩ => ⟨S1x512x1, .f32⟩
  | .local _ .vmem, ⟨65, _⟩ => ⟨S1x512x1, .f32⟩
  | .local _ .vmem, ⟨66, _⟩ => ⟨S1x512x1, .f32⟩
  | .local _ .vmem, ⟨67, _⟩ => ⟨S1x1x512, .f32⟩
  | .local _ .vmem, ⟨68, _⟩ => ⟨S1x1x512, .f32⟩
  | .local _ .vmem, ⟨69, _⟩ => ⟨S1x1x1024, .f32⟩
  | .local _ .vmem, ⟨70, _⟩ => ⟨S1x1x1024, .f32⟩
  | .local _ .vmem, ⟨71, _⟩ => ⟨S1x512x1024, .f32⟩
  | .local _ .vmem, ⟨72, _⟩ => ⟨S1x512x1024, .f32⟩
  | .local _ .vmem, ⟨73, _⟩ => ⟨S1x512x512, .f32⟩
  | .local _ .vmem, ⟨74, _⟩ => ⟨S1x512x512, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8_0 : Ref sig .tc := ⟨.hbm, 32, rfl⟩
abbrev main_v8_1 : Ref sig .tc := ⟨.hbm, 33, rfl⟩
abbrev main_v8_2 : Ref sig .tc := ⟨.hbm, 34, rfl⟩
abbrev main_v8_3 : Ref sig .tc := ⟨.hbm, 35, rfl⟩
abbrev main_v8_4 : Ref sig .tc := ⟨.hbm, 36, rfl⟩
abbrev main_v8_5 : Ref sig .tc := ⟨.hbm, 37, rfl⟩
abbrev main_v8_6 : Ref sig .tc := ⟨.hbm, 38, rfl⟩
abbrev main_v8_7 : Ref sig .tc := ⟨.hbm, 39, rfl⟩
abbrev main_v8_8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15_0 : Ref sig .tc := ⟨.hbm, 47, rfl⟩
abbrev main_v15_1 : Ref sig .tc := ⟨.hbm, 48, rfl⟩
abbrev main_v16_0 : Ref sig .tc := ⟨.hbm, 49, rfl⟩
abbrev main_v16_1 : Ref sig .tc := ⟨.hbm, 50, rfl⟩
abbrev main_v17_0 : Ref sig .tc := ⟨.hbm, 51, rfl⟩
abbrev main_v17_1 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg2_1 : Ref sig .tc := ⟨.vmem, 32, rfl⟩
abbrev cc1_stg3_0 : Ref sig .tc := ⟨.vmem, 33, rfl⟩
abbrev cc1_stg3_1 : Ref sig .tc := ⟨.vmem, 34, rfl⟩
abbrev cc1_stg4_0 : Ref sig .tc := ⟨.vmem, 35, rfl⟩
abbrev cc1_stg4_1 : Ref sig .tc := ⟨.vmem, 36, rfl⟩
abbrev cc1_stg5_0 : Ref sig .tc := ⟨.vmem, 37, rfl⟩
abbrev cc1_stg5_1 : Ref sig .tc := ⟨.vmem, 38, rfl⟩
abbrev cc1_stg6_0 : Ref sig .tc := ⟨.vmem, 39, rfl⟩
abbrev cc1_stg6_1 : Ref sig .tc := ⟨.vmem, 40, rfl⟩
abbrev cc1_stg7_0 : Ref sig .tc := ⟨.vmem, 41, rfl⟩
abbrev cc1_stg7_1 : Ref sig .tc := ⟨.vmem, 42, rfl⟩
abbrev cc2_stg0_0 : Ref sig .tc := ⟨.vmem, 43, rfl⟩
abbrev cc2_stg0_1 : Ref sig .tc := ⟨.vmem, 44, rfl⟩
abbrev cc2_stg1_0 : Ref sig .tc := ⟨.vmem, 45, rfl⟩
abbrev cc2_stg1_1 : Ref sig .tc := ⟨.vmem, 46, rfl⟩
abbrev cc2_stg2_0 : Ref sig .tc := ⟨.vmem, 47, rfl⟩
abbrev cc2_stg2_1 : Ref sig .tc := ⟨.vmem, 48, rfl⟩
abbrev cc2_stg3_0 : Ref sig .tc := ⟨.vmem, 49, rfl⟩
abbrev cc2_stg3_1 : Ref sig .tc := ⟨.vmem, 50, rfl⟩
abbrev cc2_stg4_0 : Ref sig .tc := ⟨.vmem, 51, rfl⟩
abbrev cc2_stg4_1 : Ref sig .tc := ⟨.vmem, 52, rfl⟩
abbrev cc2_stg5_0 : Ref sig .tc := ⟨.vmem, 53, rfl⟩
abbrev cc2_stg5_1 : Ref sig .tc := ⟨.vmem, 54, rfl⟩
abbrev cc2_stg6_0 : Ref sig .tc := ⟨.vmem, 55, rfl⟩
abbrev cc2_stg6_1 : Ref sig .tc := ⟨.vmem, 56, rfl⟩
abbrev cc2_stg7_0 : Ref sig .tc := ⟨.vmem, 57, rfl⟩
abbrev cc2_stg7_1 : Ref sig .tc := ⟨.vmem, 58, rfl⟩
abbrev cc3_stg0_0 : Ref sig .tc := ⟨.vmem, 59, rfl⟩
abbrev cc3_stg0_1 : Ref sig .tc := ⟨.vmem, 60, rfl⟩
abbrev cc3_stg1_0 : Ref sig .tc := ⟨.vmem, 61, rfl⟩
abbrev cc3_stg1_1 : Ref sig .tc := ⟨.vmem, 62, rfl⟩
abbrev cc3_stg2_0 : Ref sig .tc := ⟨.vmem, 63, rfl⟩
abbrev cc3_stg2_1 : Ref sig .tc := ⟨.vmem, 64, rfl⟩
abbrev cc3_stg3_0 : Ref sig .tc := ⟨.vmem, 65, rfl⟩
abbrev cc3_stg3_1 : Ref sig .tc := ⟨.vmem, 66, rfl⟩
abbrev cc3_stg4_0 : Ref sig .tc := ⟨.vmem, 67, rfl⟩
abbrev cc3_stg4_1 : Ref sig .tc := ⟨.vmem, 68, rfl⟩
abbrev cc3_stg5_0 : Ref sig .tc := ⟨.vmem, 69, rfl⟩
abbrev cc3_stg5_1 : Ref sig .tc := ⟨.vmem, 70, rfl⟩
abbrev cc3_stg6_0 : Ref sig .tc := ⟨.vmem, 71, rfl⟩
abbrev cc3_stg6_1 : Ref sig .tc := ⟨.vmem, 72, rfl⟩
abbrev cc3_stg7_0 : Ref sig .tc := ⟨.vmem, 73, rfl⟩
abbrev cc3_stg7_1 : Ref sig .tc := ⟨.vmem, 74, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem2_1 : DmaSem sig := 32
abbrev cc1_sem3_0 : DmaSem sig := 33
abbrev cc1_sem3_1 : DmaSem sig := 34
abbrev cc1_sem4_0 : DmaSem sig := 35
abbrev cc1_sem4_1 : DmaSem sig := 36
abbrev cc1_sem5_0 : DmaSem sig := 37
abbrev cc1_sem5_1 : DmaSem sig := 38
abbrev cc1_sem6_0 : DmaSem sig := 39
abbrev cc1_sem6_1 : DmaSem sig := 40
abbrev cc1_sem7_0 : DmaSem sig := 41
abbrev cc1_sem7_1 : DmaSem sig := 42
abbrev cc2_sem0_0 : DmaSem sig := 43
abbrev cc2_sem0_1 : DmaSem sig := 44
abbrev cc2_sem1_0 : DmaSem sig := 45
abbrev cc2_sem1_1 : DmaSem sig := 46
abbrev cc2_sem2_0 : DmaSem sig := 47
abbrev cc2_sem2_1 : DmaSem sig := 48
abbrev cc2_sem3_0 : DmaSem sig := 49
abbrev cc2_sem3_1 : DmaSem sig := 50
abbrev cc2_sem4_0 : DmaSem sig := 51
abbrev cc2_sem4_1 : DmaSem sig := 52
abbrev cc2_sem5_0 : DmaSem sig := 53
abbrev cc2_sem5_1 : DmaSem sig := 54
abbrev cc2_sem6_0 : DmaSem sig := 55
abbrev cc2_sem6_1 : DmaSem sig := 56
abbrev cc2_sem7_0 : DmaSem sig := 57
abbrev cc2_sem7_1 : DmaSem sig := 58
abbrev cc3_sem0_0 : DmaSem sig := 59
abbrev cc3_sem0_1 : DmaSem sig := 60
abbrev cc3_sem1_0 : DmaSem sig := 61
abbrev cc3_sem1_1 : DmaSem sig := 62
abbrev cc3_sem2_0 : DmaSem sig := 63
abbrev cc3_sem2_1 : DmaSem sig := 64
abbrev cc3_sem3_0 : DmaSem sig := 65
abbrev cc3_sem3_1 : DmaSem sig := 66
abbrev cc3_sem4_0 : DmaSem sig := 67
abbrev cc3_sem4_1 : DmaSem sig := 68
abbrev cc3_sem5_0 : DmaSem sig := 69
abbrev cc3_sem5_1 : DmaSem sig := 70
abbrev cc3_sem6_0 : DmaSem sig := 71
abbrev cc3_sem6_1 : DmaSem sig := 72
abbrev cc3_sem7_0 : DmaSem sig := 73
abbrev cc3_sem7_1 : DmaSem sig := 74

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S16x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S16x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S16x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S16x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S16x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S16x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S16x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![16, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x512x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![16, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x512x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x1x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x512x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

class Facts₀ : Prop where
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  inb_S16x1024_S16x1024_0_0 : ∀ a, (![0, 0] : Fin 2 → Nat) a + S16x1024.size a ≤ S16x1024.size a
  h_S16x1024 : 0 < S16x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S16x1024 : S1x1024.Broadcasts S16x1024
  shapeCasts_S16x1024_S16x1024x1 : S16x1024.ShapeCasts S16x1024x1
  shapeCasts_S16x512_S16x1x512 : S16x512.ShapeCasts S16x1x512
  shapeCasts_S16x1024_S16x1x1024 : S16x1024.ShapeCasts S16x1x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  inb_S1x512x1024_S1x512x1024_0_0_0 : ∀ a, (![0, 0, 0] : Fin 3 → Nat) a + S1x512x1024.size a ≤ S1x512x1024.size a
  h_S1x512x1024 : 0 < S1x512x1024.numel
  inb_S1x512x512_S1x512x512_0_0_0 : ∀ a, (![0, 0, 0] : Fin 3 → Nat) a + S1x512x512.size a ≤ S1x512x512.size a
  h_S1x512x512 : 0 < S1x512x512.numel
  broadcasts_S1x512x1_S1x512x1024 : S1x512x1.Broadcasts S1x512x1024
  broadcasts_S1x1x1024_S1x512x1024 : S1x1x1024.Broadcasts S1x512x1024
  broadcasts_S1x512x1_S1x512x512 : S1x512x1.Broadcasts S1x512x512
  broadcasts_S1x1x512_S1x512x512 : S1x1x512.Broadcasts S1x512x512
  dot_S16x512_S1024x512_S16x1024_1_1_0_0_n_n_wf : DotDims.WF S16x512 S1024x512 S16x1024 [1] [1] [0] [0] [] []
  dot_S16x1024_S1024x1024_S16x1024_1_1_0_0_n_n_wf : DotDims.WF S16x1024 S1024x1024 S16x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S16x512.size a
  hwx0_0 : ∀ i : grid0.Coords, EltTy.bits .f32 = 32 ∨ (Rect.block (s := S16x512) S16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S1024x512.size a
  hwx0_10 : ∀ i : grid0.Coords, EltTy.bits .bf16 = 32 ∨ (Rect.block (s := S1024x512) S1024x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024.size a ≤ S1024.size a
  hwx0_12 : ∀ i : grid0.Coords, EltTy.bits .f32 = 32 ∨ (Rect.block (s := S1024) S1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S16x1024.size a ≤ S16x1024.size a
  hwx0_13 : ∀ i : grid0.Coords, EltTy.bits .f32 = 32 ∨ (Rect.block (s := S16x1024) S16x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16x1024.size a ≤ S16x1024.size a
  hwx0_14 : ∀ i : grid0.Coords, EltTy.bits .f32 = 32 ∨ (Rect.block (s := S16x1024) S16x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16x1024.size a ≤ S16x1024.size a
  hwx0_15 : ∀ i : grid0.Coords, EltTy.bits .f32 = 32 ∨ (Rect.block (s := S16x1024) S16x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S16x1024.size a ≤ S16x1024.size a
  hwx0_16 : ∀ i : grid0.Coords, EltTy.bits .f32 = 32 ∨ (Rect.block (s := S16x1024) S16x1024.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16x1024.size a ≤ S16x1024.size a
  hwx0_17 : ∀ i : grid0.Coords, EltTy.bits .f32 = 32 ∨ (Rect.block (s := S16x1024) S16x1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S16x1024.size a ≤ S16x1024.size a
  hwx0_18 : ∀ i : grid0.Coords, EltTy.bits .f32 = 32 ∨ (Rect.block (s := S16x1024) S16x1024.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S16x1024.size a ≤ S16x1024.size a
  hwx0_19 : ∀ i : grid0.Coords, EltTy.bits .f32 = 32 ∨ (Rect.block (s := S16x1024) S16x1024.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S16x1024.size a ≤ S16x1024.size a
  hwx0_20 : ∀ i : grid0.Coords, EltTy.bits .f32 = 32 ∨ (Rect.block (s := S16x1024) S16x1024.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S16x1024.size a ≤ S16x1024.size a
  hwx0_21 : ∀ i : grid0.Coords, EltTy.bits .f32 = 32 ∨ (Rect.block (s := S16x1024) S16x1024.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S16x1024.size a ≤ S16x1024.size a
  hwx0_22 : ∀ i : grid0.Coords, EltTy.bits .f32 = 32 ∨ (Rect.block (s := S16x1024) S16x1024.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S16x1024.size a ≤ S16x1024.size a
  hwx0_23 : ∀ i : grid0.Coords, EltTy.bits .f32 = 32 ∨ (Rect.block (s := S16x1024) S16x1024.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S16x1024.size a ≤ S16x1024.size a
  hwx0_24 : ∀ i : grid0.Coords, EltTy.bits .f32 = 32 ∨ (Rect.block (s := S16x1024) S16x1024.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S16x1024.size a ≤ S16x1024.size a
  hwx0_25 : ∀ i : grid0.Coords, EltTy.bits .f32 = 32 ∨ (Rect.block (s := S16x1024) S16x1024.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S16x1024.size a ≤ S16x1024.size a
  hwx0_26 : ∀ i : grid0.Coords, EltTy.bits .f32 = 32 ∨ (Rect.block (s := S16x1024) S16x1024.size (cc0_transform_26 i) (hinb0_26 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S16x1024x1024.size a
  hwx1_0 : ∀ i : grid1.Coords, EltTy.bits .f32 = 32 ∨ (Rect.block (s := S16x1024x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S16x1024x512.size a
  hwx1_1 : ∀ i : grid1.Coords, EltTy.bits .f32 = 32 ∨ (Rect.block (s := S16x1024x512) S1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S16x1024x1.size a
  hwx1_2 : ∀ i : grid1.Coords, EltTy.bits .f32 = 32 ∨ (Rect.block (s := S16x1024x1) S1x512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1.size a ≤ S16x1024x1.size a
  hwx1_3 : ∀ i : grid1.Coords, EltTy.bits .f32 = 32 ∨ (Rect.block (s := S16x1024x1) S1x512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512.size a ≤ S16x1x512.size a
  hwx1_4 : ∀ i : grid1.Coords, EltTy.bits .f32 = 32 ∨ (Rect.block (s := S16x1x512) S1x1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1024.size a ≤ S16x1x1024.size a
  hwx1_5 : ∀ i : grid1.Coords, EltTy.bits .f32 = 32 ∨ (Rect.block (s := S16x1x1024) S1x1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S16x1024x1024.size a
  hwx1_6 : ∀ i : grid1.Coords, EltTy.bits .f32 = 32 ∨ (Rect.block (s := S16x1024x1024) S1x512x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x512x512.size a ≤ S16x1024x512.size a
  hwx1_7 : ∀ i : grid1.Coords, EltTy.bits .f32 = 32 ∨ (Rect.block (s := S16x1024x512) S1x512x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S16x1024x1024.size a
  hwx2_0 : ∀ i : grid2.Coords, EltTy.bits .f32 = 32 ∨ (Rect.block (s := S16x1024x1024) S1x512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x512.size a ≤ S16x1024x512.size a
  hwx2_1 : ∀ i : grid2.Coords, EltTy.bits .f32 = 32 ∨ (Rect.block (s := S16x1024x512) S1x512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1.size a ≤ S16x1024x1.size a
  hwx2_2 : ∀ i : grid2.Coords, EltTy.bits .f32 = 32 ∨ (Rect.block (s := S16x1024x1) S1x512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1.size a ≤ S16x1024x1.size a
  hwx2_3 : ∀ i : grid2.Coords, EltTy.bits .f32 = 32 ∨ (Rect.block (s := S16x1024x1) S1x512x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x512.size a ≤ S16x1x512.size a
  hwx2_4 : ∀ i : grid2.Coords, EltTy.bits .f32 = 32 ∨ (Rect.block (s := S16x1x512) S1x1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x1024.size a ≤ S16x1x1024.size a
  hwx2_5 : ∀ i : grid2.Coords, EltTy.bits .f32 = 32 ∨ (Rect.block (s := S16x1x1024) S1x1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x1024.size a ≤ S16x1024x1024.size a
  hwx2_6 : ∀ i : grid2.Coords, EltTy.bits .f32 = 32 ∨ (Rect.block (s := S16x1024x1024) S1x512x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x512x512.size a ≤ S16x1024x512.size a
  hwx2_7 : ∀ i : grid2.Coords, EltTy.bits .f32 = 32 ∨ (Rect.block (s := S16x1024x512) S1x512x512.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x1024.size a ≤ S16x1024x1024.size a
  hwx3_0 : ∀ i : grid3.Coords, EltTy.bits .f32 = 32 ∨ (Rect.block (s := S16x1024x1024) S1x512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x512.size a ≤ S16x1024x512.size a
  hwx3_1 : ∀ i : grid3.Coords, EltTy.bits .f32 = 32 ∨ (Rect.block (s := S16x1024x512) S1x512x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x1.size a ≤ S16x1024x1.size a
  hwx3_2 : ∀ i : grid3.Coords, EltTy.bits .f32 = 32 ∨ (Rect.block (s := S16x1024x1) S1x512x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x1.size a ≤ S16x1024x1.size a
  hwx3_3 : ∀ i : grid3.Coords, EltTy.bits .f32 = 32 ∨ (Rect.block (s := S16x1024x1) S1x512x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x512.size a ≤ S16x1x512.size a
  hwx3_4 : ∀ i : grid3.Coords, EltTy.bits .f32 = 32 ∨ (Rect.block (s := S16x1x512) S1x1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x1024.size a ≤ S16x1x1024.size a
  hwx3_5 : ∀ i : grid3.Coords, EltTy.bits .f32 = 32 ∨ (Rect.block (s := S16x1x1024) S1x1x1024.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x512x1024.size a ≤ S16x1024x1024.size a
  hwx3_6 : ∀ i : grid3.Coords, EltTy.bits .f32 = 32 ∨ (Rect.block (s := S16x1024x1024) S1x512x1024.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x512x512.size a ≤ S16x1024x512.size a
  hwx3_7 : ∀ i : grid3.Coords, EltTy.bits .f32 = 32 ∨ (Rect.block (s := S16x1024x512) S1x512x512.size (cc3_transform_7 i) (hinb3_7 i)).WholeWords (EltTy.packing .f32)

variable [Facts₀]

def dot_S16x512_S1024x512_S16x1024_1_1_0_0_n_n : DotDims S16x512 S1024x512 S16x1024 where
  lhsContracting := [1]
  rhsContracting := [1]
  lhsNonContracting := [0]
  rhsNonContracting := [0]
  lhsBatch := []
  rhsBatch := []
  wf := dot_S16x512_S1024x512_S16x1024_1_1_0_0_n_n_wf
def dot_S16x1024_S1024x1024_S16x1024_1_1_0_0_n_n : DotDims S16x1024 S1024x1024 S16x1024 where
  lhsContracting := [1]
  rhsContracting := [1]
  lhsNonContracting := [0]
  rhsNonContracting := [0]
  lhsBatch := []
  rhsBatch := []
  wf := dot_S16x1024_S1024x1024_S16x1024_1_1_0_0_n_n_wf

abbrev win0_0 : Pipeline.Window sig grid0 :=
  Pipeline.Window.ofSpec (Memref.whole main_arg0) S16x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1024x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S16x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S16x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg17) S16x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg20) S16x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg23) S16x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v8_0) S16x1024.size cc0_transform_18 reads0_18 true true 1 stage0_18 sem0_18
    hrank0 hreads0_18 hinb0_18 nbuf0_18 (Memref.isWhole_whole _) hwx0_18 hstage0_18

abbrev win0_19 : Pipeline.Window sig grid0 :=
  Pipeline.Window.ofSpec (Memref.whole main_v8_1) S16x1024.size cc0_transform_19 reads0_19 true true 1 stage0_19 sem0_19
    hrank0 hreads0_19 hinb0_19 nbuf0_19 (Memref.isWhole_whole _) hwx0_19 hstage0_19

abbrev win0_20 : Pipeline.Window sig grid0 :=
  Pipeline.Window.ofSpec (Memref.whole main_v8_2) S16x1024.size cc0_transform_20 reads0_20 true true 1 stage0_20 sem0_20
    hrank0 hreads0_20 hinb0_20 nbuf0_20 (Memref.isWhole_whole _) hwx0_20 hstage0_20

abbrev win0_21 : Pipeline.Window sig grid0 :=
  Pipeline.Window.ofSpec (Memref.whole main_v8_3) S16x1024.size cc0_transform_21 reads0_21 true true 1 stage0_21 sem0_21
    hrank0 hreads0_21 hinb0_21 nbuf0_21 (Memref.isWhole_whole _) hwx0_21 hstage0_21

abbrev win0_22 : Pipeline.Window sig grid0 :=
  Pipeline.Window.ofSpec (Memref.whole main_v8_4) S16x1024.size cc0_transform_22 reads0_22 true true 1 stage0_22 sem0_22
    hrank0 hreads0_22 hinb0_22 nbuf0_22 (Memref.isWhole_whole _) hwx0_22 hstage0_22

abbrev win0_23 : Pipeline.Window sig grid0 :=
  Pipeline.Window.ofSpec (Memref.whole main_v8_5) S16x1024.size cc0_transform_23 reads0_23 true true 1 stage0_23 sem0_23
    hrank0 hreads0_23 hinb0_23 nbuf0_23 (Memref.isWhole_whole _) hwx0_23 hstage0_23

abbrev win0_24 : Pipeline.Window sig grid0 :=
  Pipeline.Window.ofSpec (Memref.whole main_v8_6) S16x1024.size cc0_transform_24 reads0_24 true true 1 stage0_24 sem0_24
    hrank0 hreads0_24 hinb0_24 nbuf0_24 (Memref.isWhole_whole _) hwx0_24 hstage0_24

abbrev win0_25 : Pipeline.Window sig grid0 :=
  Pipeline.Window.ofSpec (Memref.whole main_v8_7) S16x1024.size cc0_transform_25 reads0_25 true true 1 stage0_25 sem0_25
    hrank0 hreads0_25 hinb0_25 nbuf0_25 (Memref.isWhole_whole _) hwx0_25 hstage0_25

abbrev win0_26 : Pipeline.Window sig grid0 :=
  Pipeline.Window.ofSpec (Memref.whole main_v8_8) S16x1024.size cc0_transform_26 reads0_26 true true 1 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

abbrev win1_0 : Pipeline.Window sig grid1 :=
  Pipeline.Window.ofSpec (Memref.whole main_arg16) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg15) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15_0) S1x512x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15_1) S1x512x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_arg19) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg18) S1x512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1x1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1x1x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v16_0) S1x512x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v16_1) S1x512x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg22) S1x512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg21) S1x512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S1x512x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x512x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v13) S1x1x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v14) S1x1x1024.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v17_0) S1x512x1024.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v17_1) S1x512x512.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where
  halias1_6 : Pipeline.Aliased win1 0 6
  halias1_7 : Pipeline.Aliased win1 1 7
  halias2_6 : Pipeline.Aliased win2 0 6
  halias2_7 : Pipeline.Aliased win2 1 7
  halias3_6 : Pipeline.Aliased win3 0 6
  halias3_7 : Pipeline.Aliased win3 1 7

variable [Facts]
-- ==== ReferenceIdeal.lean ====
abbrev S16x512 : Shape := ⟨2, ![16, 512]⟩
abbrev S1024x512 : Shape := ⟨2, ![1024, 512]⟩
abbrev S1024x1024 : Shape := ⟨2, ![1024, 1024]⟩
abbrev S1024 : Shape := ⟨1, ![1024]⟩
abbrev S16x1024 : Shape := ⟨2, ![16, 1024]⟩
abbrev S16x1024x512 : Shape := ⟨3, ![16, 1024, 512]⟩
abbrev S16x1024x1024 : Shape := ⟨3, ![16, 1024, 1024]⟩
abbrev S512x1024 : Shape := ⟨2, ![512, 1024]⟩
abbrev S1x1024 : Shape := ⟨2, ![1, 1024]⟩
abbrev S_ : Shape := ⟨0, ![]⟩
abbrev S16x1024x1 : Shape := ⟨3, ![16, 1024, 1]⟩
abbrev S16x1x512 : Shape := ⟨3, ![16, 1, 512]⟩
abbrev S16x1x1024 : Shape := ⟨3, ![16, 1, 1024]⟩

abbrev nBuf : Space → Nat
  | .hbm => 151
  | .vmem => 0
  | .smem => 0
  | _ => 0

abbrev hbmTy0_0 (i : Nat) : BufTy := match i % 128 with
  | 0 => ⟨S16x512, .f32⟩
  | 1 => ⟨S1024x512, .f32⟩
  | 2 => ⟨S1024x1024, .f32⟩
  | 3 => ⟨S1024, .f32⟩
  | 4 => ⟨S1024x512, .f32⟩
  | 5 => ⟨S1024x1024, .f32⟩
  | 6 => ⟨S1024, .f32⟩
  | 7 => ⟨S1024x512, .f32⟩
  | 8 => ⟨S1024x1024, .f32⟩
  | 9 => ⟨S1024, .f32⟩
  | 10 => ⟨S1024x512, .f32⟩
  | 11 => ⟨S1024x1024, .f32⟩
  | 12 => ⟨S1024, .f32⟩
  | 13 => ⟨S16x1024, .f32⟩
  | 14 => ⟨S16x1024, .f32⟩
  | 15 => ⟨S16x1024x512, .f32⟩
  | 16 => ⟨S16x1024x1024, .f32⟩
  | 17 => ⟨S16x1024, .f32⟩
  | 18 => ⟨S16x1024x512, .f32⟩
  | 19 => ⟨S16x1024x1024, .f32⟩
  | 20 => ⟨S16x1024, .f32⟩
  | 21 => ⟨S16x1024x512, .f32⟩
  | 22 => ⟨S16x1024x1024, .f32⟩
  | 23 => ⟨S16x1024, .f32⟩
  | 24 => ⟨S512x1024, .f32⟩
  | 25 => ⟨S16x1024, .f32⟩
  | 26 => ⟨S1024x1024, .f32⟩
  | 27 => ⟨S16x1024, .f32⟩
  | 28 => ⟨S16x1024, .f32⟩
  | 29 => ⟨S1x1024, .f32⟩
  | 30 => ⟨S16x1024, .f32⟩
  | 31 => ⟨S16x1024, .f32⟩
  | 32 => ⟨S16x1024, .f32⟩
  | 33 => ⟨S16x1024, .f32⟩
  | 34 => ⟨S_, .f32⟩
  | 35 => ⟨S16x1024, .f32⟩
  | 36 => ⟨S16x1024, .f32⟩
  | 37 => ⟨S_, .f32⟩
  | 38 => ⟨S16x1024, .f32⟩
  | 39 => ⟨S16x1024, .f32⟩
  | 40 => ⟨S512x1024, .f32⟩
  | 41 => ⟨S16x1024, .f32⟩
  | 42 => ⟨S1024x1024, .f32⟩
  | 43 => ⟨S16x1024, .f32⟩
  | 44 => ⟨S16x1024, .f32⟩
  | 45 => ⟨S1x1024, .f32⟩
  | 46 => ⟨S16x1024, .f32⟩
  | 47 => ⟨S16x1024, .f32⟩
  | 48 => ⟨S16x1024, .f32⟩
  | 49 => ⟨S16x1024, .f32⟩
  | 50 => ⟨S_, .f32⟩
  | 51 => ⟨S16x1024, .f32⟩
  | 52 => ⟨S16x1024, .f32⟩
  | 53 => ⟨S_, .f32⟩
  | 54 => ⟨S16x1024, .f32⟩
  | 55 => ⟨S16x1024, .f32⟩
  | 56 => ⟨S512x1024, .f32⟩
  | 57 => ⟨S16x1024, .f32⟩
  | 58 => ⟨S1024x1024, .f32⟩
  | 59 => ⟨S16x1024, .f32⟩
  | 60 => ⟨S16x1024, .f32⟩
  | 61 => ⟨S1x1024, .f32⟩
  | 62 => ⟨S16x1024, .f32⟩
  | 63 => ⟨S16x1024, .f32⟩
  | 64 => ⟨S16x1024, .f32⟩
  | 65 => ⟨S16x1024, .f32⟩
  | 66 => ⟨S_, .f32⟩
  | 67 => ⟨S16x1024, .f32⟩
  | 68 => ⟨S16x1024, .f32⟩
  | 69 => ⟨S_, .f32⟩
  | 70 => ⟨S16x1024, .f32⟩
  | 71 => ⟨S16x1024, .f32⟩
  | 72 => ⟨S512x1024, .f32⟩
  | 73 => ⟨S16x1024, .f32⟩
  | 74 => ⟨S1024x1024, .f32⟩
  | 75 => ⟨S16x1024, .f32⟩
  | 76 => ⟨S16x1024, .f32⟩
  | 77 => ⟨S1x1024, .f32⟩
  | 78 => ⟨S16x1024, .f32⟩
  | 79 => ⟨S16x1024, .f32⟩
  | 80 => ⟨S16x1024, .f32⟩
  | 81 => ⟨S16x1024, .f32⟩
  | 82 => ⟨S16x1024, .f32⟩
  | 83 => ⟨S16x1024, .f32⟩
  | 84 => ⟨S16x1024, .f32⟩
  | 85 => ⟨S_, .f32⟩
  | 86 => ⟨S16x1024, .f32⟩
  | 87 => ⟨S16x1024, .f32⟩
  | 88 => ⟨S16x1024, .f32⟩
  | 89 => ⟨S_, .f32⟩
  | 90 => ⟨S16x1024, .f32⟩
  | 91 => ⟨S16x1024, .f32⟩
  | 92 => ⟨S16x1024, .f32⟩
  | 93 => ⟨S16x1024, .f32⟩
  | 94 => ⟨S_, .f32⟩
  | 95 => ⟨S16x1024, .f32⟩
  | 96 => ⟨S16x1024, .f32⟩
  | 97 => ⟨S16x1024x1, .f32⟩
  | 98 => ⟨S16x1x512, .f32⟩
  | 99 => ⟨S16x1x1024, .f32⟩
  | 100 => ⟨S16x1024, .f32⟩
  | 101 => ⟨S16x1024x1, .f32⟩
  | 102 => ⟨S16x1024, .f32⟩
  | 103 => ⟨S16x1024x1, .f32⟩
  | 104 => ⟨S16x1024, .f32⟩
  | 105 => ⟨S16x1024x1, .f32⟩
  | 106 => ⟨S16x1024x1024, .f32⟩
  | 107 => ⟨S16x1024x1024, .f32⟩
  | 108 => ⟨S16x1024x1024, .f32⟩
  | 109 => ⟨S16x1024x1024, .f32⟩
  | 110 => ⟨S16x1024x1024, .f32⟩
  | 111 => ⟨S16x1024x1024, .f32⟩
  | 112 => ⟨S16x1024x512, .f32⟩
  | 113 => ⟨S16x1024x512, .f32⟩
  | 114 => ⟨S16x1024x512, .f32⟩
  | 115 => ⟨S16x1024x512, .f32⟩
  | 116 => ⟨S16x1024x512, .f32⟩
  | 117 => ⟨S16x1024x512, .f32⟩
  | 118 => ⟨S16x1024, .f32⟩
  | 119 => ⟨S16x1024, .f32⟩
  | 120 => ⟨S16x1024, .f32⟩
  | 121 => ⟨S16x1024x1024, .f32⟩
  | 122 => ⟨S16x1024x1024, .f32⟩
  | 123 => ⟨S16x1024x1024, .f32⟩
  | 124 => ⟨S16x1024x1024, .f32⟩
  | 125 => ⟨S16x1024x1024, .f32⟩
  | 126 => ⟨S16x1024x1024, .f32⟩
  | 127 => ⟨S16x1024x512, .f32⟩
  | _ => ⟨S16x512, .f32⟩

abbrev hbmTy0_1 (i : Nat) : BufTy := match i % 128 with
  | 0 => ⟨S16x1024x512, .f32⟩
  | 1 => ⟨S16x1024x512, .f32⟩
  | 2 => ⟨S16x1024x512, .f32⟩
  | 3 => ⟨S16x1024x512, .f32⟩
  | 4 => ⟨S16x1024x512, .f32⟩
  | 5 => ⟨S16x1024, .f32⟩
  | 6 => ⟨S16x1024, .f32⟩
  | 7 => ⟨S16x1024, .f32⟩
  | 8 => ⟨S16x1024x1024, .f32⟩
  | 9 => ⟨S16x1024x1024, .f32⟩
  | 10 => ⟨S16x1024x1024, .f32⟩
  | 11 => ⟨S16x1024x1024, .f32⟩
  | 12 => ⟨S16x1024x1024, .f32⟩
  | 13 => ⟨S16x1024x1024, .f32⟩
  | 14 => ⟨S16x1024x512, .f32⟩
  | 15 => ⟨S16x1024x512, .f32⟩
  | 16 => ⟨S16x1024x512, .f32⟩
  | 17 => ⟨S16x1024x512, .f32⟩
  | 18 => ⟨S16x1024x512, .f32⟩
  | 19 => ⟨S16x1024x512, .f32⟩
  | 20 => ⟨S16x1024, .f32⟩
  | 21 => ⟨S16x1024, .f32⟩
  | 22 => ⟨S16x1024, .f32⟩
  | _ => ⟨S16x512, .f32⟩

abbrev hbmTy (i : Nat) : BufTy := match i / 128 with
  | 0 => hbmTy0_0 i
  | 1 => hbmTy0_1 i
  | _ => ⟨S16x512, .f32⟩

abbrev bufTy : (tb : Table) → Fin (tcTables nBuf tb) → BufTy
  | .hbm, ⟨i, _⟩ => hbmTy i
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_3 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_5 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_6 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_7 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩

abbrev nD : Nat := 1
abbrev τ : Topo := Topo.v7x

variable {F : FTy → Type} [FloatOps F]

class Facts₀ : Prop where
  transposes_S1024x512_S512x1024_1_0 : S1024x512.Transposes [1, 0] S512x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x512_S16x1x512_0_2 : S16x512.BroadcastsInDim S16x1x512 (![0, 2] : Fin 2 → Fin S16x1x512.rank)
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S16x1024x1_S16x1024x512_0_1_2 : S16x1024x1.BroadcastsInDim S16x1024x512 (![0, 1, 2] : Fin 3 → Fin S16x1024x512.rank)
  bcast_S16x1x512_S16x1024x512_0_1_2 : S16x1x512.BroadcastsInDim S16x1024x512 (![0, 1, 2] : Fin 3 → Fin S16x1024x512.rank)
  dot_S16x512_S512x1024_S16x1024_1_0_0_1_n_n_wf : DotDims.WF S16x512 S512x1024 S16x1024 [1] [0] [0] [1] [] []
  dot_S16x1024_S1024x1024_S16x1024_1_0_0_1_n_n_wf : DotDims.WF S16x1024 S1024x1024 S16x1024 [1] [0] [0] [1] [] []

variable [Facts₀]

def dot_S16x512_S512x1024_S16x1024_1_0_0_1_n_n : DotDims S16x512 S512x1024 S16x1024 where
  lhsContracting := [1]
  rhsContracting := [0]
  lhsNonContracting := [0]
  rhsNonContracting := [1]
  lhsBatch := []
  rhsBatch := []
  wf := dot_S16x512_S512x1024_S16x1024_1_0_0_1_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf

class Facts : Prop extends Facts₀ where

variable [Facts]
-- ==== Proof.KernelRun.lean ====
/-
  Where every buffer of the kernel program ends.

  The program is four kernel launches among four stretches of host operations. Its run is a fold of buffer contents from
  the launch memory through those eight segments; at the end every buffer that outlives the kernels holds the fold's last
  stage. The frame statement keeps from that only the argument arrays; here the same run is stated with the whole of it:
  each such buffer, the results among them, ends at the fold's last stage read at that buffer.
-/
import proofs.«152007_j29575144800638_2_alg».proof.Proof.FrameKernelIdeal

set_option maxRecDepth 16384

noncomputable section

namespace Cert.KernelIdeal.RunAll

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, and every buffer that is not scoped
    to a kernel ends at the last stage of the fold of contents through the program's eight segments. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W8 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c b hb => h c _ (mem_uc b hb))

end Cert.KernelIdeal.RunAll

end
-- ==== Proof.Chase.lean ====
/-
  The fold of buffer contents through the kernel program, read at the buffers that matter.

  The program's run ends with every buffer at the last stage of a fold through four host stretches and four kernel
  launches. A launch changes only its output arrays (each to what its write-backs leave) and a host stretch only the
  buffers its operations write, so a buffer's last stage walks back to the segment that wrote it: a result to the launch
  that produced it; a launch's operand to the launch memory, or to the host operation (a change of float format, a
  reshape inserting a unit axis) that made it from an argument or from an earlier launch's output.
-/
import proofs.«152007_j29575144800638_2_alg».proof.Proof.FrameKernelIdeal
import Idealize.ShloMosaic.PureOps.Ideal
import Idealize.ShloMosaic.Lib.StableHlo.Run

set_option maxRecDepth 16384

noncomputable section

namespace Cert.KernelIdeal.Chase

open Cert.KernelIdeal Cert.KernelIdeal.Gen Cert.KernelIdeal.GenP
open Idealize.ShloMosaic Idealize.ShloMosaic.TcCoe Idealize.ShloMosaic.Tactic Idealize.SL.Sem
open Idealize.ShloMosaic.StableHlo

variable (m : (ℓ : Loc nD τ sig) → Buf (Elt Ideal) ℓ) (ρ : Dev nD → PrngReg)

/-- A host stretch leaves a buffer none of its operations writes as it was. -/
local macro "host_skip " ops:ident : tactic => `(tactic| (
  refine StableHlo.after_of_forall_not_mem _ _ (List.forall_iff_forall_mem.mp ?_)
  simp only [$ops:ident, List.Forall, StableHlo.unary_writes, StableHlo.reshape_writes, Finset.mem_singleton]
  repeat' apply And.intro
  all_goals exact StableHlo.devRef_ne_of_ne (by decide)))

/-! ## The results: each ends at what the launch that produced it leaves -/

theorem res_v8_0 (c : Dev nD) : W8 m ρ c (Proc.devRef .tc main_v8_0) = (dat0 (V1 m ρ) c).arrAt 18 cfg0.N :=
  calc W8 m ρ c (Proc.devRef .tc main_v8_0)
    _ = W7 m ρ c (Proc.devRef .tc main_v8_0) := W8_of_ne m ρ c main_v8_0 (by decide)
    _ = W6 m ρ c (Proc.devRef .tc main_v8_0) := by host_skip hostOps3
    _ = W5 m ρ c (Proc.devRef .tc main_v8_0) := W6_of_ne m ρ c main_v8_0 (by decide)
    _ = W4 m ρ c (Proc.devRef .tc main_v8_0) := by host_skip hostOps2
    _ = W3 m ρ c (Proc.devRef .tc main_v8_0) := W4_of_ne m ρ c main_v8_0 (by decide)
    _ = W2 m ρ c (Proc.devRef .tc main_v8_0) := by host_skip hostOps1
    _ = (dat0 (V1 m ρ) c).arrAt 18 cfg0.N := W2_arr m ρ c 18

theorem res_v8_1 (c : Dev nD) : W8 m ρ c (Proc.devRef .tc main_v8_1) = (dat0 (V1 m ρ) c).arrAt 19 cfg0.N :=
  calc W8 m ρ c (Proc.devRef .tc main_v8_1)
    _ = W7 m ρ c (Proc.devRef .tc main_v8_1) := W8_of_ne m ρ c main_v8_1 (by decide)
    _ = W6 m ρ c (Proc.devRef .tc main_v8_1) := by host_skip hostOps3
    _ = W5 m ρ c (Proc.devRef .tc main_v8_1) := W6_of_ne m ρ c main_v8_1 (by decide)
    _ = W4 m ρ c (Proc.devRef .tc main_v8_1) := by host_skip hostOps2
    _ = W3 m ρ c (Proc.devRef .tc main_v8_1) := W4_of_ne m ρ c main_v8_1 (by decide)
    _ = W2 m ρ c (Proc.devRef .tc main_v8_1) := by host_skip hostOps1
    _ = (dat0 (V1 m ρ) c).arrAt 19 cfg0.N := W2_arr m ρ c 19

theorem res_v15_1 (c : Dev nD) : W8 m ρ c (Proc.devRef .tc main_v15_1) = (dat1 (V3 m ρ) c).arrAt 7 cfg1.N :=
  calc W8 m ρ c (Proc.devRef .tc main_v15_1)
    _ = W7 m ρ c (Proc.devRef .tc main_v15_1) := W8_of_ne m ρ c main_v15_1 (by decide)
    _ = W6 m ρ c (Proc.devRef .tc main_v15_1) := by host_skip hostOps3
    _ = W5 m ρ c (Proc.devRef .tc main_v15_1) := W6_of_ne m ρ c main_v15_1 (by decide)
    _ = W4 m ρ c (Proc.devRef .tc main_v15_1) := by host_skip hostOps2
    _ = (dat1 (V3 m ρ) c).arrAt 7 cfg1.N := W4_arr m ρ c 7

theorem res_v15_0 (c : Dev nD) : W8 m ρ c (Proc.devRef .tc main_v15_0) = (dat1 (V3 m ρ) c).arrAt 6 cfg1.N :=
  calc W8 m ρ c (Proc.devRef .tc main_v15_0)
    _ = W7 m ρ c (Proc.devRef .tc main_v15_0) := W8_of_ne m ρ c main_v15_0 (by decide)
    _ = W6 m ρ c (Proc.devRef .tc main_v15_0) := by host_skip hostOps3
    _ = W5 m ρ c (Proc.devRef .tc main_v15_0) := W6_of_ne m ρ c main_v15_0 (by decide)
    _ = W4 m ρ c (Proc.devRef .tc main_v15_0) := by host_skip hostOps2
    _ = (dat1 (V3 m ρ) c).arrAt 6 cfg1.N := W4_arr m ρ c 6

theorem res_v8_6 (c : Dev nD) : W8 m ρ c (Proc.devRef .tc main_v8_6) = (dat0 (V1 m ρ) c).arrAt 24 cfg0.N :=
  calc W8 m ρ c (Proc.devRef .tc main_v8_6)
    _ = W7 m ρ c (Proc.devRef .tc main_v8_6) := W8_of_ne m ρ c main_v8_6 (by decide)
    _ = W6 m ρ c (Proc.devRef .tc main_v8_6) := by host_skip hostOps3
    _ = W5 m ρ c (Proc.devRef .tc main_v8_6) := W6_of_ne m ρ c main_v8_6 (by decide)
    _ = W4 m ρ c (Proc.devRef .tc main_v8_6) := by host_skip hostOps2
    _ = W3 m ρ c (Proc.devRef .tc main_v8_6) := W4_of_ne m ρ c main_v8_6 (by decide)
    _ = W2 m ρ c (Proc.devRef .tc main_v8_6) := by host_skip hostOps1
    _ = (dat0 (V1 m ρ) c).arrAt 24 cfg0.N := W2_arr m ρ c 24

theorem res_v16_1 (c : Dev nD) : W8 m ρ c (Proc.devRef .tc main_v16_1) = (dat2 (V5 m ρ) c).arrAt 7 cfg2.N :=
  calc W8 m ρ c (Proc.devRef .tc main_v16_1)
    _ = W7 m ρ c (Proc.devRef .tc main_v16_1) := W8_of_ne m ρ c main_v16_1 (by decide)
    _ = W6 m ρ c (Proc.devRef .tc main_v16_1) := by host_skip hostOps3
    _ = (dat2 (V5 m ρ) c).arrAt 7 cfg2.N := W6_arr m ρ c 7

theorem res_v16_0 (c : Dev nD) : W8 m ρ c (Proc.devRef .tc main_v16_0) = (dat2 (V5 m ρ) c).arrAt 6 cfg2.N :=
  calc W8 m ρ c (Proc.devRef .tc main_v16_0)
    _ = W7 m ρ c (Proc.devRef .tc main_v16_0) := W8_of_ne m ρ c main_v16_0 (by decide)
    _ = W6 m ρ c (Proc.devRef .tc main_v16_0) := by host_skip hostOps3
    _ = (dat2 (V5 m ρ) c).arrAt 6 cfg2.N := W6_arr m ρ c 6

theorem res_v8_7 (c : Dev nD) : W8 m ρ c (Proc.devRef .tc main_v8_7) = (dat0 (V1 m ρ) c).arrAt 25 cfg0.N :=
  calc W8 m ρ c (Proc.devRef .tc main_v8_7)
    _ = W7 m ρ c (Proc.devRef .tc main_v8_7) := W8_of_ne m ρ c main_v8_7 (by decide)
    _ = W6 m ρ c (Proc.devRef .tc main_v8_7) := by host_skip hostOps3
    _ = W5 m ρ c (Proc.devRef .tc main_v8_7) := W6_of_ne m ρ c main_v8_7 (by decide)
    _ = W4 m ρ c (Proc.devRef .tc main_v8_7) := by host_skip hostOps2
    _ = W3 m ρ c (Proc.devRef .tc main_v8_7) := W4_of_ne m ρ c main_v8_7 (by decide)
    _ = W2 m ρ c (Proc.devRef .tc main_v8_7) := by host_skip hostOps1
    _ = (dat0 (V1 m ρ) c).arrAt 25 cfg0.N := W2_arr m ρ c 25

theorem res_v17_1 (c : Dev nD) : W8 m ρ c (Proc.devRef .tc main_v17_1) = (dat3 (V7 m ρ) c).arrAt 7 cfg3.N :=
  calc W8 m ρ c (Proc.devRef .tc main_v17_1)
    _ = (dat3 (V7 m ρ) c).arrAt 7 cfg3.N := W8_arr m ρ c 7

theorem res_v17_0 (c : Dev nD) : W8 m ρ c (Proc.devRef .tc main_v17_0) = (dat3 (V7 m ρ) c).arrAt 6 cfg3.N :=
  calc W8 m ρ c (Proc.devRef .tc main_v17_0)
    _ = (dat3 (V7 m ρ) c).arrAt 6 cfg3.N := W8_arr m ρ c 6

theorem res_v8_8 (c : Dev nD) : W8 m ρ c (Proc.devRef .tc main_v8_8) = (dat0 (V1 m ρ) c).arrAt 26 cfg0.N :=
  calc W8 m ρ c (Proc.devRef .tc main_v8_8)
    _ = W7 m ρ c (Proc.devRef .tc main_v8_8) := W8_of_ne m ρ c main_v8_8 (by decide)
    _ = W6 m ρ c (Proc.devRef .tc main_v8_8) := by host_skip hostOps3
    _ = W5 m ρ c (Proc.devRef .tc main_v8_8) := W6_of_ne m ρ c main_v8_8 (by decide)
    _ = W4 m ρ c (Proc.devRef .tc main_v8_8) := by host_skip hostOps2
    _ = W3 m ρ c (Proc.devRef .tc main_v8_8) := W4_of_ne m ρ c main_v8_8 (by decide)
    _ = W2 m ρ c (Proc.devRef .tc main_v8_8) := by host_skip hostOps1
    _ = (dat0 (V1 m ρ) c).arrAt 26 cfg0.N := W2_arr m ρ c 26

/-! ## Operands that are argument arrays: as launched -/

theorem at1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_skip hostOps0
    _ = m ((c : Thread nD τ).loc main_arg0) := rfl

theorem at1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_skip hostOps0
    _ = m ((c : Thread nD τ).loc main_arg3) := rfl

theorem at1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := by host_skip hostOps0
    _ = m ((c : Thread nD τ).loc main_arg6) := rfl

theorem at1_arg9 (c : Dev nD) : W1 m ρ c (Proc.devRef .tc main_arg9) = m ((c : Thread nD τ).loc main_arg9) :=
  calc W1 m ρ c (Proc.devRef .tc main_arg9)
    _ = W0 m ρ c (Proc.devRef .tc main_arg9) := by host_skip hostOps0
    _ = m ((c : Thread nD τ).loc main_arg9) := rfl

theorem at1_arg12 (c : Dev nD) : W1 m ρ c (Proc.devRef .tc main_arg12) = m ((c : Thread nD τ).loc main_arg12) :=
  calc W1 m ρ c (Proc.devRef .tc main_arg12)
    _ = W0 m ρ c (Proc.devRef .tc main_arg12) := by host_skip hostOps0
    _ = m ((c : Thread nD τ).loc main_arg12) := rfl

theorem at1_arg13 (c : Dev nD) : W1 m ρ c (Proc.devRef .tc main_arg13) = m ((c : Thread nD τ).loc main_arg13) :=
  calc W1 m ρ c (Proc.devRef .tc main_arg13)
    _ = W0 m ρ c (Proc.devRef .tc main_arg13) := by host_skip hostOps0
    _ = m ((c : Thread nD τ).loc main_arg13) := rfl

theorem at1_arg14 (c : Dev nD) : W1 m ρ c (Proc.devRef .tc main_arg14) = m ((c : Thread nD τ).loc main_arg14) :=
  calc W1 m ρ c (Proc.devRef .tc main_arg14)
    _ = W0 m ρ c (Proc.devRef .tc main_arg14) := by host_skip hostOps0
    _ = m ((c : Thread nD τ).loc main_arg14) := rfl

theorem at1_arg17 (c : Dev nD) : W1 m ρ c (Proc.devRef .tc main_arg17) = m ((c : Thread nD τ).loc main_arg17) :=
  calc W1 m ρ c (Proc.devRef .tc main_arg17)
    _ = W0 m ρ c (Proc.devRef .tc main_arg17) := by host_skip hostOps0
    _ = m ((c : Thread nD τ).loc main_arg17) := rfl

theorem at1_arg20 (c : Dev nD) : W1 m ρ c (Proc.devRef .tc main_arg20) = m ((c : Thread nD τ).loc main_arg20) :=
  calc W1 m ρ c (Proc.devRef .tc main_arg20)
    _ = W0 m ρ c (Proc.devRef .tc main_arg20) := by host_skip hostOps0
    _ = m ((c : Thread nD τ).loc main_arg20) := rfl

theorem at1_arg23 (c : Dev nD) : W1 m ρ c (Proc.devRef .tc main_arg23) = m ((c : Thread nD τ).loc main_arg23) :=
  calc W1 m ρ c (Proc.devRef .tc main_arg23)
    _ = W0 m ρ c (Proc.devRef .tc main_arg23) := by host_skip hostOps0
    _ = m ((c : Thread nD τ).loc main_arg23) := rfl

theorem at3_arg16 (c : Dev nD) : W3 m ρ c (Proc.devRef .tc main_arg16) = m ((c : Thread nD τ).loc main_arg16) :=
  calc W3 m ρ c (Proc.devRef .tc main_arg16)
    _ = W2 m ρ c (Proc.devRef .tc main_arg16) := by host_skip hostOps1
    _ = W1 m ρ c (Proc.devRef .tc main_arg16) := W2_of_ne m ρ c main_arg16 (by decide)
    _ = W0 m ρ c (Proc.devRef .tc main_arg16) := by host_skip hostOps0
    _ = m ((c : Thread nD τ).loc main_arg16) := rfl

theorem at3_arg15 (c : Dev nD) : W3 m ρ c (Proc.devRef .tc main_arg15) = m ((c : Thread nD τ).loc main_arg15) :=
  calc W3 m ρ c (Proc.devRef .tc main_arg15)
    _ = W2 m ρ c (Proc.devRef .tc main_arg15) := by host_skip hostOps1
    _ = W1 m ρ c (Proc.devRef .tc main_arg15) := W2_of_ne m ρ c main_arg15 (by decide)
    _ = W0 m ρ c (Proc.devRef .tc main_arg15) := by host_skip hostOps0
    _ = m ((c : Thread nD τ).loc main_arg15) := rfl

theorem at5_arg19 (c : Dev nD) : W5 m ρ c (Proc.devRef .tc main_arg19) = m ((c : Thread nD τ).loc main_arg19) :=
  calc W5 m ρ c (Proc.devRef .tc main_arg19)
    _ = W4 m ρ c (Proc.devRef .tc main_arg19) := by host_skip hostOps2
    _ = W3 m ρ c (Proc.devRef .tc main_arg19) := W4_of_ne m ρ c main_arg19 (by decide)
    _ = W2 m ρ c (Proc.devRef .tc main_arg19) := by host_skip hostOps1
    _ = W1 m ρ c (Proc.devRef .tc main_arg19) := W2_of_ne m ρ c main_arg19 (by decide)
    _ = W0 m ρ c (Proc.devRef .tc main_arg19) := by host_skip hostOps0
    _ = m ((c : Thread nD τ).loc main_arg19) := rfl

theorem at5_arg18 (c : Dev nD) : W5 m ρ c (Proc.devRef .tc main_arg18) = m ((c : Thread nD τ).loc main_arg18) :=
  calc W5 m ρ c (Proc.devRef .tc main_arg18)
    _ = W4 m ρ c (Proc.devRef .tc main_arg18) := by host_skip hostOps2
    _ = W3 m ρ c (Proc.devRef .tc main_arg18) := W4_of_ne m ρ c main_arg18 (by decide)
    _ = W2 m ρ c (Proc.devRef .tc main_arg18) := by host_skip hostOps1
    _ = W1 m ρ c (Proc.devRef .tc main_arg18) := W2_of_ne m ρ c main_arg18 (by decide)
    _ = W0 m ρ c (Proc.devRef .tc main_arg18) := by host_skip hostOps0
    _ = m ((c : Thread nD τ).loc main_arg18) := rfl

theorem at7_arg22 (c : Dev nD) : W7 m ρ c (Proc.devRef .tc main_arg22) = m ((c : Thread nD τ).loc main_arg22) :=
  calc W7 m ρ c (Proc.devRef .tc main_arg22)
    _ = W6 m ρ c (Proc.devRef .tc main_arg22) := by host_skip hostOps3
    _ = W5 m ρ c (Proc.devRef .tc main_arg22) := W6_of_ne m ρ c main_arg22 (by decide)
    _ = W4 m ρ c (Proc.devRef .tc main_arg22) := by host_skip hostOps2
    _ = W3 m ρ c (Proc.devRef .tc main_arg22) := W4_of_ne m ρ c main_arg22 (by decide)
    _ = W2 m ρ c (Proc.devRef .tc main_arg22) := by host_skip hostOps1
    _ = W1 m ρ c (Proc.devRef .tc main_arg22) := W2_of_ne m ρ c main_arg22 (by decide)
    _ = W0 m ρ c (Proc.devRef .tc main_arg22) := by host_skip hostOps0
    _ = m ((c : Thread nD τ).loc main_arg22) := rfl

theorem at7_arg21 (c : Dev nD) : W7 m ρ c (Proc.devRef .tc main_arg21) = m ((c : Thread nD τ).loc main_arg21) :=
  calc W7 m ρ c (Proc.devRef .tc main_arg21)
    _ = W6 m ρ c (Proc.devRef .tc main_arg21) := by host_skip hostOps3
    _ = W5 m ρ c (Proc.devRef .tc main_arg21) := W6_of_ne m ρ c main_arg21 (by decide)
    _ = W4 m ρ c (Proc.devRef .tc main_arg21) := by host_skip hostOps2
    _ = W3 m ρ c (Proc.devRef .tc main_arg21) := W4_of_ne m ρ c main_arg21 (by decide)
    _ = W2 m ρ c (Proc.devRef .tc main_arg21) := by host_skip hostOps1
    _ = W1 m ρ c (Proc.devRef .tc main_arg21) := W2_of_ne m ρ c main_arg21 (by decide)
    _ = W0 m ρ c (Proc.devRef .tc main_arg21) := by host_skip hostOps0
    _ = m ((c : Thread nD τ).loc main_arg21) := rfl

theorem at2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := by host_skip hostOps0
    _ = m ((c : Thread nD τ).loc main_arg0) := rfl

theorem at2_arg13 (c : Dev nD) : W2 m ρ c (Proc.devRef .tc main_arg13) = m ((c : Thread nD τ).loc main_arg13) :=
  calc W2 m ρ c (Proc.devRef .tc main_arg13)
    _ = W1 m ρ c (Proc.devRef .tc main_arg13) := (W2_arr m ρ c 13).trans (((dat0 (V1 m ρ) c).arrAt_in 13 rfl _).trans (A_eq0 (V1 m ρ) c 13))
    _ = W0 m ρ c (Proc.devRef .tc main_arg13) := by host_skip hostOps0
    _ = m ((c : Thread nD τ).loc main_arg13) := rfl

/-! ## Operands made by the second host stretch: carried unchanged to the later launches -/

theorem at5_v9 (c : Dev nD) : W5 m ρ c (Proc.devRef .tc main_v9) = W3 m ρ c (Proc.devRef .tc main_v9) :=
  calc W5 m ρ c (Proc.devRef .tc main_v9)
    _ = W4 m ρ c (Proc.devRef .tc main_v9) := by host_skip hostOps2
    _ = W3 m ρ c (Proc.devRef .tc main_v9) := (W4_arr m ρ c 2).trans (((dat1 (V3 m ρ) c).arrAt_in 2 rfl _).trans (A_eq1 (V3 m ρ) c 2))

theorem at5_v11 (c : Dev nD) : W5 m ρ c (Proc.devRef .tc main_v11) = W3 m ρ c (Proc.devRef .tc main_v11) :=
  calc W5 m ρ c (Proc.devRef .tc main_v11)
    _ = W4 m ρ c (Proc.devRef .tc main_v11) := by host_skip hostOps2
    _ = W3 m ρ c (Proc.devRef .tc main_v11) := W4_of_ne m ρ c main_v11 (by decide)

theorem at5_v13 (c : Dev nD) : W5 m ρ c (Proc.devRef .tc main_v13) = W3 m ρ c (Proc.devRef .tc main_v13) :=
  calc W5 m ρ c (Proc.devRef .tc main_v13)
    _ = W4 m ρ c (Proc.devRef .tc main_v13) := by host_skip hostOps2
    _ = W3 m ρ c (Proc.devRef .tc main_v13) := (W4_arr m ρ c 4).trans (((dat1 (V3 m ρ) c).arrAt_in 4 rfl _).trans (A_eq1 (V3 m ρ) c 4))

theorem at5_v14 (c : Dev nD) : W5 m ρ c (Proc.devRef .tc main_v14) = W3 m ρ c (Proc.devRef .tc main_v14) :=
  calc W5 m ρ c (Proc.devRef .tc main_v14)
    _ = W4 m ρ c (Proc.devRef .tc main_v14) := by host_skip hostOps2
    _ = W3 m ρ c (Proc.devRef .tc main_v14) := (W4_arr m ρ c 5).trans (((dat1 (V3 m ρ) c).arrAt_in 5 rfl _).trans (A_eq1 (V3 m ρ) c 5))

theorem at7_v9 (c : Dev nD) : W7 m ρ c (Proc.devRef .tc main_v9) = W3 m ρ c (Proc.devRef .tc main_v9) :=
  calc W7 m ρ c (Proc.devRef .tc main_v9)
    _ = W6 m ρ c (Proc.devRef .tc main_v9) := by host_skip hostOps3
    _ = W5 m ρ c (Proc.devRef .tc main_v9) := (W6_arr m ρ c 2).trans (((dat2 (V5 m ρ) c).arrAt_in 2 rfl _).trans (A_eq2 (V5 m ρ) c 2))
    _ = W4 m ρ c (Proc.devRef .tc main_v9) := by host_skip hostOps2
    _ = W3 m ρ c (Proc.devRef .tc main_v9) := (W4_arr m ρ c 2).trans (((dat1 (V3 m ρ) c).arrAt_in 2 rfl _).trans (A_eq1 (V3 m ρ) c 2))

theorem at7_v12 (c : Dev nD) : W7 m ρ c (Proc.devRef .tc main_v12) = W3 m ρ c (Proc.devRef .tc main_v12) :=
  calc W7 m ρ c (Proc.devRef .tc main_v12)
    _ = W6 m ρ c (Proc.devRef .tc main_v12) := by host_skip hostOps3
    _ = W5 m ρ c (Proc.devRef .tc main_v12) := W6_of_ne m ρ c main_v12 (by decide)
    _ = W4 m ρ c (Proc.devRef .tc main_v12) := by host_skip hostOps2
    _ = W3 m ρ c (Proc.devRef .tc main_v12) := W4_of_ne m ρ c main_v12 (by decide)

theorem at7_v13 (c : Dev nD) : W7 m ρ c (Proc.devRef .tc main_v13) = W3 m ρ c (Proc.devRef .tc main_v13) :=
  calc W7 m ρ c (Proc.devRef .tc main_v13)
    _ = W6 m ρ c (Proc.devRef .tc main_v13) := by host_skip hostOps3
    _ = W5 m ρ c (Proc.devRef .tc main_v13) := (W6_arr m ρ c 4).trans (((dat2 (V5 m ρ) c).arrAt_in 4 rfl _).trans (A_eq2 (V5 m ρ) c 4))
    _ = W4 m ρ c (Proc.devRef .tc main_v13) := by host_skip hostOps2
    _ = W3 m ρ c (Proc.devRef .tc main_v13) := (W4_arr m ρ c 4).trans (((dat1 (V3 m ρ) c).arrAt_in 4 rfl _).trans (A_eq1 (V3 m ρ) c 4))

theorem at7_v14 (c : Dev nD) : W7 m ρ c (Proc.devRef .tc main_v14) = W3 m ρ c (Proc.devRef .tc main_v14) :=
  calc W7 m ρ c (Proc.devRef .tc main_v14)
    _ = W6 m ρ c (Proc.devRef .tc main_v14) := by host_skip hostOps3
    _ = W5 m ρ c (Proc.devRef .tc main_v14) := (W6_arr m ρ c 5).trans (((dat2 (V5 m ρ) c).arrAt_in 5 rfl _).trans (A_eq2 (V5 m ρ) c 5))
    _ = W4 m ρ c (Proc.devRef .tc main_v14) := by host_skip hostOps2
    _ = W3 m ρ c (Proc.devRef .tc main_v14) := (W4_arr m ρ c 5).trans (((dat1 (V3 m ρ) c).arrAt_in 5 rfl _).trans (A_eq1 (V3 m ρ) c 5))

/-! ## Operands the host makes

The first stretch changes the eight weight matrices' float format (the identity on extended reals); the second inserts a
unit axis into the forget gate, the three factors, the input rows and the previous hidden rows. -/

theorem at1_v0 (c : Dev nD) : W1 m ρ c (Proc.devRef .tc main_v0) = (truncf .bf16 (m ((c : Thread nD τ).loc main_arg1)) bitsLt_bf16_f32 : FVec Ideal S1024x512 .bf16) := by
  show StableHlo.after hostOps0 (W0 m ρ c) (Proc.devRef .tc main_v0) = _
  after_results

theorem at1_v1 (c : Dev nD) : W1 m ρ c (Proc.devRef .tc main_v1) = (truncf .bf16 (m ((c : Thread nD τ).loc main_arg2)) bitsLt_bf16_f32 : FVec Ideal S1024x1024 .bf16) := by
  show StableHlo.after hostOps0 (W0 m ρ c) (Proc.devRef .tc main_v1) = _
  after_results

theorem at1_v2 (c : Dev nD) : W1 m ρ c (Proc.devRef .tc main_v2) = (truncf .bf16 (m ((c : Thread nD τ).loc main_arg4)) bitsLt_bf16_f32 : FVec Ideal S1024x512 .bf16) := by
  show StableHlo.after hostOps0 (W0 m ρ c) (Proc.devRef .tc main_v2) = _
  after_results

theorem at1_v3 (c : Dev nD) : W1 m ρ c (Proc.devRef .tc main_v3) = (truncf .bf16 (m ((c : Thread nD τ).loc main_arg5)) bitsLt_bf16_f32 : FVec Ideal S1024x1024 .bf16) := by
  show StableHlo.after hostOps0 (W0 m ρ c) (Proc.devRef .tc main_v3) = _
  after_results

theorem at1_v4 (c : Dev nD) : W1 m ρ c (Proc.devRef .tc main_v4) = (truncf .bf16 (m ((c : Thread nD τ).loc main_arg7)) bitsLt_bf16_f32 : FVec Ideal S1024x512 .bf16) := by
  show StableHlo.after hostOps0 (W0 m ρ c) (Proc.devRef .tc main_v4) = _
  after_results

theorem at1_v5 (c : Dev nD) : W1 m ρ c (Proc.devRef .tc main_v5) = (truncf .bf16 (m ((c : Thread nD τ).loc main_arg8)) bitsLt_bf16_f32 : FVec Ideal S1024x1024 .bf16) := by
  show StableHlo.after hostOps0 (W0 m ρ c) (Proc.devRef .tc main_v5) = _
  after_results

theorem at1_v6 (c : Dev nD) : W1 m ρ c (Proc.devRef .tc main_v6) = (truncf .bf16 (m ((c : Thread nD τ).loc main_arg10)) bitsLt_bf16_f32 : FVec Ideal S1024x512 .bf16) := by
  show StableHlo.after hostOps0 (W0 m ρ c) (Proc.devRef .tc main_v6) = _
  after_results

theorem at1_v7 (c : Dev nD) : W1 m ρ c (Proc.devRef .tc main_v7) = (truncf .bf16 (m ((c : Thread nD τ).loc main_arg11)) bitsLt_bf16_f32 : FVec Ideal S1024x1024 .bf16) := by
  show StableHlo.after hostOps0 (W0 m ρ c) (Proc.devRef .tc main_v7) = _
  after_results

theorem at3_v9 (c : Dev nD) : W3 m ρ c (Proc.devRef .tc main_v9) = shapeCast S16x1024x1 ((dat0 (V1 m ρ) c).arrAt 20 cfg0.N) shapeCasts_S16x1024_S16x1024x1 := by
  have e : W3 m ρ c (Proc.devRef .tc main_v9) = shapeCast S16x1024x1 (W2 m ρ c (Proc.devRef .tc main_v8_2)) shapeCasts_S16x1024_S16x1024x1 := by
    show StableHlo.after hostOps1 (W2 m ρ c) (Proc.devRef .tc main_v9) = _
    after_results
    rfl
  exact e.trans (congrArg (fun v => shapeCast S16x1024x1 v shapeCasts_S16x1024_S16x1024x1) (W2_arr m ρ c 20))

theorem at3_v10 (c : Dev nD) : W3 m ρ c (Proc.devRef .tc main_v10) = shapeCast S16x1024x1 ((dat0 (V1 m ρ) c).arrAt 21 cfg0.N) shapeCasts_S16x1024_S16x1024x1 := by
  have e : W3 m ρ c (Proc.devRef .tc main_v10) = shapeCast S16x1024x1 (W2 m ρ c (Proc.devRef .tc main_v8_3)) shapeCasts_S16x1024_S16x1024x1 := by
    show StableHlo.after hostOps1 (W2 m ρ c) (Proc.devRef .tc main_v10) = _
    after_results
    rfl
  exact e.trans (congrArg (fun v => shapeCast S16x1024x1 v shapeCasts_S16x1024_S16x1024x1) (W2_arr m ρ c 21))

theorem at3_v11 (c : Dev nD) : W3 m ρ c (Proc.devRef .tc main_v11) = shapeCast S16x1024x1 ((dat0 (V1 m ρ) c).arrAt 22 cfg0.N) shapeCasts_S16x1024_S16x1024x1 := by
  have e : W3 m ρ c (Proc.devRef .tc main_v11) = shapeCast S16x1024x1 (W2 m ρ c (Proc.devRef .tc main_v8_4)) shapeCasts_S16x1024_S16x1024x1 := by
    show StableHlo.after hostOps1 (W2 m ρ c) (Proc.devRef .tc main_v11) = _
    after_results
    rfl
  exact e.trans (congrArg (fun v => shapeCast S16x1024x1 v shapeCasts_S16x1024_S16x1024x1) (W2_arr m ρ c 22))

theorem at3_v12 (c : Dev nD) : W3 m ρ c (Proc.devRef .tc main_v12) = shapeCast S16x1024x1 ((dat0 (V1 m ρ) c).arrAt 23 cfg0.N) shapeCasts_S16x1024_S16x1024x1 := by
  have e : W3 m ρ c (Proc.devRef .tc main_v12) = shapeCast S16x1024x1 (W2 m ρ c (Proc.devRef .tc main_v8_5)) shapeCasts_S16x1024_S16x1024x1 := by
    show StableHlo.after hostOps1 (W2 m ρ c) (Proc.devRef .tc main_v12) = _
    after_results
    rfl
  exact e.trans (congrArg (fun v => shapeCast S16x1024x1 v shapeCasts_S16x1024_S16x1024x1) (W2_arr m ρ c 23))

theorem at3_v13 (c : Dev nD) : W3 m ρ c (Proc.devRef .tc main_v13) = shapeCast S16x1x512 (m ((c : Thread nD τ).loc main_arg0)) shapeCasts_S16x512_S16x1x512 := by
  have e : W3 m ρ c (Proc.devRef .tc main_v13) = shapeCast S16x1x512 (W2 m ρ c (Proc.devRef .tc main_arg0)) shapeCasts_S16x512_S16x1x512 := by
    show StableHlo.after hostOps1 (W2 m ρ c) (Proc.devRef .tc main_v13) = _
    after_results
    rfl
  exact e.trans (congrArg (fun v => shapeCast S16x1x512 v shapeCasts_S16x512_S16x1x512) (at2_arg0 m ρ c))

theorem at3_v14 (c : Dev nD) : W3 m ρ c (Proc.devRef .tc main_v14) = shapeCast S16x1x1024 (m ((c : Thread nD τ).loc main_arg13)) shapeCasts_S16x1024_S16x1x1024 := by
  have e : W3 m ρ c (Proc.devRef .tc main_v14) = shapeCast S16x1x1024 (W2 m ρ c (Proc.devRef .tc main_arg13)) shapeCasts_S16x1024_S16x1x1024 := by
    show StableHlo.after hostOps1 (W2 m ρ c) (Proc.devRef .tc main_v14) = _
    after_results
    rfl
  exact e.trans (congrArg (fun v => shapeCast S16x1x1024 v shapeCasts_S16x1024_S16x1x1024) (at2_arg13 m ρ c))

end Cert.KernelIdeal.Chase

end
-- ==== Proof.Cell.lean ====
/-
  The recurrent cell's step, entry by entry, on the extended reals.

  For a batch row `p` and a hidden unit `q` a gate's pre-activation is
  `(∑ₖ x p k · wx q k + ∑ₖ hl p k · wh q k) + b q`; the input, forget and output gates are its logistic
  `1 / (1 + e^(-z))` and the candidate its hyperbolic tangent. The new cell state is `f · c_last + i · ĉ`, the new hidden
  state `o · c`; the three eligibility vectors are `e · f + a` and the six eligibility matrices `e · f + a · v` with `a`
  one of `i (1 - i) ĉ`, `f (1 - f) c_last`, `(1 - ĉ²) i` and `v` the input row or the previous hidden row. Everything is
  written with the operations in the order both programs apply them, so no algebraic law is needed to meet either side,
  and the literal one is kept as its bit pattern, the same on both sides.
-/
import Idealize.ShloMosaic.PureOps.Ideal
import Idealize.ShloMosaic.PureOps.IdealRules
import Idealize.ShloMosaic.Lib.ValueIdx

noncomputable section

namespace Cert.Cell

open Idealize.ShloMosaic

/-- The literal `1.0` of both programs. -/
abbrev one : EReal := Ideal.ofBits .f32 0x3F800000#32

/-- The literal `1.0` denotes the number one. -/
theorem one_eq : one = 1 := IdealRules.sign_bit.ideal_onePat .f32

/-- A gate's pre-activation at batch row `p` and hidden unit `q`: the input row against row `q` of the input weights, plus
    the previous hidden row against row `q` of the recurrent weights, plus the bias. -/
def pre (x : Fin 16 → Fin 512 → EReal) (hl : Fin 16 → Fin 1024 → EReal) (wx : Fin 1024 → Fin 512 → EReal)
    (wh : Fin 1024 → Fin 1024 → EReal) (b : Fin 1024 → EReal) (p : Fin 16) (q : Fin 1024) : EReal :=
  ((∑ k : Fin 512, x p k * wx q k) + (∑ k : Fin 1024, hl p k * wh q k)) + b q

/-- The logistic function spelt as a quotient: `1 / (1 + e^(-z))`. -/
def sig (z : EReal) : EReal := Ideal.div one (one + Ideal.exp (-z))

/-- The quotient spelling is the logistic function. -/
theorem sig_eq_logistic (z : EReal) : sig z = Ideal.logistic z := by
  unfold sig Ideal.logistic; rw [one_eq]

/-- The new cell state `f · c_last + i · ĉ` from the three pre-activations and the previous cell state. -/
def cNew (zi zf zc cl : EReal) : EReal := sig zf * cl + sig zi * Ideal.tanh zc

/-- The new hidden state `o · c`. -/
def hNew (zi zf zo zc cl : EReal) : EReal := sig zo * cNew zi zf zc cl

/-- `i (1 - i) ĉ`: the input gate's derivative times the candidate. -/
def aI (zi zc : EReal) : EReal := (sig zi * (one - sig zi)) * Ideal.tanh zc

/-- `f (1 - f) c_last`: the forget gate's derivative times the previous cell state. -/
def aF (zf cl : EReal) : EReal := (sig zf * (one - sig zf)) * cl

/-- `(1 - ĉ²) i`: the candidate's derivative times the input gate. -/
def aC (zi zc : EReal) : EReal := (one - Ideal.tanh zc * Ideal.tanh zc) * sig zi

/-- An eligibility vector's entry after the step: `e · f + a`. -/
def ebNew (e zf a : EReal) : EReal := e * sig zf + a

/-- An eligibility matrix's entry after the step: `e · f + a · v`. -/
def ewNew (e zf a v : EReal) : EReal := e * sig zf + a * v

/-- The fifteen arrays the gates read, as functions of their coordinates: the input rows, the four gates' input weights,
    recurrent weights and biases, the previous hidden rows and the previous cell states. -/
structure In where
  x : Fin 16 → Fin 512 → EReal
  wix : Fin 1024 → Fin 512 → EReal
  wih : Fin 1024 → Fin 1024 → EReal
  bi : Fin 1024 → EReal
  wfx : Fin 1024 → Fin 512 → EReal
  wfh : Fin 1024 → Fin 1024 → EReal
  bf : Fin 1024 → EReal
  wox : Fin 1024 → Fin 512 → EReal
  woh : Fin 1024 → Fin 1024 → EReal
  bo : Fin 1024 → EReal
  wcx : Fin 1024 → Fin 512 → EReal
  wch : Fin 1024 → Fin 1024 → EReal
  bc : Fin 1024 → EReal
  hl : Fin 16 → Fin 1024 → EReal
  cl : Fin 16 → Fin 1024 → EReal

namespace In

variable (I : In)

/-- The four pre-activations. -/
def zi (p : Fin 16) (q : Fin 1024) : EReal := pre I.x I.hl I.wix I.wih I.bi p q
def zf (p : Fin 16) (q : Fin 1024) : EReal := pre I.x I.hl I.wfx I.wfh I.bf p q
def zo (p : Fin 16) (q : Fin 1024) : EReal := pre I.x I.hl I.wox I.woh I.bo p q
def zc (p : Fin 16) (q : Fin 1024) : EReal := pre I.x I.hl I.wcx I.wch I.bc p q

/-- The new hidden state, the new cell state, the forget gate, and the three factors `a`. -/
def h (p : Fin 16) (q : Fin 1024) : EReal := hNew (I.zi p q) (I.zf p q) (I.zo p q) (I.zc p q) (I.cl p q)
def c (p : Fin 16) (q : Fin 1024) : EReal := cNew (I.zi p q) (I.zf p q) (I.zc p q) (I.cl p q)
def f (p : Fin 16) (q : Fin 1024) : EReal := sig (I.zf p q)
def ai (p : Fin 16) (q : Fin 1024) : EReal := aI (I.zi p q) (I.zc p q)
def af (p : Fin 16) (q : Fin 1024) : EReal := aF (I.zf p q) (I.cl p q)
def ac (p : Fin 16) (q : Fin 1024) : EReal := aC (I.zi p q) (I.zc p q)

end In

/-- A function of two coordinates as an array over a rank-2 shape. -/
def at2 {n0 n1 : Nat} (g : Fin n0 → Fin n1 → EReal) : (⟨2, ![n0, n1]⟩ : Shape).Idx → EReal := fun i => g (i 0) (i 1)

/-- A rank-1, rank-2, rank-3 array as a function of its coordinates. -/
def c1 {n : Nat} (a : (⟨1, ![n]⟩ : Shape).Idx → EReal) : Fin n → EReal := fun q => a (ValueIdx.ix1 q)
def c2 {n0 n1 : Nat} (a : (⟨2, ![n0, n1]⟩ : Shape).Idx → EReal) : Fin n0 → Fin n1 → EReal := fun p q => a (ValueIdx.ix2 p q)
def c3 {n0 n1 n2 : Nat} (a : (⟨3, ![n0, n1, n2]⟩ : Shape).Idx → EReal) : Fin n0 → Fin n1 → Fin n2 → EReal :=
  fun p q r => a (ValueIdx.ix3 p q r)

/-- The gate inputs from the fifteen arrays, in the programs' argument order. -/
def In.ofArrays (a0 : (⟨2, ![16, 512]⟩ : Shape).Idx → EReal)
    (a1 : (⟨2, ![1024, 512]⟩ : Shape).Idx → EReal) (a2 : (⟨2, ![1024, 1024]⟩ : Shape).Idx → EReal) (a3 : (⟨1, ![1024]⟩ : Shape).Idx → EReal)
    (a4 : (⟨2, ![1024, 512]⟩ : Shape).Idx → EReal) (a5 : (⟨2, ![1024, 1024]⟩ : Shape).Idx → EReal) (a6 : (⟨1, ![1024]⟩ : Shape).Idx → EReal)
    (a7 : (⟨2, ![1024, 512]⟩ : Shape).Idx → EReal) (a8 : (⟨2, ![1024, 1024]⟩ : Shape).Idx → EReal) (a9 : (⟨1, ![1024]⟩ : Shape).Idx → EReal)
    (a10 : (⟨2, ![1024, 512]⟩ : Shape).Idx → EReal) (a11 : (⟨2, ![1024, 1024]⟩ : Shape).Idx → EReal) (a12 : (⟨1, ![1024]⟩ : Shape).Idx → EReal)
    (a13 : (⟨2, ![16, 1024]⟩ : Shape).Idx → EReal) (a14 : (⟨2, ![16, 1024]⟩ : Shape).Idx → EReal) : In :=
  ⟨c2 a0, c2 a1, c2 a2, c1 a3, c2 a4, c2 a5, c1 a6, c2 a7, c2 a8, c1 a9, c2 a10, c2 a11, c1 a12, c2 a13, c2 a14⟩

/-- An eligibility vector after the step, as an array: entry `(p, q)` is `e · f + a`. -/
def ebArr (e : (⟨2, ![16, 1024]⟩ : Shape).Idx → EReal) (zf a : Fin 16 → Fin 1024 → EReal) :
    (⟨2, ![16, 1024]⟩ : Shape).Idx → EReal := fun i => ebNew (e i) (zf (i 0) (i 1)) (a (i 0) (i 1))

/-- An eligibility matrix after the step, as an array: entry `(p, q, r)` is `e · f + a · v` with `f`, `a` at `(p, q)` and
    `v` at `(p, r)`. -/
def ewArr {K : Nat} (e : (⟨3, ![16, 1024, K]⟩ : Shape).Idx → EReal) (zf a : Fin 16 → Fin 1024 → EReal) (v : Fin 16 → Fin K → EReal) :
    (⟨3, ![16, 1024, K]⟩ : Shape).Idx → EReal := fun i => ewNew (e i) (zf (i 0) (i 1)) (a (i 0) (i 1)) (v (i 0) (i 2))

end Cert.Cell

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.GatesPre.lean ====
/-
  The gates' pre-activations, entry by entry.

  Each of the four gates of the cell first forms, for a batch row `p` and a hidden unit `q`, the number
  `(∑ₖ x p k · wx q k + ∑ₖ h p k · wh q k) + b q`: two matrix products that contract the second axis of both operands,
  into a zero accumulator, and a bias row repeated over the batch. This module reads each of these three pieces at the
  entry `(p, q)` and puts them together. A change of number format is the identity on the extended reals, so the
  narrowed copies of the input rows and of the previous hidden rows are the rows themselves.
-/
import proofs.«152007_j29575144800638_2_alg».proof.Proof.Cell
import proofs.«152007_j29575144800638_2_alg».proof.Proof.LibContract
import proofs.«152007_j29575144800638_2_alg».proof.Proof.Gen.KernelIdeal.Skeleton
import Idealize.ShloMosaic.Lib.ValueLayout
import Idealize.ShloMosaic.Lib.Pipeline.Value

noncomputable section

namespace Cert.KernelIdeal.GatesValue

open Cert.KernelIdeal Cert.KernelIdeal.Gen Idealize.ShloMosaic Idealize.ShloMosaic.ValueIdx Idealize.SL.Sem

/-- On the batch axis the left operand's index is the output's row. -/
theorem dotIn_lhs0 (i : S16x1024.Idx) (kk : dot_S16x512_S1024x512_S16x1024_1_1_0_0_n_n.contr.Idx) :
    (dot_S16x512_S1024x512_S16x1024_1_1_0_0_n_n.lhsIdx i kk 0).val = (i 0).val := by
  unfold DotDims.lhsIdx
  rw [dif_neg (show ¬(0 : Fin S16x512.rank) ∈ dot_S16x512_S1024x512_S16x1024_1_1_0_0_n_n.lhsBatch by decide),
    dif_pos (show (0 : Fin S16x512.rank) ∈ dot_S16x512_S1024x512_S16x1024_1_1_0_0_n_n.lhsNonContracting by decide)]
  rfl
/-- On its first axis the right operand's index is the output's column. -/
theorem dotIn_rhs0 (i : S16x1024.Idx) (kk : dot_S16x512_S1024x512_S16x1024_1_1_0_0_n_n.contr.Idx) :
    (dot_S16x512_S1024x512_S16x1024_1_1_0_0_n_n.rhsIdx i kk 0).val = (i 1).val := by
  unfold DotDims.rhsIdx
  rw [dif_neg (show ¬(0 : Fin S1024x512.rank) ∈ dot_S16x512_S1024x512_S16x1024_1_1_0_0_n_n.rhsBatch by decide),
    dif_pos (show (0 : Fin S1024x512.rank) ∈ dot_S16x512_S1024x512_S16x1024_1_1_0_0_n_n.rhsNonContracting by decide)]
  rfl

/-- The product of a `[16, 512]` array with a `[1024, 512]` array over their second axes, into the zero accumulator, is at
    `(p, q)` the sum over `k` of row `p` of the first against row `q` of the second. -/
theorem matmul_in_apply (l : FVec Ideal S16x512 .bf16) (r : FVec Ideal S1024x512 .bf16) (p : Fin 16) (q : Fin 1024) :
    matmul dot_S16x512_S1024x512_S16x1024_1_1_0_0_n_n none l r (constant (F := Ideal) S16x1024 .f32 0x00000000#32) (ix2 p q)
      = ∑ k : Fin 512, l (ix2 p k) * r (ix2 q k) := by
  refine ContractSingle.matmul_zero_single dot_S16x512_S1024x512_S16x1024_1_1_0_0_n_n none 512 rfl rfl l r (ix2 p q)
    (fun k => l (ix2 p k)) (fun k => r (ix2 q k)) (fun k => ?_) (fun k => ?_)
  · have hk := contrEquiv1_symm_val dot_S16x512_S1024x512_S16x1024_1_1_0_0_n_n 512 rfl rfl k
    refine congrArg l (funext fun a => Fin.ext ?_)
    match a with
    | ⟨0, _⟩ => exact dotIn_lhs0 _ _
    | ⟨1, _⟩ => exact (dot_S16x512_S1024x512_S16x1024_1_1_0_0_n_n.lhsIdx_val_of_single rfl _ _).trans hk
  · have hk := contrEquiv1_symm_val dot_S16x512_S1024x512_S16x1024_1_1_0_0_n_n 512 rfl rfl k
    refine congrArg r (funext fun a => Fin.ext ?_)
    match a with
    | ⟨0, _⟩ => exact dotIn_rhs0 _ _
    | ⟨1, _⟩ => exact (dot_S16x512_S1024x512_S16x1024_1_1_0_0_n_n.rhsIdx_val_of_single rfl _ _).trans hk

/-- On the batch axis the left operand's index is the output's row. -/
theorem dotRec_lhs0 (i : S16x1024.Idx) (kk : dot_S16x1024_S1024x1024_S16x1024_1_1_0_0_n_n.contr.Idx) :
    (dot_S16x1024_S1024x1024_S16x1024_1_1_0_0_n_n.lhsIdx i kk 0).val = (i 0).val := by
  unfold DotDims.lhsIdx
  rw [dif_neg (show ¬(0 : Fin S16x1024.rank) ∈ dot_S16x1024_S1024x1024_S16x1024_1_1_0_0_n_n.lhsBatch by decide),
    dif_pos (show (0 : Fin S16x1024.rank) ∈ dot_S16x1024_S1024x1024_S16x1024_1_1_0_0_n_n.lhsNonContracting by decide)]
  rfl
/-- On its first axis the right operand's index is the output's column. -/
theorem dotRec_rhs0 (i : S16x1024.Idx) (kk : dot_S16x1024_S1024x1024_S16x1024_1_1_0_0_n_n.contr.Idx) :
    (dot_S16x1024_S1024x1024_S16x1024_1_1_0_0_n_n.rhsIdx i kk 0).val = (i 1).val := by
  unfold DotDims.rhsIdx
  rw [dif_neg (show ¬(0 : Fin S1024x1024.rank) ∈ dot_S16x1024_S1024x1024_S16x1024_1_1_0_0_n_n.rhsBatch by decide),
    dif_pos (show (0 : Fin S1024x1024.rank) ∈ dot_S16x1024_S1024x1024_S16x1024_1_1_0_0_n_n.rhsNonContracting by decide)]
  rfl

/-- The same for a `[16, 1024]` array against a `[1024, 1024]` array: the recurrent product. -/
theorem matmul_rec_apply (l : FVec Ideal S16x1024 .bf16) (r : FVec Ideal S1024x1024 .bf16) (p : Fin 16) (q : Fin 1024) :
    matmul dot_S16x1024_S1024x1024_S16x1024_1_1_0_0_n_n none l r (constant (F := Ideal) S16x1024 .f32 0x00000000#32) (ix2 p q)
      = ∑ k : Fin 1024, l (ix2 p k) * r (ix2 q k) := by
  refine ContractSingle.matmul_zero_single dot_S16x1024_S1024x1024_S16x1024_1_1_0_0_n_n none 1024 rfl rfl l r (ix2 p q)
    (fun k => l (ix2 p k)) (fun k => r (ix2 q k)) (fun k => ?_) (fun k => ?_)
  · have hk := contrEquiv1_symm_val dot_S16x1024_S1024x1024_S16x1024_1_1_0_0_n_n 1024 rfl rfl k
    refine congrArg l (funext fun a => Fin.ext ?_)
    match a with
    | ⟨0, _⟩ => exact dotRec_lhs0 _ _
    | ⟨1, _⟩ => exact (dot_S16x1024_S1024x1024_S16x1024_1_1_0_0_n_n.lhsIdx_val_of_single rfl _ _).trans hk
  · have hk := contrEquiv1_symm_val dot_S16x1024_S1024x1024_S16x1024_1_1_0_0_n_n 1024 rfl rfl k
    refine congrArg r (funext fun a => Fin.ext ?_)
    match a with
    | ⟨0, _⟩ => exact dotRec_rhs0 _ _
    | ⟨1, _⟩ => exact (dot_S16x1024_S1024x1024_S16x1024_1_1_0_0_n_n.rhsIdx_val_of_single rfl _ _).trans hk

/-- The bias row, given a leading unit axis and repeated over the sixteen batch rows, is at `(p, q)` the bias of unit `q`. -/
theorem bias_apply (b : Vec Ideal S1024 .f32) (p : Fin 16) (q : Fin 1024) :
    broadcastTo S16x1024 (shapeCast S1x1024 b shapeCasts_S1024_S1x1024) broadcasts_S1x1024_S16x1024 (ix2 p q) = b (ix1 q) :=
  (broadcastTo_1b_ab_apply _ broadcasts_S1x1024_S16x1024 p q).trans
    (shapeCast_a_1a_apply b shapeCasts_S1024_S1x1024 (0 : Fin 1) q)

/-- A gate's pre-activation as the programs' operations form it from the five arrays it reads: the two products, their
    sum, and the bias added last. -/
def preVec (x : FVec Ideal S16x512 .bf16) (h : FVec Ideal S16x1024 .bf16) (wx : Vec Ideal S1024x512 .bf16)
    (wh : Vec Ideal S1024x1024 .bf16) (b : Vec Ideal S1024 .f32) : FVec Ideal S16x1024 .f32 :=
  addf (addf (matmul dot_S16x512_S1024x512_S16x1024_1_1_0_0_n_n none x
        (shapeCast S1024x512 wx shapeCasts_S1024x512_S1024x512 : FVec Ideal S1024x512 .bf16)
        (constant (F := Ideal) S16x1024 .f32 0x00000000#32))
      (matmul dot_S16x1024_S1024x1024_S16x1024_1_1_0_0_n_n none h
        (shapeCast S1024x1024 wh shapeCasts_S1024x1024_S1024x1024 : FVec Ideal S1024x1024 .bf16)
        (constant (F := Ideal) S16x1024 .f32 0x00000000#32)))
    (broadcastTo S16x1024 (shapeCast S1x1024 b shapeCasts_S1024_S1x1024) broadcasts_S1x1024_S16x1024)

/-- At `(p, q)` it is the specification's pre-activation of the five arrays read as functions of their coordinates. -/
theorem preVec_apply (x : FVec Ideal S16x512 .bf16) (h : FVec Ideal S16x1024 .bf16) (wx : Vec Ideal S1024x512 .bf16)
    (wh : Vec Ideal S1024x1024 .bf16) (b : Vec Ideal S1024 .f32) (p : Fin 16) (q : Fin 1024) :
    preVec x h wx wh b (ix2 p q) = Cell.pre (Cell.c2 x) (Cell.c2 h) (Cell.c2 wx) (Cell.c2 wh) (Cell.c1 b) p q := by
  unfold preVec
  rw [shapeCast_self, shapeCast_self, addf_apply, addf_apply, matmul_in_apply, matmul_rec_apply, bias_apply]
  rfl

/-- The input gate's pre-activation in the kernel's body. -/
theorem pay6_eq (v0 : Vec Ideal S16x512 .f32) (v2 : Vec Ideal S16x1024 .f32) (v5 : Vec Ideal S1024x512 .bf16)
    (v7 : Vec Ideal S1024x1024 .bf16) (v9 : Vec Ideal S1024 .f32) :
    k0_pay6 (F := Ideal) v0 v2 v5 v7 v9 = preVec v0 v2 v5 v7 v9 := rfl

/-- The forget gate's pre-activation in the kernel's body. -/
theorem pay7_eq (v0 : Vec Ideal S16x512 .f32) (v2 : Vec Ideal S16x1024 .f32) (v16 : Vec Ideal S1024x512 .bf16)
    (v18 : Vec Ideal S1024x1024 .bf16) (v20 : Vec Ideal S1024 .f32) :
    k0_pay7 (F := Ideal) v0 v2 v16 v18 v20 = preVec v0 v2 v16 v18 v20 := rfl

/-- The candidate in the kernel's body: the hyperbolic tangent of its pre-activation. -/
theorem pay12_eq (v1 : FVec Ideal S16x512 .bf16) (v3 : FVec Ideal S16x1024 .bf16) (v38 : Vec Ideal S1024x512 .bf16)
    (v40 : Vec Ideal S1024x1024 .bf16) (v42 : Vec Ideal S1024 .f32) :
    k0_pay12 (F := Ideal) v1 v3 v38 v40 v42 = tanh (preVec v1 v3 v38 v40 v42) := rfl

/-- The narrowed input rows and previous hidden rows are the rows. -/
theorem pay4_eq (v0 : Vec Ideal S16x512 .f32) : k0_pay4 (F := Ideal) v0 = v0 := rfl
theorem pay5_eq (v2 : Vec Ideal S16x1024 .f32) : k0_pay5 (F := Ideal) v2 = v2 := rfl

/-- The output gate's pre-activation, whose first product the body forms ahead of the rest. -/
theorem outPre_eq (v0 : Vec Ideal S16x512 .f32) (v3 : FVec Ideal S16x1024 .bf16) (v27 : Vec Ideal S1024x512 .bf16)
    (v29 : Vec Ideal S1024x1024 .bf16) (v31 : Vec Ideal S1024 .f32) :
    addf (addf (k0_pay9 (F := Ideal) v0 v27)
        (matmul dot_S16x1024_S1024x1024_S16x1024_1_1_0_0_n_n none v3 (k0_pay8 (F := Ideal) v29)
          (constant (F := Ideal) S16x1024 .f32 0x00000000#32)))
      (broadcastTo S16x1024 (shapeCast S1x1024 v31 shapeCasts_S1024_S1x1024) broadcasts_S1x1024_S16x1024)
      = preVec v0 v3 v27 v29 v31 := rfl

end Cert.KernelIdeal.GatesValue

end
-- ==== Proof.GatesCell.lean ====
/-
  The cell's step at one entry, as the kernel's body computes it.

  From the four pre-activations at `(p, q)` the body forms the three gates by the logistic function and the candidate by
  the hyperbolic tangent, then the new cell state, the new hidden state, the three factors and the three eligibility
  vectors, each by a few multiplications, additions and subtractions applied entry by entry. Read at `(p, q)` each is the
  specification's expression of the same name in the pre-activations, the previous cell state and the old eligibility
  entry; the logistic function is the specification's quotient `1 / (1 + e^(-z))`.
-/
import proofs.«152007_j29575144800638_2_alg».proof.Proof.GatesPre

noncomputable section

namespace Cert.KernelIdeal.GatesValue

open Cert.KernelIdeal Cert.KernelIdeal.Gen Idealize.ShloMosaic Idealize.ShloMosaic.ValueIdx Idealize.SL.Sem

/-- The new hidden state at `(p, q)`, from the fifteen arrays the gates read. -/
theorem h_apply (x0 : Vec Ideal S16x512 .f32) (x1 : Vec Ideal S1024x512 .bf16) (x2 : Vec Ideal S1024x1024 .bf16) (x3 : Vec Ideal S1024 .f32)
    (x4 : Vec Ideal S1024x512 .bf16) (x5 : Vec Ideal S1024x1024 .bf16) (x6 : Vec Ideal S1024 .f32)
    (x7 : Vec Ideal S1024x512 .bf16) (x8 : Vec Ideal S1024x1024 .bf16) (x9 : Vec Ideal S1024 .f32)
    (x10 : Vec Ideal S1024x512 .bf16) (x11 : Vec Ideal S1024x1024 .bf16) (x12 : Vec Ideal S1024 .f32)
    (x13 : Vec Ideal S16x1024 .f32) (x14 : Vec Ideal S16x1024 .f32)
    (p : Fin 16) (q : Fin 1024) :
    k0_pay14 (k0_pay4 x0) (k0_pay5 x13) x14 (k0_pay6 x0 x13 x1 x2 x3) (k0_pay7 x0 x13 x4 x5 x6) (k0_pay8 x8) x9 (k0_pay9 x0 x7) x10 x11 x12 (ix2 p q)
      = (Cell.In.ofArrays x0 x1 x2 x3 x4 x5 x6 x7 x8 x9 x10 x11 x12 x13 x14).h p q := by
  show Ideal.logistic (preVec x0 x13 x7 x8 x9 (ix2 p q)) * (Ideal.logistic (preVec x0 x13 x4 x5 x6 (ix2 p q)) * x14 (ix2 p q) + Ideal.logistic (preVec x0 x13 x1 x2 x3 (ix2 p q)) * Ideal.tanh (preVec x0 x13 x10 x11 x12 (ix2 p q))) = _
  simp only [preVec_apply, ← Cell.sig_eq_logistic]
  rfl

/-- The new cell state at `(p, q)`, from the fifteen arrays the gates read. -/
theorem c_apply (x0 : Vec Ideal S16x512 .f32) (x1 : Vec Ideal S1024x512 .bf16) (x2 : Vec Ideal S1024x1024 .bf16) (x3 : Vec Ideal S1024 .f32)
    (x4 : Vec Ideal S1024x512 .bf16) (x5 : Vec Ideal S1024x1024 .bf16) (x6 : Vec Ideal S1024 .f32)
    (x7 : Vec Ideal S1024x512 .bf16) (x8 : Vec Ideal S1024x1024 .bf16) (x9 : Vec Ideal S1024 .f32)
    (x10 : Vec Ideal S1024x512 .bf16) (x11 : Vec Ideal S1024x1024 .bf16) (x12 : Vec Ideal S1024 .f32)
    (x13 : Vec Ideal S16x1024 .f32) (x14 : Vec Ideal S16x1024 .f32)
    (p : Fin 16) (q : Fin 1024) :
    k0_pay13 (k0_pay4 x0) (k0_pay5 x13) x14 (k0_pay6 x0 x13 x1 x2 x3) (k0_pay7 x0 x13 x4 x5 x6) x10 x11 x12 (ix2 p q)
      = (Cell.In.ofArrays x0 x1 x2 x3 x4 x5 x6 x7 x8 x9 x10 x11 x12 x13 x14).c p q := by
  show Ideal.logistic (preVec x0 x13 x4 x5 x6 (ix2 p q)) * x14 (ix2 p q) + Ideal.logistic (preVec x0 x13 x1 x2 x3 (ix2 p q)) * Ideal.tanh (preVec x0 x13 x10 x11 x12 (ix2 p q)) = _
  simp only [preVec_apply, ← Cell.sig_eq_logistic]
  rfl

/-- The forget gate at `(p, q)`, from the fifteen arrays the gates read. -/
theorem f_apply (x0 : Vec Ideal S16x512 .f32) (x1 : Vec Ideal S1024x512 .bf16) (x2 : Vec Ideal S1024x1024 .bf16) (x3 : Vec Ideal S1024 .f32)
    (x4 : Vec Ideal S1024x512 .bf16) (x5 : Vec Ideal S1024x1024 .bf16) (x6 : Vec Ideal S1024 .f32)
    (x7 : Vec Ideal S1024x512 .bf16) (x8 : Vec Ideal S1024x1024 .bf16) (x9 : Vec Ideal S1024 .f32)
    (x10 : Vec Ideal S1024x512 .bf16) (x11 : Vec Ideal S1024x1024 .bf16) (x12 : Vec Ideal S1024 .f32)
    (x13 : Vec Ideal S16x1024 .f32) (x14 : Vec Ideal S16x1024 .f32)
    (p : Fin 16) (q : Fin 1024) :
    k0_pay11 (k0_pay7 x0 x13 x4 x5 x6) (ix2 p q)
      = (Cell.In.ofArrays x0 x1 x2 x3 x4 x5 x6 x7 x8 x9 x10 x11 x12 x13 x14).f p q := by
  show Ideal.logistic (preVec x0 x13 x4 x5 x6 (ix2 p q)) = _
  simp only [preVec_apply, ← Cell.sig_eq_logistic]
  rfl

/-- The input gate's factor `i (1 - i) ĉ` at `(p, q)`, from the fifteen arrays the gates read. -/
theorem ai_apply (x0 : Vec Ideal S16x512 .f32) (x1 : Vec Ideal S1024x512 .bf16) (x2 : Vec Ideal S1024x1024 .bf16) (x3 : Vec Ideal S1024 .f32)
    (x4 : Vec Ideal S1024x512 .bf16) (x5 : Vec Ideal S1024x1024 .bf16) (x6 : Vec Ideal S1024 .f32)
    (x7 : Vec Ideal S1024x512 .bf16) (x8 : Vec Ideal S1024x1024 .bf16) (x9 : Vec Ideal S1024 .f32)
    (x10 : Vec Ideal S1024x512 .bf16) (x11 : Vec Ideal S1024x1024 .bf16) (x12 : Vec Ideal S1024 .f32)
    (x13 : Vec Ideal S16x1024 .f32) (x14 : Vec Ideal S16x1024 .f32)
    (p : Fin 16) (q : Fin 1024) :
    k0_pay15 (k0_pay4 x0) (k0_pay5 x13) (k0_pay6 x0 x13 x1 x2 x3) x10 x11 x12 (ix2 p q)
      = (Cell.In.ofArrays x0 x1 x2 x3 x4 x5 x6 x7 x8 x9 x10 x11 x12 x13 x14).ai p q := by
  show Ideal.logistic (preVec x0 x13 x1 x2 x3 (ix2 p q)) * (Cell.one - Ideal.logistic (preVec x0 x13 x1 x2 x3 (ix2 p q))) * Ideal.tanh (preVec x0 x13 x10 x11 x12 (ix2 p q)) = _
  simp only [preVec_apply, ← Cell.sig_eq_logistic]
  rfl

/-- The forget gate's factor `f (1 - f) c_last` at `(p, q)`, from the fifteen arrays the gates read. -/
theorem af_apply (x0 : Vec Ideal S16x512 .f32) (x1 : Vec Ideal S1024x512 .bf16) (x2 : Vec Ideal S1024x1024 .bf16) (x3 : Vec Ideal S1024 .f32)
    (x4 : Vec Ideal S1024x512 .bf16) (x5 : Vec Ideal S1024x1024 .bf16) (x6 : Vec Ideal S1024 .f32)
    (x7 : Vec Ideal S1024x512 .bf16) (x8 : Vec Ideal S1024x1024 .bf16) (x9 : Vec Ideal S1024 .f32)
    (x10 : Vec Ideal S1024x512 .bf16) (x11 : Vec Ideal S1024x1024 .bf16) (x12 : Vec Ideal S1024 .f32)
    (x13 : Vec Ideal S16x1024 .f32) (x14 : Vec Ideal S16x1024 .f32)
    (p : Fin 16) (q : Fin 1024) :
    k0_pay16 x14 (k0_pay7 x0 x13 x4 x5 x6) (ix2 p q)
      = (Cell.In.ofArrays x0 x1 x2 x3 x4 x5 x6 x7 x8 x9 x10 x11 x12 x13 x14).af p q := by
  show Ideal.logistic (preVec x0 x13 x4 x5 x6 (ix2 p q)) * (Cell.one - Ideal.logistic (preVec x0 x13 x4 x5 x6 (ix2 p q))) * x14 (ix2 p q) = _
  simp only [preVec_apply, ← Cell.sig_eq_logistic]
  rfl

/-- The candidate's factor `(1 - ĉ²) i` at `(p, q)`, from the fifteen arrays the gates read. -/
theorem ac_apply (x0 : Vec Ideal S16x512 .f32) (x1 : Vec Ideal S1024x512 .bf16) (x2 : Vec Ideal S1024x1024 .bf16) (x3 : Vec Ideal S1024 .f32)
    (x4 : Vec Ideal S1024x512 .bf16) (x5 : Vec Ideal S1024x1024 .bf16) (x6 : Vec Ideal S1024 .f32)
    (x7 : Vec Ideal S1024x512 .bf16) (x8 : Vec Ideal S1024x1024 .bf16) (x9 : Vec Ideal S1024 .f32)
    (x10 : Vec Ideal S1024x512 .bf16) (x11 : Vec Ideal S1024x1024 .bf16) (x12 : Vec Ideal S1024 .f32)
    (x13 : Vec Ideal S16x1024 .f32) (x14 : Vec Ideal S16x1024 .f32)
    (p : Fin 16) (q : Fin 1024) :
    k0_pay17 (k0_pay4 x0) (k0_pay5 x13) (k0_pay6 x0 x13 x1 x2 x3) x10 x11 x12 (ix2 p q)
      = (Cell.In.ofArrays x0 x1 x2 x3 x4 x5 x6 x7 x8 x9 x10 x11 x12 x13 x14).ac p q := by
  show (Cell.one - Ideal.tanh (preVec x0 x13 x10 x11 x12 (ix2 p q)) * Ideal.tanh (preVec x0 x13 x10 x11 x12 (ix2 p q))) * Ideal.logistic (preVec x0 x13 x1 x2 x3 (ix2 p q)) = _
  simp only [preVec_apply, ← Cell.sig_eq_logistic]
  rfl

/-- The input gate's eligibility vector after the step at `(p, q)`: the old entry times the forget gate, plus the factor. -/
theorem ebi_apply (x0 : Vec Ideal S16x512 .f32) (x1 : Vec Ideal S1024x512 .bf16) (x2 : Vec Ideal S1024x1024 .bf16) (x3 : Vec Ideal S1024 .f32)
    (x4 : Vec Ideal S1024x512 .bf16) (x5 : Vec Ideal S1024x1024 .bf16) (x6 : Vec Ideal S1024 .f32)
    (x7 : Vec Ideal S1024x512 .bf16) (x8 : Vec Ideal S1024x1024 .bf16) (x9 : Vec Ideal S1024 .f32)
    (x10 : Vec Ideal S1024x512 .bf16) (x11 : Vec Ideal S1024x1024 .bf16) (x12 : Vec Ideal S1024 .f32)
    (x13 : Vec Ideal S16x1024 .f32) (x14 : Vec Ideal S16x1024 .f32)
    (x15 : Vec Ideal S16x1024 .f32) (p : Fin 16) (q : Fin 1024) :
    k0_pay1 (k0_pay11 (k0_pay7 x0 x13 x4 x5 x6)) (k0_pay15 (k0_pay4 x0) (k0_pay5 x13) (k0_pay6 x0 x13 x1 x2 x3) x10 x11 x12) x15 (ix2 p q)
      = Cell.ebNew (x15 (ix2 p q)) ((Cell.In.ofArrays x0 x1 x2 x3 x4 x5 x6 x7 x8 x9 x10 x11 x12 x13 x14).zf p q) ((Cell.In.ofArrays x0 x1 x2 x3 x4 x5 x6 x7 x8 x9 x10 x11 x12 x13 x14).ai p q) := by
  show x15 (ix2 p q) * (k0_pay11 (k0_pay7 x0 x13 x4 x5 x6)) (ix2 p q) + (k0_pay15 (k0_pay4 x0) (k0_pay5 x13) (k0_pay6 x0 x13 x1 x2 x3) x10 x11 x12) (ix2 p q) = _
  rw [f_apply, ai_apply]
  rfl

/-- The forget gate's eligibility vector after the step at `(p, q)`: the old entry times the forget gate, plus the factor. -/
theorem ebf_apply (x0 : Vec Ideal S16x512 .f32) (x1 : Vec Ideal S1024x512 .bf16) (x2 : Vec Ideal S1024x1024 .bf16) (x3 : Vec Ideal S1024 .f32)
    (x4 : Vec Ideal S1024x512 .bf16) (x5 : Vec Ideal S1024x1024 .bf16) (x6 : Vec Ideal S1024 .f32)
    (x7 : Vec Ideal S1024x512 .bf16) (x8 : Vec Ideal S1024x1024 .bf16) (x9 : Vec Ideal S1024 .f32)
    (x10 : Vec Ideal S1024x512 .bf16) (x11 : Vec Ideal S1024x1024 .bf16) (x12 : Vec Ideal S1024 .f32)
    (x13 : Vec Ideal S16x1024 .f32) (x14 : Vec Ideal S16x1024 .f32)
    (x16 : Vec Ideal S16x1024 .f32) (p : Fin 16) (q : Fin 1024) :
    k0_pay2 (k0_pay11 (k0_pay7 x0 x13 x4 x5 x6)) (k0_pay16 x14 (k0_pay7 x0 x13 x4 x5 x6)) x16 (ix2 p q)
      = Cell.ebNew (x16 (ix2 p q)) ((Cell.In.ofArrays x0 x1 x2 x3 x4 x5 x6 x7 x8 x9 x10 x11 x12 x13 x14).zf p q) ((Cell.In.ofArrays x0 x1 x2 x3 x4 x5 x6 x7 x8 x9 x10 x11 x12 x13 x14).af p q) := by
  show x16 (ix2 p q) * (k0_pay11 (k0_pay7 x0 x13 x4 x5 x6)) (ix2 p q) + (k0_pay16 x14 (k0_pay7 x0 x13 x4 x5 x6)) (ix2 p q) = _
  rw [f_apply, af_apply]
  rfl

/-- The candidate gate's eligibility vector after the step at `(p, q)`: the old entry times the forget gate, plus the factor. -/
theorem ebc_apply (x0 : Vec Ideal S16x512 .f32) (x1 : Vec Ideal S1024x512 .bf16) (x2 : Vec Ideal S1024x1024 .bf16) (x3 : Vec Ideal S1024 .f32)
    (x4 : Vec Ideal S1024x512 .bf16) (x5 : Vec Ideal S1024x1024 .bf16) (x6 : Vec Ideal S1024 .f32)
    (x7 : Vec Ideal S1024x512 .bf16) (x8 : Vec Ideal S1024x1024 .bf16) (x9 : Vec Ideal S1024 .f32)
    (x10 : Vec Ideal S1024x512 .bf16) (x11 : Vec Ideal S1024x1024 .bf16) (x12 : Vec Ideal S1024 .f32)
    (x13 : Vec Ideal S16x1024 .f32) (x14 : Vec Ideal S16x1024 .f32)
    (x17 : Vec Ideal S16x1024 .f32) (p : Fin 16) (q : Fin 1024) :
    k0_pay3 (k0_pay11 (k0_pay7 x0 x13 x4 x5 x6)) (k0_pay17 (k0_pay4 x0) (k0_pay5 x13) (k0_pay6 x0 x13 x1 x2 x3) x10 x11 x12) x17 (ix2 p q)
      = Cell.ebNew (x17 (ix2 p q)) ((Cell.In.ofArrays x0 x1 x2 x3 x4 x5 x6 x7 x8 x9 x10 x11 x12 x13 x14).zf p q) ((Cell.In.ofArrays x0 x1 x2 x3 x4 x5 x6 x7 x8 x9 x10 x11 x12 x13 x14).ac p q) := by
  show x17 (ix2 p q) * (k0_pay11 (k0_pay7 x0 x13 x4 x5 x6)) (ix2 p q) + (k0_pay17 (k0_pay4 x0) (k0_pay5 x13) (k0_pay6 x0 x13 x1 x2 x3) x10 x11 x12) (ix2 p q) = _
  rw [f_apply, ac_apply]
  rfl

end Cert.KernelIdeal.GatesValue

end
-- ==== Proof.GatesOut.lean ====
/-
  The nine arrays the gates leave.

  The gates run at a single grid point, and at it every window's block is its whole array: the block's offset is zero
  on every axis and its extent the array's. So each input block is the array as the region finds it, each output block
  the whole output array, and what the one point writes back is the body's result read at every entry `(p, q)` — the
  specification's expression of the fifteen arrays the gates read and, for an eligibility vector, of its old contents.
-/
import proofs.«152007_j29575144800638_2_alg».proof.Proof.GatesCell
import proofs.«152007_j29575144800638_2_alg».proof.Proof.FrameKernelIdeal
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.GatesValue

open Cert.KernelIdeal Cert.KernelIdeal.Gen Cert.KernelIdeal.GenP Idealize.ShloMosaic.ValueIdx

variable (V : (c : Dev nD) → (b : Ref sig .tc) → Buf (Elt Ideal) ((c : Thread nD τ).loc b)) (c : Dev nD)

theorem zero2 : (![0, 0] : Fin 2 → Nat) = fun _ => 0 := funext fun a => by fin_cases a <;> rfl
theorem zero1 : (![0] : Fin 1 → Nat) = fun _ => 0 := funext fun a => by fin_cases a <;> rfl

/-- The fifteen arrays the gates read, as the region finds them, bundled as the specification's inputs. -/
abbrev gateIn : Cell.In :=
  Cell.In.ofArrays (V c (Pipeline.arrRef spec0 0) : S16x512.Idx → EReal)
    (V c (Pipeline.arrRef spec0 1) : S1024x512.Idx → EReal)
    (V c (Pipeline.arrRef spec0 2) : S1024x1024.Idx → EReal)
    (V c (Pipeline.arrRef spec0 3) : S1024.Idx → EReal)
    (V c (Pipeline.arrRef spec0 4) : S1024x512.Idx → EReal)
    (V c (Pipeline.arrRef spec0 5) : S1024x1024.Idx → EReal)
    (V c (Pipeline.arrRef spec0 6) : S1024.Idx → EReal)
    (V c (Pipeline.arrRef spec0 7) : S1024x512.Idx → EReal)
    (V c (Pipeline.arrRef spec0 8) : S1024x1024.Idx → EReal)
    (V c (Pipeline.arrRef spec0 9) : S1024.Idx → EReal)
    (V c (Pipeline.arrRef spec0 10) : S1024x512.Idx → EReal)
    (V c (Pipeline.arrRef spec0 11) : S1024x1024.Idx → EReal)
    (V c (Pipeline.arrRef spec0 12) : S1024.Idx → EReal)
    (V c (Pipeline.arrRef spec0 13) : S16x1024.Idx → EReal)
    (V c (Pipeline.arrRef spec0 14) : S16x1024.Idx → EReal)

/-! ## Every block is its whole array -/

/-- Window 0's block starts at zero on every axis. -/
theorem off0 : (fun a => win0_0.index t0_0 a * main_arg0.ty.shape.size a) = fun _ => 0 :=
  funext fun a => by fin_cases a <;> rfl
/-- so the block the body reads is the array. -/
theorem blk0 : iblk0 (F := Ideal) V c 0 t0_0 = (V c (Pipeline.arrRef spec0 0) : S16x512.Idx → EReal) :=
  Memref.read_access_unit_zero (Elt Ideal) main_arg0 off0 (fun a => by rw [congrFun off0 a]; simp) _
/-- Window 1's block starts at zero on every axis. -/
theorem off1 : (fun a => win0_1.index t0_0 a * main_v0.ty.shape.size a) = fun _ => 0 :=
  funext fun a => by fin_cases a <;> rfl
/-- so the block the body reads is the array. -/
theorem blk1 : iblk0 (F := Ideal) V c 1 t0_0 = (V c (Pipeline.arrRef spec0 1) : S1024x512.Idx → EReal) :=
  Memref.read_access_unit_zero (Elt Ideal) main_v0 off1 (fun a => by rw [congrFun off1 a]; simp) _
/-- Window 2's block starts at zero on every axis. -/
theorem off2 : (fun a => win0_2.index t0_0 a * main_v1.ty.shape.size a) = fun _ => 0 :=
  funext fun a => by fin_cases a <;> rfl
/-- so the block the body reads is the array. -/
theorem blk2 : iblk0 (F := Ideal) V c 2 t0_0 = (V c (Pipeline.arrRef spec0 2) : S1024x1024.Idx → EReal) :=
  Memref.read_access_unit_zero (Elt Ideal) main_v1 off2 (fun a => by rw [congrFun off2 a]; simp) _
/-- Window 3's block starts at zero on every axis. -/
theorem off3 : (fun a => win0_3.index t0_0 a * main_arg3.ty.shape.size a) = fun _ => 0 :=
  funext fun a => by fin_cases a <;> rfl
/-- so the block the body reads is the array. -/
theorem blk3 : iblk0 (F := Ideal) V c 3 t0_0 = (V c (Pipeline.arrRef spec0 3) : S1024.Idx → EReal) :=
  Memref.read_access_unit_zero (Elt Ideal) main_arg3 off3 (fun a => by rw [congrFun off3 a]; simp) _
/-- Window 4's block starts at zero on every axis. -/
theorem off4 : (fun a => win0_4.index t0_0 a * main_v2.ty.shape.size a) = fun _ => 0 :=
  funext fun a => by fin_cases a <;> rfl
/-- so the block the body reads is the array. -/
theorem blk4 : iblk0 (F := Ideal) V c 4 t0_0 = (V c (Pipeline.arrRef spec0 4) : S1024x512.Idx → EReal) :=
  Memref.read_access_unit_zero (Elt Ideal) main_v2 off4 (fun a => by rw [congrFun off4 a]; simp) _
/-- Window 5's block starts at zero on every axis. -/
theorem off5 : (fun a => win0_5.index t0_0 a * main_v3.ty.shape.size a) = fun _ => 0 :=
  funext fun a => by fin_cases a <;> rfl
/-- so the block the body reads is the array. -/
theorem blk5 : iblk0 (F := Ideal) V c 5 t0_0 = (V c (Pipeline.arrRef spec0 5) : S1024x1024.Idx → EReal) :=
  Memref.read_access_unit_zero (Elt Ideal) main_v3 off5 (fun a => by rw [congrFun off5 a]; simp) _
/-- Window 6's block starts at zero on every axis. -/
theorem off6 : (fun a => win0_6.index t0_0 a * main_arg6.ty.shape.size a) = fun _ => 0 :=
  funext fun a => by fin_cases a <;> rfl
/-- so the block the body reads is the array. -/
theorem blk6 : iblk0 (F := Ideal) V c 6 t0_0 = (V c (Pipeline.arrRef spec0 6) : S1024.Idx → EReal) :=
  Memref.read_access_unit_zero (Elt Ideal) main_arg6 off6 (fun a => by rw [congrFun off6 a]; simp) _
/-- Window 7's block starts at zero on every axis. -/
theorem off7 : (fun a => win0_7.index t0_0 a * main_v4.ty.shape.size a) = fun _ => 0 :=
  funext fun a => by fin_cases a <;> rfl
/-- so the block the body reads is the array. -/
theorem blk7 : iblk0 (F := Ideal) V c 7 t0_0 = (V c (Pipeline.arrRef spec0 7) : S1024x512.Idx → EReal) :=
  Memref.read_access_unit_zero (Elt Ideal) main_v4 off7 (fun a => by rw [congrFun off7 a]; simp) _
/-- Window 8's block starts at zero on every axis. -/
theorem off8 : (fun a => win0_8.index t0_0 a * main_v5.ty.shape.size a) = fun _ => 0 :=
  funext fun a => by fin_cases a <;> rfl
/-- so the block the body reads is the array. -/
theorem blk8 : iblk0 (F := Ideal) V c 8 t0_0 = (V c (Pipeline.arrRef spec0 8) : S1024x1024.Idx → EReal) :=
  Memref.read_access_unit_zero (Elt Ideal) main_v5 off8 (fun a => by rw [congrFun off8 a]; simp) _
/-- Window 9's block starts at zero on every axis. -/
theorem off9 : (fun a => win0_9.index t0_0 a * main_arg9.ty.shape.size a) = fun _ => 0 :=
  funext fun a => by fin_cases a <;> rfl
/-- so the block the body reads is the array. -/
theorem blk9 : iblk0 (F := Ideal) V c 9 t0_0 = (V c (Pipeline.arrRef spec0 9) : S1024.Idx → EReal) :=
  Memref.read_access_unit_zero (Elt Ideal) main_arg9 off9 (fun a => by rw [congrFun off9 a]; simp) _
/-- Window 10's block starts at zero on every axis. -/
theorem off10 : (fun a => win0_10.index t0_0 a * main_v6.ty.shape.size a) = fun _ => 0 :=
  funext fun a => by fin_cases a <;> rfl
/-- so the block the body reads is the array. -/
theorem blk10 : iblk0 (F := Ideal) V c 10 t0_0 = (V c (Pipeline.arrRef spec0 10) : S1024x512.Idx → EReal) :=
  Memref.read_access_unit_zero (Elt Ideal) main_v6 off10 (fun a => by rw [congrFun off10 a]; simp) _
/-- Window 11's block starts at zero on every axis. -/
theorem off11 : (fun a => win0_11.index t0_0 a * main_v7.ty.shape.size a) = fun _ => 0 :=
  funext fun a => by fin_cases a <;> rfl
/-- so the block the body reads is the array. -/
theorem blk11 : iblk0 (F := Ideal) V c 11 t0_0 = (V c (Pipeline.arrRef spec0 11) : S1024x1024.Idx → EReal) :=
  Memref.read_access_unit_zero (Elt Ideal) main_v7 off11 (fun a => by rw [congrFun off11 a]; simp) _
/-- Window 12's block starts at zero on every axis. -/
theorem off12 : (fun a => win0_12.index t0_0 a * main_arg12.ty.shape.size a) = fun _ => 0 :=
  funext fun a => by fin_cases a <;> rfl
/-- so the block the body reads is the array. -/
theorem blk12 : iblk0 (F := Ideal) V c 12 t0_0 = (V c (Pipeline.arrRef spec0 12) : S1024.Idx → EReal) :=
  Memref.read_access_unit_zero (Elt Ideal) main_arg12 off12 (fun a => by rw [congrFun off12 a]; simp) _
/-- Window 13's block starts at zero on every axis. -/
theorem off13 : (fun a => win0_13.index t0_0 a * main_arg13.ty.shape.size a) = fun _ => 0 :=
  funext fun a => by fin_cases a <;> rfl
/-- so the block the body reads is the array. -/
theorem blk13 : iblk0 (F := Ideal) V c 13 t0_0 = (V c (Pipeline.arrRef spec0 13) : S16x1024.Idx → EReal) :=
  Memref.read_access_unit_zero (Elt Ideal) main_arg13 off13 (fun a => by rw [congrFun off13 a]; simp) _
/-- Window 14's block starts at zero on every axis. -/
theorem off14 : (fun a => win0_14.index t0_0 a * main_arg14.ty.shape.size a) = fun _ => 0 :=
  funext fun a => by fin_cases a <;> rfl
/-- so the block the body reads is the array. -/
theorem blk14 : iblk0 (F := Ideal) V c 14 t0_0 = (V c (Pipeline.arrRef spec0 14) : S16x1024.Idx → EReal) :=
  Memref.read_access_unit_zero (Elt Ideal) main_arg14 off14 (fun a => by rw [congrFun off14 a]; simp) _
/-- Window 15's block starts at zero on every axis. -/
theorem off15 : (fun a => win0_15.index t0_0 a * main_arg17.ty.shape.size a) = fun _ => 0 :=
  funext fun a => by fin_cases a <;> rfl
/-- so the block the body reads is the array. -/
theorem blk15 : iblk0 (F := Ideal) V c 15 t0_0 = (V c (Pipeline.arrRef spec0 15) : S16x1024.Idx → EReal) :=
  Memref.read_access_unit_zero (Elt Ideal) main_arg17 off15 (fun a => by rw [congrFun off15 a]; simp) _
/-- Window 16's block starts at zero on every axis. -/
theorem off16 : (fun a => win0_16.index t0_0 a * main_arg20.ty.shape.size a) = fun _ => 0 :=
  funext fun a => by fin_cases a <;> rfl
/-- so the block the body reads is the array. -/
theorem blk16 : iblk0 (F := Ideal) V c 16 t0_0 = (V c (Pipeline.arrRef spec0 16) : S16x1024.Idx → EReal) :=
  Memref.read_access_unit_zero (Elt Ideal) main_arg20 off16 (fun a => by rw [congrFun off16 a]; simp) _
/-- Window 17's block starts at zero on every axis. -/
theorem off17 : (fun a => win0_17.index t0_0 a * main_arg23.ty.shape.size a) = fun _ => 0 :=
  funext fun a => by fin_cases a <;> rfl
/-- so the block the body reads is the array. -/
theorem blk17 : iblk0 (F := Ideal) V c 17 t0_0 = (V c (Pipeline.arrRef spec0 17) : S16x1024.Idx → EReal) :=
  Memref.read_access_unit_zero (Elt Ideal) main_arg23 off17 (fun a => by rw [congrFun off17 a]; simp) _
/-- Window 18's block starts at zero on every axis. -/
theorem off18 : (fun a => win0_18.index t0_0 a * main_v8_0.ty.shape.size a) = fun _ => 0 :=
  funext fun a => by fin_cases a <;> rfl
/-- so a function of the array's indices read through the block is the function. -/
theorem rd18 (G : S16x1024.Idx → EReal) : ((cfg0.win 18).blk t0_0).view.read (Elt Ideal) G = G :=
  Memref.read_access_unit_zero (Elt Ideal) main_v8_0 off18 (fun a => by rw [congrFun off18 a]; simp) G
/-- and every index of the array is in it. -/
theorem cover18 (i : S16x1024.Idx) : ∃ t : Fin cfg0.N, (cfg0.win 18).flush t = true ∧ i ∈ ((cfg0.win 18).blk t).view.set :=
  ⟨t0_0, flush0_18 t0_0, by
    show i ∈ ((View.whole main_v8_0).slice (win0_18.rect t0_0)).set
    rw [View.set_slice_whole, Rect.mem_set_unit]
    intro a
    have h0 : (i 0 : Nat) < 16 := (i 0).isLt
    have h1 : (i 1 : Nat) < 1024 := (i 1).isLt
    match a with
    | ⟨0, _⟩ =>
      show win0_18.index t0_0 0 * win0_18.size 0 ≤ (i 0 : Nat) ∧ (i 0 : Nat) < win0_18.index t0_0 0 * win0_18.size 0 + win0_18.xsize (grid0.coords t0_0) 0
      rw [show win0_18.index t0_0 0 * win0_18.size 0 = 0 from rfl, show win0_18.xsize (grid0.coords t0_0) 0 = 16 from rfl]; omega
    | ⟨1, _⟩ =>
      show win0_18.index t0_0 1 * win0_18.size 1 ≤ (i 1 : Nat) ∧ (i 1 : Nat) < win0_18.index t0_0 1 * win0_18.size 1 + win0_18.xsize (grid0.coords t0_0) 1
      rw [show win0_18.index t0_0 1 * win0_18.size 1 = 0 from rfl, show win0_18.xsize (grid0.coords t0_0) 1 = 1024 from rfl]; omega⟩
/-- Window 19's block starts at zero on every axis. -/
theorem off19 : (fun a => win0_19.index t0_0 a * main_v8_1.ty.shape.size a) = fun _ => 0 :=
  funext fun a => by fin_cases a <;> rfl
/-- so a function of the array's indices read through the block is the function. -/
theorem rd19 (G : S16x1024.Idx → EReal) : ((cfg0.win 19).blk t0_0).view.read (Elt Ideal) G = G :=
  Memref.read_access_unit_zero (Elt Ideal) main_v8_1 off19 (fun a => by rw [congrFun off19 a]; simp) G
/-- and every index of the array is in it. -/
theorem cover19 (i : S16x1024.Idx) : ∃ t : Fin cfg0.N, (cfg0.win 19).flush t = true ∧ i ∈ ((cfg0.win 19).blk t).view.set :=
  ⟨t0_0, flush0_19 t0_0, by
    show i ∈ ((View.whole main_v8_1).slice (win0_19.rect t0_0)).set
    rw [View.set_slice_whole, Rect.mem_set_unit]
    intro a
    have h0 : (i 0 : Nat) < 16 := (i 0).isLt
    have h1 : (i 1 : Nat) < 1024 := (i 1).isLt
    match a with
    | ⟨0, _⟩ =>
      show win0_19.index t0_0 0 * win0_19.size 0 ≤ (i 0 : Nat) ∧ (i 0 : Nat) < win0_19.index t0_0 0 * win0_19.size 0 + win0_19.xsize (grid0.coords t0_0) 0
      rw [show win0_19.index t0_0 0 * win0_19.size 0 = 0 from rfl, show win0_19.xsize (grid0.coords t0_0) 0 = 16 from rfl]; omega
    | ⟨1, _⟩ =>
      show win0_19.index t0_0 1 * win0_19.size 1 ≤ (i 1 : Nat) ∧ (i 1 : Nat) < win0_19.index t0_0 1 * win0_19.size 1 + win0_19.xsize (grid0.coords t0_0) 1
      rw [show win0_19.index t0_0 1 * win0_19.size 1 = 0 from rfl, show win0_19.xsize (grid0.coords t0_0) 1 = 1024 from rfl]; omega⟩
/-- Window 20's block starts at zero on every axis. -/
theorem off20 : (fun a => win0_20.index t0_0 a * main_v8_2.ty.shape.size a) = fun _ => 0 :=
  funext fun a => by fin_cases a <;> rfl
/-- so a function of the array's indices read through the block is the function. -/
theorem rd20 (G : S16x1024.Idx → EReal) : ((cfg0.win 20).blk t0_0).view.read (Elt Ideal) G = G :=
  Memref.read_access_unit_zero (Elt Ideal) main_v8_2 off20 (fun a => by rw [congrFun off20 a]; simp) G
/-- and every index of the array is in it. -/
theorem cover20 (i : S16x1024.Idx) : ∃ t : Fin cfg0.N, (cfg0.win 20).flush t = true ∧ i ∈ ((cfg0.win 20).blk t).view.set :=
  ⟨t0_0, flush0_20 t0_0, by
    show i ∈ ((View.whole main_v8_2).slice (win0_20.rect t0_0)).set
    rw [View.set_slice_whole, Rect.mem_set_unit]
    intro a
    have h0 : (i 0 : Nat) < 16 := (i 0).isLt
    have h1 : (i 1 : Nat) < 1024 := (i 1).isLt
    match a with
    | ⟨0, _⟩ =>
      show win0_20.index t0_0 0 * win0_20.size 0 ≤ (i 0 : Nat) ∧ (i 0 : Nat) < win0_20.index t0_0 0 * win0_20.size 0 + win0_20.xsize (grid0.coords t0_0) 0
      rw [show win0_20.index t0_0 0 * win0_20.size 0 = 0 from rfl, show win0_20.xsize (grid0.coords t0_0) 0 = 16 from rfl]; omega
    | ⟨1, _⟩ =>
      show win0_20.index t0_0 1 * win0_20.size 1 ≤ (i 1 : Nat) ∧ (i 1 : Nat) < win0_20.index t0_0 1 * win0_20.size 1 + win0_20.xsize (grid0.coords t0_0) 1
      rw [show win0_20.index t0_0 1 * win0_20.size 1 = 0 from rfl, show win0_20.xsize (grid0.coords t0_0) 1 = 1024 from rfl]; omega⟩
/-- Window 21's block starts at zero on every axis. -/
theorem off21 : (fun a => win0_21.index t0_0 a * main_v8_3.ty.shape.size a) = fun _ => 0 :=
  funext fun a => by fin_cases a <;> rfl
/-- so a function of the array's indices read through the block is the function. -/
theorem rd21 (G : S16x1024.Idx → EReal) : ((cfg0.win 21).blk t0_0).view.read (Elt Ideal) G = G :=
  Memref.read_access_unit_zero (Elt Ideal) main_v8_3 off21 (fun a => by rw [congrFun off21 a]; simp) G
/-- and every index of the array is in it. -/
theorem cover21 (i : S16x1024.Idx) : ∃ t : Fin cfg0.N, (cfg0.win 21).flush t = true ∧ i ∈ ((cfg0.win 21).blk t).view.set :=
  ⟨t0_0, flush0_21 t0_0, by
    show i ∈ ((View.whole main_v8_3).slice (win0_21.rect t0_0)).set
    rw [View.set_slice_whole, Rect.mem_set_unit]
    intro a
    have h0 : (i 0 : Nat) < 16 := (i 0).isLt
    have h1 : (i 1 : Nat) < 1024 := (i 1).isLt
    match a with
    | ⟨0, _⟩ =>
      show win0_21.index t0_0 0 * win0_21.size 0 ≤ (i 0 : Nat) ∧ (i 0 : Nat) < win0_21.index t0_0 0 * win0_21.size 0 + win0_21.xsize (grid0.coords t0_0) 0
      rw [show win0_21.index t0_0 0 * win0_21.size 0 = 0 from rfl, show win0_21.xsize (grid0.coords t0_0) 0 = 16 from rfl]; omega
    | ⟨1, _⟩ =>
      show win0_21.index t0_0 1 * win0_21.size 1 ≤ (i 1 : Nat) ∧ (i 1 : Nat) < win0_21.index t0_0 1 * win0_21.size 1 + win0_21.xsize (grid0.coords t0_0) 1
      rw [show win0_21.index t0_0 1 * win0_21.size 1 = 0 from rfl, show win0_21.xsize (grid0.coords t0_0) 1 = 1024 from rfl]; omega⟩
/-- Window 22's block starts at zero on every axis. -/
theorem off22 : (fun a => win0_22.index t0_0 a * main_v8_4.ty.shape.size a) = fun _ => 0 :=
  funext fun a => by fin_cases a <;> rfl
/-- so a function of the array's indices read through the block is the function. -/
theorem rd22 (G : S16x1024.Idx → EReal) : ((cfg0.win 22).blk t0_0).view.read (Elt Ideal) G = G :=
  Memref.read_access_unit_zero (Elt Ideal) main_v8_4 off22 (fun a => by rw [congrFun off22 a]; simp) G
/-- and every index of the array is in it. -/
theorem cover22 (i : S16x1024.Idx) : ∃ t : Fin cfg0.N, (cfg0.win 22).flush t = true ∧ i ∈ ((cfg0.win 22).blk t).view.set :=
  ⟨t0_0, flush0_22 t0_0, by
    show i ∈ ((View.whole main_v8_4).slice (win0_22.rect t0_0)).set
    rw [View.set_slice_whole, Rect.mem_set_unit]
    intro a
    have h0 : (i 0 : Nat) < 16 := (i 0).isLt
    have h1 : (i 1 : Nat) < 1024 := (i 1).isLt
    match a with
    | ⟨0, _⟩ =>
      show win0_22.index t0_0 0 * win0_22.size 0 ≤ (i 0 : Nat) ∧ (i 0 : Nat) < win0_22.index t0_0 0 * win0_22.size 0 + win0_22.xsize (grid0.coords t0_0) 0
      rw [show win0_22.index t0_0 0 * win0_22.size 0 = 0 from rfl, show win0_22.xsize (grid0.coords t0_0) 0 = 16 from rfl]; omega
    | ⟨1, _⟩ =>
      show win0_22.index t0_0 1 * win0_22.size 1 ≤ (i 1 : Nat) ∧ (i 1 : Nat) < win0_22.index t0_0 1 * win0_22.size 1 + win0_22.xsize (grid0.coords t0_0) 1
      rw [show win0_22.index t0_0 1 * win0_22.size 1 = 0 from rfl, show win0_22.xsize (grid0.coords t0_0) 1 = 1024 from rfl]; omega⟩
/-- Window 23's block starts at zero on every axis. -/
theorem off23 : (fun a => win0_23.index t0_0 a * main_v8_5.ty.shape.size a) = fun _ => 0 :=
  funext fun a => by fin_cases a <;> rfl
/-- so a function of the array's indices read through the block is the function. -/
theorem rd23 (G : S16x1024.Idx → EReal) : ((cfg0.win 23).blk t0_0).view.read (Elt Ideal) G = G :=
  Memref.read_access_unit_zero (Elt Ideal) main_v8_5 off23 (fun a => by rw [congrFun off23 a]; simp) G
/-- and every index of the array is in it. -/
theorem cover23 (i : S16x1024.Idx) : ∃ t : Fin cfg0.N, (cfg0.win 23).flush t = true ∧ i ∈ ((cfg0.win 23).blk t).view.set :=
  ⟨t0_0, flush0_23 t0_0, by
    show i ∈ ((View.whole main_v8_5).slice (win0_23.rect t0_0)).set
    rw [View.set_slice_whole, Rect.mem_set_unit]
    intro a
    have h0 : (i 0 : Nat) < 16 := (i 0).isLt
    have h1 : (i 1 : Nat) < 1024 := (i 1).isLt
    match a with
    | ⟨0, _⟩ =>
      show win0_23.index t0_0 0 * win0_23.size 0 ≤ (i 0 : Nat) ∧ (i 0 : Nat) < win0_23.index t0_0 0 * win0_23.size 0 + win0_23.xsize (grid0.coords t0_0) 0
      rw [show win0_23.index t0_0 0 * win0_23.size 0 = 0 from rfl, show win0_23.xsize (grid0.coords t0_0) 0 = 16 from rfl]; omega
    | ⟨1, _⟩ =>
      show win0_23.index t0_0 1 * win0_23.size 1 ≤ (i 1 : Nat) ∧ (i 1 : Nat) < win0_23.index t0_0 1 * win0_23.size 1 + win0_23.xsize (grid0.coords t0_0) 1
      rw [show win0_23.index t0_0 1 * win0_23.size 1 = 0 from rfl, show win0_23.xsize (grid0.coords t0_0) 1 = 1024 from rfl]; omega⟩
/-- Window 24's block starts at zero on every axis. -/
theorem off24 : (fun a => win0_24.index t0_0 a * main_v8_6.ty.shape.size a) = fun _ => 0 :=
  funext fun a => by fin_cases a <;> rfl
/-- so a function of the array's indices read through the block is the function. -/
theorem rd24 (G : S16x1024.Idx → EReal) : ((cfg0.win 24).blk t0_0).view.read (Elt Ideal) G = G :=
  Memref.read_access_unit_zero (Elt Ideal) main_v8_6 off24 (fun a => by rw [congrFun off24 a]; simp) G
/-- and every index of the array is in it. -/
theorem cover24 (i : S16x1024.Idx) : ∃ t : Fin cfg0.N, (cfg0.win 24).flush t = true ∧ i ∈ ((cfg0.win 24).blk t).view.set :=
  ⟨t0_0, flush0_24 t0_0, by
    show i ∈ ((View.whole main_v8_6).slice (win0_24.rect t0_0)).set
    rw [View.set_slice_whole, Rect.mem_set_unit]
    intro a
    have h0 : (i 0 : Nat) < 16 := (i 0).isLt
    have h1 : (i 1 : Nat) < 1024 := (i 1).isLt
    match a with
    | ⟨0, _⟩ =>
      show win0_24.index t0_0 0 * win0_24.size 0 ≤ (i 0 : Nat) ∧ (i 0 : Nat) < win0_24.index t0_0 0 * win0_24.size 0 + win0_24.xsize (grid0.coords t0_0) 0
      rw [show win0_24.index t0_0 0 * win0_24.size 0 = 0 from rfl, show win0_24.xsize (grid0.coords t0_0) 0 = 16 from rfl]; omega
    | ⟨1, _⟩ =>
      show win0_24.index t0_0 1 * win0_24.size 1 ≤ (i 1 : Nat) ∧ (i 1 : Nat) < win0_24.index t0_0 1 * win0_24.size 1 + win0_24.xsize (grid0.coords t0_0) 1
      rw [show win0_24.index t0_0 1 * win0_24.size 1 = 0 from rfl, show win0_24.xsize (grid0.coords t0_0) 1 = 1024 from rfl]; omega⟩
/-- Window 25's block starts at zero on every axis. -/
theorem off25 : (fun a => win0_25.index t0_0 a * main_v8_7.ty.shape.size a) = fun _ => 0 :=
  funext fun a => by fin_cases a <;> rfl
/-- so a function of the array's indices read through the block is the function. -/
theorem rd25 (G : S16x1024.Idx → EReal) : ((cfg0.win 25).blk t0_0).view.read (Elt Ideal) G = G :=
  Memref.read_access_unit_zero (Elt Ideal) main_v8_7 off25 (fun a => by rw [congrFun off25 a]; simp) G
/-- and every index of the array is in it. -/
theorem cover25 (i : S16x1024.Idx) : ∃ t : Fin cfg0.N, (cfg0.win 25).flush t = true ∧ i ∈ ((cfg0.win 25).blk t).view.set :=
  ⟨t0_0, flush0_25 t0_0, by
    show i ∈ ((View.whole main_v8_7).slice (win0_25.rect t0_0)).set
    rw [View.set_slice_whole, Rect.mem_set_unit]
    intro a
    have h0 : (i 0 : Nat) < 16 := (i 0).isLt
    have h1 : (i 1 : Nat) < 1024 := (i 1).isLt
    match a with
    | ⟨0, _⟩ =>
      show win0_25.index t0_0 0 * win0_25.size 0 ≤ (i 0 : Nat) ∧ (i 0 : Nat) < win0_25.index t0_0 0 * win0_25.size 0 + win0_25.xsize (grid0.coords t0_0) 0
      rw [show win0_25.index t0_0 0 * win0_25.size 0 = 0 from rfl, show win0_25.xsize (grid0.coords t0_0) 0 = 16 from rfl]; omega
    | ⟨1, _⟩ =>
      show win0_25.index t0_0 1 * win0_25.size 1 ≤ (i 1 : Nat) ∧ (i 1 : Nat) < win0_25.index t0_0 1 * win0_25.size 1 + win0_25.xsize (grid0.coords t0_0) 1
      rw [show win0_25.index t0_0 1 * win0_25.size 1 = 0 from rfl, show win0_25.xsize (grid0.coords t0_0) 1 = 1024 from rfl]; omega⟩
/-- Window 26's block starts at zero on every axis. -/
theorem off26 : (fun a => win0_26.index t0_0 a * main_v8_8.ty.shape.size a) = fun _ => 0 :=
  funext fun a => by fin_cases a <;> rfl
/-- so a function of the array's indices read through the block is the function. -/
theorem rd26 (G : S16x1024.Idx → EReal) : ((cfg0.win 26).blk t0_0).view.read (Elt Ideal) G = G :=
  Memref.read_access_unit_zero (Elt Ideal) main_v8_8 off26 (fun a => by rw [congrFun off26 a]; simp) G
/-- and every index of the array is in it. -/
theorem cover26 (i : S16x1024.Idx) : ∃ t : Fin cfg0.N, (cfg0.win 26).flush t = true ∧ i ∈ ((cfg0.win 26).blk t).view.set :=
  ⟨t0_0, flush0_26 t0_0, by
    show i ∈ ((View.whole main_v8_8).slice (win0_26.rect t0_0)).set
    rw [View.set_slice_whole, Rect.mem_set_unit]
    intro a
    have h0 : (i 0 : Nat) < 16 := (i 0).isLt
    have h1 : (i 1 : Nat) < 1024 := (i 1).isLt
    match a with
    | ⟨0, _⟩ =>
      show win0_26.index t0_0 0 * win0_26.size 0 ≤ (i 0 : Nat) ∧ (i 0 : Nat) < win0_26.index t0_0 0 * win0_26.size 0 + win0_26.xsize (grid0.coords t0_0) 0
      rw [show win0_26.index t0_0 0 * win0_26.size 0 = 0 from rfl, show win0_26.xsize (grid0.coords t0_0) 0 = 16 from rfl]; omega
    | ⟨1, _⟩ =>
      show win0_26.index t0_0 1 * win0_26.size 1 ≤ (i 1 : Nat) ∧ (i 1 : Nat) < win0_26.index t0_0 1 * win0_26.size 1 + win0_26.xsize (grid0.coords t0_0) 1
      rw [show win0_26.index t0_0 1 * win0_26.size 1 = 0 from rfl, show win0_26.xsize (grid0.coords t0_0) 1 = 1024 from rfl]; omega⟩

/-! ## What the one point writes back, and the arrays after it -/

/-- The point writes back the new hidden state, entry by entry. -/
theorem flushed_h (t : Fin cfg0.N) :
    (dat0 (F := Ideal) V c).flushed 18 t = ((cfg0.win 18).blk t).view.read (Elt Ideal) (Cell.at2 (gateIn V c).h) := by
  obtain rfl := fin_N0 t
  rw [rd18]
  show (cfg0.win 18).cut (grid0.coords t0_0) ((dat0 V c).after 18 t0_0) = _
  rw [after0_18]
  unfold out0_18
  rw [View.canon_unit_zero zero2]
  simp only [View.ld_unit_zero (S := S16x512) zero2, View.ld_unit_zero (S := S16x1024) zero2, View.ld_unit_zero (S := S1024x512) zero2,
    View.ld_unit_zero (S := S1024x1024) zero2, View.ld_unit_zero (S := S1024) zero1]
  simp only [blk0 V c, blk1 V c, blk2 V c, blk3 V c, blk4 V c, blk5 V c, blk6 V c, blk7 V c, blk8 V c, blk9 V c, blk10 V c, blk11 V c, blk12 V c, blk13 V c, blk14 V c, blk15 V c, blk16 V c, blk17 V c]
  funext j
  obtain ⟨p, q, rfl⟩ : ∃ (p : Fin 16) (q : Fin 1024), j = ix2 p q := ⟨j 0, j 1, eq_ix2 j⟩
  exact h_apply (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) p q

/-- After the region the array of window 18 holds the new hidden state. -/
theorem arr_h : (dat0 (F := Ideal) V c).arrAt 18 cfg0.N = Cell.at2 (gateIn V c).h :=
  (dat0 V c).arrAt_eq_of_cover 18 (Cell.at2 (gateIn V c).h) (fun t _ => flushed_h V c t) (cover18)

/-- The point writes back the new cell state, entry by entry. -/
theorem flushed_c (t : Fin cfg0.N) :
    (dat0 (F := Ideal) V c).flushed 19 t = ((cfg0.win 19).blk t).view.read (Elt Ideal) (Cell.at2 (gateIn V c).c) := by
  obtain rfl := fin_N0 t
  rw [rd19]
  show (cfg0.win 19).cut (grid0.coords t0_0) ((dat0 V c).after 19 t0_0) = _
  rw [after0_19]
  unfold out0_19
  rw [View.canon_unit_zero zero2]
  simp only [View.ld_unit_zero (S := S16x512) zero2, View.ld_unit_zero (S := S16x1024) zero2, View.ld_unit_zero (S := S1024x512) zero2,
    View.ld_unit_zero (S := S1024x1024) zero2, View.ld_unit_zero (S := S1024) zero1]
  simp only [blk0 V c, blk1 V c, blk2 V c, blk3 V c, blk4 V c, blk5 V c, blk6 V c, blk7 V c, blk8 V c, blk9 V c, blk10 V c, blk11 V c, blk12 V c, blk13 V c, blk14 V c, blk15 V c, blk16 V c, blk17 V c]
  funext j
  obtain ⟨p, q, rfl⟩ : ∃ (p : Fin 16) (q : Fin 1024), j = ix2 p q := ⟨j 0, j 1, eq_ix2 j⟩
  exact c_apply (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) p q

/-- After the region the array of window 19 holds the new cell state. -/
theorem arr_c : (dat0 (F := Ideal) V c).arrAt 19 cfg0.N = Cell.at2 (gateIn V c).c :=
  (dat0 V c).arrAt_eq_of_cover 19 (Cell.at2 (gateIn V c).c) (fun t _ => flushed_c V c t) (cover19)

/-- The point writes back the forget gate, entry by entry. -/
theorem flushed_f (t : Fin cfg0.N) :
    (dat0 (F := Ideal) V c).flushed 20 t = ((cfg0.win 20).blk t).view.read (Elt Ideal) (Cell.at2 (gateIn V c).f) := by
  obtain rfl := fin_N0 t
  rw [rd20]
  show (cfg0.win 20).cut (grid0.coords t0_0) ((dat0 V c).after 20 t0_0) = _
  rw [after0_20]
  unfold out0_20
  rw [View.canon_unit_zero zero2]
  simp only [View.ld_unit_zero (S := S16x512) zero2, View.ld_unit_zero (S := S16x1024) zero2, View.ld_unit_zero (S := S1024x512) zero2,
    View.ld_unit_zero (S := S1024x1024) zero2, View.ld_unit_zero (S := S1024) zero1]
  simp only [blk0 V c, blk1 V c, blk2 V c, blk3 V c, blk4 V c, blk5 V c, blk6 V c, blk7 V c, blk8 V c, blk9 V c, blk10 V c, blk11 V c, blk12 V c, blk13 V c, blk14 V c, blk15 V c, blk16 V c, blk17 V c]
  funext j
  obtain ⟨p, q, rfl⟩ : ∃ (p : Fin 16) (q : Fin 1024), j = ix2 p q := ⟨j 0, j 1, eq_ix2 j⟩
  exact f_apply (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) p q

/-- After the region the array of window 20 holds the forget gate. -/
theorem arr_f : (dat0 (F := Ideal) V c).arrAt 20 cfg0.N = Cell.at2 (gateIn V c).f :=
  (dat0 V c).arrAt_eq_of_cover 20 (Cell.at2 (gateIn V c).f) (fun t _ => flushed_f V c t) (cover20)

/-- The point writes back the input gate's factor, entry by entry. -/
theorem flushed_ai (t : Fin cfg0.N) :
    (dat0 (F := Ideal) V c).flushed 21 t = ((cfg0.win 21).blk t).view.read (Elt Ideal) (Cell.at2 (gateIn V c).ai) := by
  obtain rfl := fin_N0 t
  rw [rd21]
  show (cfg0.win 21).cut (grid0.coords t0_0) ((dat0 V c).after 21 t0_0) = _
  rw [after0_21]
  unfold out0_21
  rw [View.canon_unit_zero zero2]
  simp only [View.ld_unit_zero (S := S16x512) zero2, View.ld_unit_zero (S := S16x1024) zero2, View.ld_unit_zero (S := S1024x512) zero2,
    View.ld_unit_zero (S := S1024x1024) zero2, View.ld_unit_zero (S := S1024) zero1]
  simp only [blk0 V c, blk1 V c, blk2 V c, blk3 V c, blk4 V c, blk5 V c, blk6 V c, blk7 V c, blk8 V c, blk9 V c, blk10 V c, blk11 V c, blk12 V c, blk13 V c, blk14 V c, blk15 V c, blk16 V c, blk17 V c]
  funext j
  obtain ⟨p, q, rfl⟩ : ∃ (p : Fin 16) (q : Fin 1024), j = ix2 p q := ⟨j 0, j 1, eq_ix2 j⟩
  exact ai_apply (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) p q

/-- After the region the array of window 21 holds the input gate's factor. -/
theorem arr_ai : (dat0 (F := Ideal) V c).arrAt 21 cfg0.N = Cell.at2 (gateIn V c).ai :=
  (dat0 V c).arrAt_eq_of_cover 21 (Cell.at2 (gateIn V c).ai) (fun t _ => flushed_ai V c t) (cover21)

/-- The point writes back the forget gate's factor, entry by entry. -/
theorem flushed_af (t : Fin cfg0.N) :
    (dat0 (F := Ideal) V c).flushed 22 t = ((cfg0.win 22).blk t).view.read (Elt Ideal) (Cell.at2 (gateIn V c).af) := by
  obtain rfl := fin_N0 t
  rw [rd22]
  show (cfg0.win 22).cut (grid0.coords t0_0) ((dat0 V c).after 22 t0_0) = _
  rw [after0_22]
  unfold out0_22
  rw [View.canon_unit_zero zero2]
  simp only [View.ld_unit_zero (S := S16x512) zero2, View.ld_unit_zero (S := S16x1024) zero2, View.ld_unit_zero (S := S1024x512) zero2,
    View.ld_unit_zero (S := S1024x1024) zero2, View.ld_unit_zero (S := S1024) zero1]
  simp only [blk0 V c, blk1 V c, blk2 V c, blk3 V c, blk4 V c, blk5 V c, blk6 V c, blk7 V c, blk8 V c, blk9 V c, blk10 V c, blk11 V c, blk12 V c, blk13 V c, blk14 V c, blk15 V c, blk16 V c, blk17 V c]
  funext j
  obtain ⟨p, q, rfl⟩ : ∃ (p : Fin 16) (q : Fin 1024), j = ix2 p q := ⟨j 0, j 1, eq_ix2 j⟩
  exact af_apply (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) p q

/-- After the region the array of window 22 holds the forget gate's factor. -/
theorem arr_af : (dat0 (F := Ideal) V c).arrAt 22 cfg0.N = Cell.at2 (gateIn V c).af :=
  (dat0 V c).arrAt_eq_of_cover 22 (Cell.at2 (gateIn V c).af) (fun t _ => flushed_af V c t) (cover22)

/-- The point writes back the candidate's factor, entry by entry. -/
theorem flushed_ac (t : Fin cfg0.N) :
    (dat0 (F := Ideal) V c).flushed 23 t = ((cfg0.win 23).blk t).view.read (Elt Ideal) (Cell.at2 (gateIn V c).ac) := by
  obtain rfl := fin_N0 t
  rw [rd23]
  show (cfg0.win 23).cut (grid0.coords t0_0) ((dat0 V c).after 23 t0_0) = _
  rw [after0_23]
  unfold out0_23
  rw [View.canon_unit_zero zero2]
  simp only [View.ld_unit_zero (S := S16x512) zero2, View.ld_unit_zero (S := S16x1024) zero2, View.ld_unit_zero (S := S1024x512) zero2,
    View.ld_unit_zero (S := S1024x1024) zero2, View.ld_unit_zero (S := S1024) zero1]
  simp only [blk0 V c, blk1 V c, blk2 V c, blk3 V c, blk4 V c, blk5 V c, blk6 V c, blk7 V c, blk8 V c, blk9 V c, blk10 V c, blk11 V c, blk12 V c, blk13 V c, blk14 V c, blk15 V c, blk16 V c, blk17 V c]
  funext j
  obtain ⟨p, q, rfl⟩ : ∃ (p : Fin 16) (q : Fin 1024), j = ix2 p q := ⟨j 0, j 1, eq_ix2 j⟩
  exact ac_apply (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) p q

/-- After the region the array of window 23 holds the candidate's factor. -/
theorem arr_ac : (dat0 (F := Ideal) V c).arrAt 23 cfg0.N = Cell.at2 (gateIn V c).ac :=
  (dat0 V c).arrAt_eq_of_cover 23 (Cell.at2 (gateIn V c).ac) (fun t _ => flushed_ac V c t) (cover23)

/-- The point writes back the input gate's eligibility vector, entry by entry. -/
theorem flushed_ebi (t : Fin cfg0.N) :
    (dat0 (F := Ideal) V c).flushed 24 t = ((cfg0.win 24).blk t).view.read (Elt Ideal) (Cell.ebArr (V c (Pipeline.arrRef spec0 15) : S16x1024.Idx → EReal) (gateIn V c).zf (gateIn V c).ai) := by
  obtain rfl := fin_N0 t
  rw [rd24]
  show (cfg0.win 24).cut (grid0.coords t0_0) ((dat0 V c).after 24 t0_0) = _
  rw [after0_24]
  unfold out0_24
  rw [View.canon_unit_zero zero2]
  simp only [View.ld_unit_zero (S := S16x512) zero2, View.ld_unit_zero (S := S16x1024) zero2, View.ld_unit_zero (S := S1024x512) zero2,
    View.ld_unit_zero (S := S1024x1024) zero2, View.ld_unit_zero (S := S1024) zero1]
  simp only [blk0 V c, blk1 V c, blk2 V c, blk3 V c, blk4 V c, blk5 V c, blk6 V c, blk7 V c, blk8 V c, blk9 V c, blk10 V c, blk11 V c, blk12 V c, blk13 V c, blk14 V c, blk15 V c, blk16 V c, blk17 V c]
  funext j
  obtain ⟨p, q, rfl⟩ : ∃ (p : Fin 16) (q : Fin 1024), j = ix2 p q := ⟨j 0, j 1, eq_ix2 j⟩
  exact ebi_apply (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) p q

/-- After the region the array of window 24 holds the input gate's eligibility vector. -/
theorem arr_ebi : (dat0 (F := Ideal) V c).arrAt 24 cfg0.N = Cell.ebArr (V c (Pipeline.arrRef spec0 15) : S16x1024.Idx → EReal) (gateIn V c).zf (gateIn V c).ai :=
  (dat0 V c).arrAt_eq_of_cover 24 (Cell.ebArr (V c (Pipeline.arrRef spec0 15) : S16x1024.Idx → EReal) (gateIn V c).zf (gateIn V c).ai) (fun t _ => flushed_ebi V c t) (cover24)

/-- The point writes back the forget gate's eligibility vector, entry by entry. -/
theorem flushed_ebf (t : Fin cfg0.N) :
    (dat0 (F := Ideal) V c).flushed 25 t = ((cfg0.win 25).blk t).view.read (Elt Ideal) (Cell.ebArr (V c (Pipeline.arrRef spec0 16) : S16x1024.Idx → EReal) (gateIn V c).zf (gateIn V c).af) := by
  obtain rfl := fin_N0 t
  rw [rd25]
  show (cfg0.win 25).cut (grid0.coords t0_0) ((dat0 V c).after 25 t0_0) = _
  rw [after0_25]
  unfold out0_25
  rw [View.canon_unit_zero zero2]
  simp only [View.ld_unit_zero (S := S16x512) zero2, View.ld_unit_zero (S := S16x1024) zero2, View.ld_unit_zero (S := S1024x512) zero2,
    View.ld_unit_zero (S := S1024x1024) zero2, View.ld_unit_zero (S := S1024) zero1]
  simp only [blk0 V c, blk1 V c, blk2 V c, blk3 V c, blk4 V c, blk5 V c, blk6 V c, blk7 V c, blk8 V c, blk9 V c, blk10 V c, blk11 V c, blk12 V c, blk13 V c, blk14 V c, blk15 V c, blk16 V c, blk17 V c]
  funext j
  obtain ⟨p, q, rfl⟩ : ∃ (p : Fin 16) (q : Fin 1024), j = ix2 p q := ⟨j 0, j 1, eq_ix2 j⟩
  exact ebf_apply (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 16)) p q

/-- After the region the array of window 25 holds the forget gate's eligibility vector. -/
theorem arr_ebf : (dat0 (F := Ideal) V c).arrAt 25 cfg0.N = Cell.ebArr (V c (Pipeline.arrRef spec0 16) : S16x1024.Idx → EReal) (gateIn V c).zf (gateIn V c).af :=
  (dat0 V c).arrAt_eq_of_cover 25 (Cell.ebArr (V c (Pipeline.arrRef spec0 16) : S16x1024.Idx → EReal) (gateIn V c).zf (gateIn V c).af) (fun t _ => flushed_ebf V c t) (cover25)

/-- The point writes back the candidate's eligibility vector, entry by entry. -/
theorem flushed_ebc (t : Fin cfg0.N) :
    (dat0 (F := Ideal) V c).flushed 26 t = ((cfg0.win 26).blk t).view.read (Elt Ideal) (Cell.ebArr (V c (Pipeline.arrRef spec0 17) : S16x1024.Idx → EReal) (gateIn V c).zf (gateIn V c).ac) := by
  obtain rfl := fin_N0 t
  rw [rd26]
  show (cfg0.win 26).cut (grid0.coords t0_0) ((dat0 V c).after 26 t0_0) = _
  rw [after0_26]
  unfold out0_26
  rw [View.canon_unit_zero zero2]
  simp only [View.ld_unit_zero (S := S16x512) zero2, View.ld_unit_zero (S := S16x1024) zero2, View.ld_unit_zero (S := S1024x512) zero2,
    View.ld_unit_zero (S := S1024x1024) zero2, View.ld_unit_zero (S := S1024) zero1]
  simp only [blk0 V c, blk1 V c, blk2 V c, blk3 V c, blk4 V c, blk5 V c, blk6 V c, blk7 V c, blk8 V c, blk9 V c, blk10 V c, blk11 V c, blk12 V c, blk13 V c, blk14 V c, blk15 V c, blk16 V c, blk17 V c]
  funext j
  obtain ⟨p, q, rfl⟩ : ∃ (p : Fin 16) (q : Fin 1024), j = ix2 p q := ⟨j 0, j 1, eq_ix2 j⟩
  exact ebc_apply (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 17)) p q

/-- After the region the array of window 26 holds the candidate's eligibility vector. -/
theorem arr_ebc : (dat0 (F := Ideal) V c).arrAt 26 cfg0.N = Cell.ebArr (V c (Pipeline.arrRef spec0 17) : S16x1024.Idx → EReal) (gateIn V c).zf (gateIn V c).ac :=
  (dat0 V c).arrAt_eq_of_cover 26 (Cell.ebArr (V c (Pipeline.arrRef spec0 17) : S16x1024.Idx → EReal) (gateIn V c).zf (gateIn V c).ac) (fun t _ => flushed_ebc V c t) (cover26)

end Cert.KernelIdeal.GatesValue

end
-- ==== Proof.TraceLib.lean ====
/-
  The eligibility-matrix update inside one block, entry by entry, on the extended reals.

  One step of the trace kernel holds a block of 512 rows of one batch row's eligibility matrix `e` (512 × K, with K = 1024 for
  the recurrent weights and K = 512 for the input weights), the matching 512 entries of the forget gate `f` and of the
  factor `a` as columns (512 × 1), and the batch row's vector `v` (1 × K: the previous hidden row or the input row). It
  stores `e · f + a · v`, where the two columns are repeated along the K entries of a row and the vector is repeated down
  the 512 rows. Read at row `q` and entry `k` of the block this is `e q k · f q + a q · v k`. The three launches of the
  kernel run the same arithmetic, so the six statements below (two outputs, three launches) have one proof.
-/
import proofs.«152007_j29575144800638_2_alg».proof.Proof.Gen.KernelIdeal.Skeleton
import Idealize.ShloMosaic.Lib.Pipeline.Value
import Idealize.ShloMosaic.Lib.ValueIdx

noncomputable section

open Idealize.ShloMosaic Idealize.ShloMosaic.ValueIdx

namespace Cert.KernelIdeal.TraceValue

open Cert.KernelIdeal Cert.KernelIdeal.Gen

/-- The zero offset of a whole-block access, as the constant function. -/
theorem hz3 : (![0, 0, 0] : Fin 3 → Nat) = fun _ => 0 := funext fun a => by fin_cases a <;> rfl

/-- A column `[1, 512, 1]` repeated along a last axis of extent `n` reads, at row `q` and any entry, the column's row `q`. -/
theorem bcast_col {n : Nat} (v : (⟨3, ![1, 512, 1]⟩ : Shape).Idx → EReal)
    (h : (⟨3, ![1, 512, 1]⟩ : Shape).Broadcasts ⟨3, ![1, 512, n]⟩) (q : Fin 512) (k : Fin n) :
    broadcastTo ⟨3, ![1, 512, n]⟩ v h (ix3 (0 : Fin 1) q k) = v (ix3 (0 : Fin 1) q (0 : Fin 1)) :=
  broadcastTo_apply v h _ _ fun a => by
    match a with
    | ⟨0, _⟩ => rfl
    | ⟨1, _⟩ => rfl
    | ⟨2, _⟩ => rfl

/-- A row `[1, 1, n]` repeated down 512 rows reads, at any row and entry `k`, the row's entry `k`. -/
theorem bcast_row {n : Nat} (v : (⟨3, ![1, 1, n]⟩ : Shape).Idx → EReal)
    (h : (⟨3, ![1, 1, n]⟩ : Shape).Broadcasts ⟨3, ![1, 512, n]⟩) (q : Fin 512) (k : Fin n) :
    broadcastTo ⟨3, ![1, 512, n]⟩ v h (ix3 (0 : Fin 1) q k) = v (ix3 (0 : Fin 1) (0 : Fin 1) k) :=
  broadcastTo_apply v h _ _ fun a => by
    match a with
    | ⟨0, _⟩ => rfl
    | ⟨1, _⟩ => rfl
    | ⟨2, _⟩ =>
      show k.val = if n = 1 then 0 else k.val
      split
      · have := k.isLt; omega
      · rfl

/-- The update `e · f + a · v` of a 512 × 1024 block, first launch, at row `q` and entry `k`. -/
theorem pay1_h_apply (f a : Vec Ideal S1x512x1 .f32) (v : Vec Ideal S1x1x1024 .f32) (e : Vec Ideal S1x512x1024 .f32)
    (q : Fin 512) (k : Fin 1024) :
    k1_pay3 (F := Ideal) f a v e (ix3 (0 : Fin 1) q k)
      = e (ix3 (0 : Fin 1) q k) * f (ix3 (0 : Fin 1) q (0 : Fin 1)) + a (ix3 (0 : Fin 1) q (0 : Fin 1)) * v (ix3 (0 : Fin 1) (0 : Fin 1) k) := by
  unfold k1_pay3 k1_pay1 k1_pay2
  simp only [shapeCast_self]
  refine (addf_apply _ _ _).trans ?_
  refine congrArg₂ (· + ·) ((mulf_apply _ _ _).trans (congrArg (e _ * ·) (bcast_col f _ q k))) ?_
  exact (mulf_apply _ _ _).trans (congrArg₂ (· * ·) (bcast_col a _ q k) (bcast_row v _ q k))

/-- The update `e · f + a · v` of a 512 × 512 block, first launch, at row `q` and entry `k`. -/
theorem pay1_x_apply (f a : Vec Ideal S1x512x1 .f32) (v : Vec Ideal S1x1x512 .f32) (e : Vec Ideal S1x512x512 .f32)
    (q : Fin 512) (k : Fin 512) :
    k1_pay4 (F := Ideal) f a v e (ix3 (0 : Fin 1) q k)
      = e (ix3 (0 : Fin 1) q k) * f (ix3 (0 : Fin 1) q (0 : Fin 1)) + a (ix3 (0 : Fin 1) q (0 : Fin 1)) * v (ix3 (0 : Fin 1) (0 : Fin 1) k) := by
  unfold k1_pay4 k1_pay1 k1_pay2
  simp only [shapeCast_self]
  refine (addf_apply _ _ _).trans ?_
  refine congrArg₂ (· + ·) ((mulf_apply _ _ _).trans (congrArg (e _ * ·) (bcast_col f _ q k))) ?_
  exact (mulf_apply _ _ _).trans (congrArg₂ (· * ·) (bcast_col a _ q k) (bcast_row v _ q k))

/-- The update `e · f + a · v` of a 512 × 1024 block, second launch, at row `q` and entry `k`. -/
theorem pay2_h_apply (f a : Vec Ideal S1x512x1 .f32) (v : Vec Ideal S1x1x1024 .f32) (e : Vec Ideal S1x512x1024 .f32)
    (q : Fin 512) (k : Fin 1024) :
    k2_pay3 (F := Ideal) f a v e (ix3 (0 : Fin 1) q k)
      = e (ix3 (0 : Fin 1) q k) * f (ix3 (0 : Fin 1) q (0 : Fin 1)) + a (ix3 (0 : Fin 1) q (0 : Fin 1)) * v (ix3 (0 : Fin 1) (0 : Fin 1) k) := by
  unfold k2_pay3 k2_pay1 k2_pay2
  simp only [shapeCast_self]
  refine (addf_apply _ _ _).trans ?_
  refine congrArg₂ (· + ·) ((mulf_apply _ _ _).trans (congrArg (e _ * ·) (bcast_col f _ q k))) ?_
  exact (mulf_apply _ _ _).trans (congrArg₂ (· * ·) (bcast_col a _ q k) (bcast_row v _ q k))

/-- The update `e · f + a · v` of a 512 × 512 block, second launch, at row `q` and entry `k`. -/
theorem pay2_x_apply (f a : Vec Ideal S1x512x1 .f32) (v : Vec Ideal S1x1x512 .f32) (e : Vec Ideal S1x512x512 .f32)
    (q : Fin 512) (k : Fin 512) :
    k2_pay4 (F := Ideal) f a v e (ix3 (0 : Fin 1) q k)
      = e (ix3 (0 : Fin 1) q k) * f (ix3 (0 : Fin 1) q (0 : Fin 1)) + a (ix3 (0 : Fin 1) q (0 : Fin 1)) * v (ix3 (0 : Fin 1) (0 : Fin 1) k) := by
  unfold k2_pay4 k2_pay1 k2_pay2
  simp only [shapeCast_self]
  refine (addf_apply _ _ _).trans ?_
  refine congrArg₂ (· + ·) ((mulf_apply _ _ _).trans (congrArg (e _ * ·) (bcast_col f _ q k))) ?_
  exact (mulf_apply _ _ _).trans (congrArg₂ (· * ·) (bcast_col a _ q k) (bcast_row v _ q k))

/-- The update `e · f + a · v` of a 512 × 1024 block, third launch, at row `q` and entry `k`. -/
theorem pay3_h_apply (f a : Vec Ideal S1x512x1 .f32) (v : Vec Ideal S1x1x1024 .f32) (e : Vec Ideal S1x512x1024 .f32)
    (q : Fin 512) (k : Fin 1024) :
    k3_pay3 (F := Ideal) f a v e (ix3 (0 : Fin 1) q k)
      = e (ix3 (0 : Fin 1) q k) * f (ix3 (0 : Fin 1) q (0 : Fin 1)) + a (ix3 (0 : Fin 1) q (0 : Fin 1)) * v (ix3 (0 : Fin 1) (0 : Fin 1) k) := by
  unfold k3_pay3 k3_pay1 k3_pay2
  simp only [shapeCast_self]
  refine (addf_apply _ _ _).trans ?_
  refine congrArg₂ (· + ·) ((mulf_apply _ _ _).trans (congrArg (e _ * ·) (bcast_col f _ q k))) ?_
  exact (mulf_apply _ _ _).trans (congrArg₂ (· * ·) (bcast_col a _ q k) (bcast_row v _ q k))

/-- The update `e · f + a · v` of a 512 × 512 block, third launch, at row `q` and entry `k`. -/
theorem pay3_x_apply (f a : Vec Ideal S1x512x1 .f32) (v : Vec Ideal S1x1x512 .f32) (e : Vec Ideal S1x512x512 .f32)
    (q : Fin 512) (k : Fin 512) :
    k3_pay4 (F := Ideal) f a v e (ix3 (0 : Fin 1) q k)
      = e (ix3 (0 : Fin 1) q k) * f (ix3 (0 : Fin 1) q (0 : Fin 1)) + a (ix3 (0 : Fin 1) q (0 : Fin 1)) * v (ix3 (0 : Fin 1) (0 : Fin 1) k) := by
  unfold k3_pay4 k3_pay1 k3_pay2
  simp only [shapeCast_self]
  refine (addf_apply _ _ _).trans ?_
  refine congrArg₂ (· + ·) ((mulf_apply _ _ _).trans (congrArg (e _ * ·) (bcast_col f _ q k))) ?_
  exact (mulf_apply _ _ _).trans (congrArg₂ (· * ·) (bcast_col a _ q k) (bcast_row v _ q k))

/-! ## The updated matrix as one function of the four arrays -/

/-- The updated recurrent-weight eligibility matrix: entry `(b, r, k)` is `e b r k · f b r + a b r · v b k`. -/
def updH (e : S16x1024x1024.Idx → EReal) (f a : S16x1024x1.Idx → EReal) (v : S16x1x1024.Idx → EReal) : S16x1024x1024.Idx → EReal :=
  fun i => e i * f (ix3 (i 0) (i 1) 0) + a (ix3 (i 0) (i 1) 0) * v (ix3 (i 0) 0 (i 2))

theorem updH_apply (e : S16x1024x1024.Idx → EReal) (f a : S16x1024x1.Idx → EReal) (v : S16x1x1024.Idx → EReal) (i : S16x1024x1024.Idx) :
    updH e f a v i = e i * f (ix3 (i 0) (i 1) 0) + a (ix3 (i 0) (i 1) 0) * v (ix3 (i 0) 0 (i 2)) := rfl

/-- The updated input-weight eligibility matrix: entry `(b, r, k)` is `e b r k · f b r + a b r · v b k`. -/
def updX (e : S16x1024x512.Idx → EReal) (f a : S16x1024x1.Idx → EReal) (v : S16x1x512.Idx → EReal) : S16x1024x512.Idx → EReal :=
  fun i => e i * f (ix3 (i 0) (i 1) 0) + a (ix3 (i 0) (i 1) 0) * v (ix3 (i 0) 0 (i 2))

theorem updX_apply (e : S16x1024x512.Idx → EReal) (f a : S16x1024x1.Idx → EReal) (v : S16x1x512.Idx → EReal) (i : S16x1024x512.Idx) :
    updX e f a v i = e i * f (ix3 (i 0) (i 1) 0) + a (ix3 (i 0) (i 1) 0) * v (ix3 (i 0) 0 (i 2)) := rfl

end Cert.KernelIdeal.TraceValue

end
-- ==== Proof.Trace1.lean ====
/-
  The first launch of the trace kernel, read as whole arrays on the extended reals.

  The launch walks a grid of 16 × 2 points. Point `t` works on batch row `t / 2` and on the upper (`t % 2 = 0`) or lower
  half of the 1024 rows of that batch row's two eligibility matrices: it holds rows `512 · (t % 2) … 512 · (t % 2) + 511` of
  each matrix, the same rows of the forget gate `f` and of the factor `a`, and the batch row's previous hidden row and
  input row, and writes back `e · f + a · v` for those rows. The 32 blocks tile each matrix, so after the launch entry
  `(b, r, k)` of each output is `e b r k · f b r + a b r · v b k` of the arrays as the launch found them.
-/
import proofs.«152007_j29575144800638_2_alg».proof.Proof.FrameKernelIdeal
import proofs.«152007_j29575144800638_2_alg».proof.Proof.TraceLib
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.TraceValue

open Cert.KernelIdeal Cert.KernelIdeal.Gen Cert.KernelIdeal.GenP

/-! ## Which block each window holds at a point -/

/-- Window 0's block at point `t` is block `(t / 2, t % 2, 0)`: batch row `t / 2`, upper or lower half of the 1024 rows. -/
theorem idx1_0 : ∀ t : Fin cfg1.N, win1_0.index t (0 : Fin 3) = t.val / 2 ∧ win1_0.index t (1 : Fin 3) = t.val % 2 ∧ win1_0.index t (2 : Fin 3) = 0 :=
  (by decide +kernel : ∀ t : Fin grid1.N, _)
/-- Window 1's block at point `t` is block `(t / 2, t % 2, 0)`: batch row `t / 2`, upper or lower half of the 1024 rows. -/
theorem idx1_1 : ∀ t : Fin cfg1.N, win1_1.index t (0 : Fin 3) = t.val / 2 ∧ win1_1.index t (1 : Fin 3) = t.val % 2 ∧ win1_1.index t (2 : Fin 3) = 0 :=
  (by decide +kernel : ∀ t : Fin grid1.N, _)
/-- Window 2's block at point `t` is block `(t / 2, t % 2, 0)`: batch row `t / 2`, upper or lower half of the 1024 rows. -/
theorem idx1_2 : ∀ t : Fin cfg1.N, win1_2.index t (0 : Fin 3) = t.val / 2 ∧ win1_2.index t (1 : Fin 3) = t.val % 2 ∧ win1_2.index t (2 : Fin 3) = 0 :=
  (by decide +kernel : ∀ t : Fin grid1.N, _)
/-- Window 3's block at point `t` is block `(t / 2, t % 2, 0)`: batch row `t / 2`, upper or lower half of the 1024 rows. -/
theorem idx1_3 : ∀ t : Fin cfg1.N, win1_3.index t (0 : Fin 3) = t.val / 2 ∧ win1_3.index t (1 : Fin 3) = t.val % 2 ∧ win1_3.index t (2 : Fin 3) = 0 :=
  (by decide +kernel : ∀ t : Fin grid1.N, _)
/-- Window 4's block at point `t` is block `(t / 2, 0, 0)`: batch row `t / 2`'s one row, at both halves. -/
theorem idx1_4 : ∀ t : Fin cfg1.N, win1_4.index t (0 : Fin 3) = t.val / 2 ∧ win1_4.index t (1 : Fin 3) = 0 ∧ win1_4.index t (2 : Fin 3) = 0 :=
  (by decide +kernel : ∀ t : Fin grid1.N, _)
/-- Window 5's block at point `t` is block `(t / 2, 0, 0)`: batch row `t / 2`'s one row, at both halves. -/
theorem idx1_5 : ∀ t : Fin cfg1.N, win1_5.index t (0 : Fin 3) = t.val / 2 ∧ win1_5.index t (1 : Fin 3) = 0 ∧ win1_5.index t (2 : Fin 3) = 0 :=
  (by decide +kernel : ∀ t : Fin grid1.N, _)
/-- Window 6's block at point `t` is block `(t / 2, t % 2, 0)`: batch row `t / 2`, upper or lower half of the 1024 rows. -/
theorem idx1_6 : ∀ t : Fin cfg1.N, win1_6.index t (0 : Fin 3) = t.val / 2 ∧ win1_6.index t (1 : Fin 3) = t.val % 2 ∧ win1_6.index t (2 : Fin 3) = 0 :=
  (by decide +kernel : ∀ t : Fin grid1.N, _)
/-- Window 7's block at point `t` is block `(t / 2, t % 2, 0)`: batch row `t / 2`, upper or lower half of the 1024 rows. -/
theorem idx1_7 : ∀ t : Fin cfg1.N, win1_7.index t (0 : Fin 3) = t.val / 2 ∧ win1_7.index t (1 : Fin 3) = t.val % 2 ∧ win1_7.index t (2 : Fin 3) = 0 :=
  (by decide +kernel : ∀ t : Fin grid1.N, _)

/-! ## The input blocks as entries of their arrays -/

variable (V : (c : Dev nD) → (b : Ref sig .tc) → Buf (Elt Ideal) ((c : Thread nD τ).loc b))

/-- Window 0's block at point `t`, read at row `y 1` and entry `y 2`, is the recurrent-weight eligibility matrix at batch row `t / 2`, row `512 · (t % 2) + y 1`, entry `y 2`. -/
theorem blk1_0_at (c : Dev nD) (t : Fin cfg1.N) (y : S1x512x1024.Idx) (i : S16x1024x1024.Idx)
    (h0 : (i 0).val = t.val / 2) (h1 : (i 1).val = t.val % 2 * 512 + (y 1).val) (h2 : (i 2).val = (y 2).val) :
    (iblk1 (F := Ideal) V c 0 t : Vec Ideal S1x512x1024 .f32) y = (V c (Pipeline.arrRef spec1 0) : S16x1024x1024.Idx → EReal) i := by
  obtain ⟨e0, e1, e2⟩ := idx1_0 t
  have hy0 : (y 0).val < 1 := (y 0).isLt
  unfold iblk1
  rw [View.read_apply]
  show (V c (Pipeline.arrRef spec1 0) : S16x1024x1024.Idx → EReal) _ = _
  refine congrArg (V c (Pipeline.arrRef spec1 0) : S16x1024x1024.Idx → EReal) (funext fun a => Fin.ext ?_)
  match a with
  | ⟨0, _⟩ => show win1_0.index t (0 : Fin 3) * 1 + 1 * (y 0).val = (i 0).val; omega
  | ⟨1, _⟩ => show win1_0.index t (1 : Fin 3) * 512 + 1 * (y 1).val = (i 1).val; omega
  | ⟨2, _⟩ => show win1_0.index t (2 : Fin 3) * 1024 + 1 * (y 2).val = (i 2).val; omega

/-- Window 1's block at point `t`, read at row `y 1` and entry `y 2`, is the input-weight eligibility matrix at batch row `t / 2`, row `512 · (t % 2) + y 1`, entry `y 2`. -/
theorem blk1_1_at (c : Dev nD) (t : Fin cfg1.N) (y : S1x512x512.Idx) (i : S16x1024x512.Idx)
    (h0 : (i 0).val = t.val / 2) (h1 : (i 1).val = t.val % 2 * 512 + (y 1).val) (h2 : (i 2).val = (y 2).val) :
    (iblk1 (F := Ideal) V c 1 t : Vec Ideal S1x512x512 .f32) y = (V c (Pipeline.arrRef spec1 1) : S16x1024x512.Idx → EReal) i := by
  obtain ⟨e0, e1, e2⟩ := idx1_1 t
  have hy0 : (y 0).val < 1 := (y 0).isLt
  unfold iblk1
  rw [View.read_apply]
  show (V c (Pipeline.arrRef spec1 1) : S16x1024x512.Idx → EReal) _ = _
  refine congrArg (V c (Pipeline.arrRef spec1 1) : S16x1024x512.Idx → EReal) (funext fun a => Fin.ext ?_)
  match a with
  | ⟨0, _⟩ => show win1_1.index t (0 : Fin 3) * 1 + 1 * (y 0).val = (i 0).val; omega
  | ⟨1, _⟩ => show win1_1.index t (1 : Fin 3) * 512 + 1 * (y 1).val = (i 1).val; omega
  | ⟨2, _⟩ => show win1_1.index t (2 : Fin 3) * 512 + 1 * (y 2).val = (i 2).val; omega

/-- Window 2's block at point `t`, read at row `y 1` and entry `y 2`, is the forget gate's column at batch row `t / 2`, row `512 · (t % 2) + y 1`, entry `y 2`. -/
theorem blk1_2_at (c : Dev nD) (t : Fin cfg1.N) (y : S1x512x1.Idx) (i : S16x1024x1.Idx)
    (h0 : (i 0).val = t.val / 2) (h1 : (i 1).val = t.val % 2 * 512 + (y 1).val) (h2 : (i 2).val = (y 2).val) :
    (iblk1 (F := Ideal) V c 2 t : Vec Ideal S1x512x1 .f32) y = (V c (Pipeline.arrRef spec1 2) : S16x1024x1.Idx → EReal) i := by
  obtain ⟨e0, e1, e2⟩ := idx1_2 t
  have hy0 : (y 0).val < 1 := (y 0).isLt
  unfold iblk1
  rw [View.read_apply]
  show (V c (Pipeline.arrRef spec1 2) : S16x1024x1.Idx → EReal) _ = _
  refine congrArg (V c (Pipeline.arrRef spec1 2) : S16x1024x1.Idx → EReal) (funext fun a => Fin.ext ?_)
  match a with
  | ⟨0, _⟩ => show win1_2.index t (0 : Fin 3) * 1 + 1 * (y 0).val = (i 0).val; omega
  | ⟨1, _⟩ => show win1_2.index t (1 : Fin 3) * 512 + 1 * (y 1).val = (i 1).val; omega
  | ⟨2, _⟩ => show win1_2.index t (2 : Fin 3) * 1 + 1 * (y 2).val = (i 2).val; omega

/-- Window 3's block at point `t`, read at row `y 1` and entry `y 2`, is the factor's column at batch row `t / 2`, row `512 · (t % 2) + y 1`, entry `y 2`. -/
theorem blk1_3_at (c : Dev nD) (t : Fin cfg1.N) (y : S1x512x1.Idx) (i : S16x1024x1.Idx)
    (h0 : (i 0).val = t.val / 2) (h1 : (i 1).val = t.val % 2 * 512 + (y 1).val) (h2 : (i 2).val = (y 2).val) :
    (iblk1 (F := Ideal) V c 3 t : Vec Ideal S1x512x1 .f32) y = (V c (Pipeline.arrRef spec1 3) : S16x1024x1.Idx → EReal) i := by
  obtain ⟨e0, e1, e2⟩ := idx1_3 t
  have hy0 : (y 0).val < 1 := (y 0).isLt
  unfold iblk1
  rw [View.read_apply]
  show (V c (Pipeline.arrRef spec1 3) : S16x1024x1.Idx → EReal) _ = _
  refine congrArg (V c (Pipeline.arrRef spec1 3) : S16x1024x1.Idx → EReal) (funext fun a => Fin.ext ?_)
  match a with
  | ⟨0, _⟩ => show win1_3.index t (0 : Fin 3) * 1 + 1 * (y 0).val = (i 0).val; omega
  | ⟨1, _⟩ => show win1_3.index t (1 : Fin 3) * 512 + 1 * (y 1).val = (i 1).val; omega
  | ⟨2, _⟩ => show win1_3.index t (2 : Fin 3) * 1 + 1 * (y 2).val = (i 2).val; omega

/-- Window 4's block at point `t`, read at entry `y 2`, is the input row at batch row `t / 2`, entry `y 2`. -/
theorem blk1_4_at (c : Dev nD) (t : Fin cfg1.N) (y : S1x1x512.Idx) (i : S16x1x512.Idx)
    (h0 : (i 0).val = t.val / 2) (h2 : (i 2).val = (y 2).val) :
    (iblk1 (F := Ideal) V c 4 t : Vec Ideal S1x1x512 .f32) y = (V c (Pipeline.arrRef spec1 4) : S16x1x512.Idx → EReal) i := by
  obtain ⟨e0, e1, e2⟩ := idx1_4 t
  have hy0 : (y 0).val < 1 := (y 0).isLt
  have hy1 : (y 1).val < 1 := (y 1).isLt
  have hi1 : (i 1).val < 1 := (i 1).isLt
  unfold iblk1
  rw [View.read_apply]
  show (V c (Pipeline.arrRef spec1 4) : S16x1x512.Idx → EReal) _ = _
  refine congrArg (V c (Pipeline.arrRef spec1 4) : S16x1x512.Idx → EReal) (funext fun a => Fin.ext ?_)
  match a with
  | ⟨0, _⟩ => show win1_4.index t (0 : Fin 3) * 1 + 1 * (y 0).val = (i 0).val; omega
  | ⟨1, _⟩ => show win1_4.index t (1 : Fin 3) * 1 + 1 * (y 1).val = (i 1).val; omega
  | ⟨2, _⟩ => show win1_4.index t (2 : Fin 3) * 512 + 1 * (y 2).val = (i 2).val; omega

/-- Window 5's block at point `t`, read at entry `y 2`, is the previous hidden row at batch row `t / 2`, entry `y 2`. -/
theorem blk1_5_at (c : Dev nD) (t : Fin cfg1.N) (y : S1x1x1024.Idx) (i : S16x1x1024.Idx)
    (h0 : (i 0).val = t.val / 2) (h2 : (i 2).val = (y 2).val) :
    (iblk1 (F := Ideal) V c 5 t : Vec Ideal S1x1x1024 .f32) y = (V c (Pipeline.arrRef spec1 5) : S16x1x1024.Idx → EReal) i := by
  obtain ⟨e0, e1, e2⟩ := idx1_5 t
  have hy0 : (y 0).val < 1 := (y 0).isLt
  have hy1 : (y 1).val < 1 := (y 1).isLt
  have hi1 : (i 1).val < 1 := (i 1).isLt
  unfold iblk1
  rw [View.read_apply]
  show (V c (Pipeline.arrRef spec1 5) : S16x1x1024.Idx → EReal) _ = _
  refine congrArg (V c (Pipeline.arrRef spec1 5) : S16x1x1024.Idx → EReal) (funext fun a => Fin.ext ?_)
  match a with
  | ⟨0, _⟩ => show win1_5.index t (0 : Fin 3) * 1 + 1 * (y 0).val = (i 0).val; omega
  | ⟨1, _⟩ => show win1_5.index t (1 : Fin 3) * 1 + 1 * (y 1).val = (i 1).val; omega
  | ⟨2, _⟩ => show win1_5.index t (2 : Fin 3) * 1024 + 1 * (y 2).val = (i 2).val; omega

/-! ## Output window 6: the recurrent-weight eligibility matrix -/

/-- What the body leaves in window 6's buffer, at row `q` and entry `k` of the block: `e · f + a · v` of the input blocks there. -/
theorem out1_h_at (x0 : Vec Ideal S1x512x1024 .f32) (x1 : Vec Ideal S1x512x512 .f32) (x2 x3 : Vec Ideal S1x512x1 .f32)
    (x4 : Vec Ideal S1x1x512 .f32) (x5 : Vec Ideal S1x1x1024 .f32) (y : S1x512x1024.Idx) (q : Fin 512) (k : Fin 1024)
    (hq : (y 1).val = q.val) (hk : (y 2).val = k.val) :
    out1_6 (F := Ideal) x0 x1 x2 x3 x4 x5 y
      = x0 y * x2 (ix3 (0 : Fin 1) q (0 : Fin 1)) + x3 (ix3 (0 : Fin 1) q (0 : Fin 1)) * x5 (ix3 (0 : Fin 1) (0 : Fin 1) k) := by
  have hy : y = ix3 (0 : Fin 1) q k := funext fun a => Fin.ext (by
    match a with
    | ⟨0, _⟩ => have h : (y 0).val < 1 := (y 0).isLt; show (y 0).val = 0; omega
    | ⟨1, _⟩ => exact hq
    | ⟨2, _⟩ => exact hk)
  subst hy
  unfold out1_6
  rw [View.canon_unit_zero hz3]
  simp only [View.ld_unit_zero (S := S1x512x1) hz3, View.ld_unit_zero (S := S1x1x1024) hz3, View.ld_unit_zero (S := S1x512x1024) hz3]
  exact pay1_h_apply x2 x3 x5 x0 q k

/-- WHAT POINT `t` WRITES BACK to window 6 is block `t` of the updated matrix: entry `(b, r, k)` is
    `e b r k · f b r + a b r · v b k` of the arrays as the launch finds them. -/
theorem flushed1_h (c : Dev nD) (t : Fin cfg1.N) :
    (dat1 (F := Ideal) V c).flushed 6 t = ((cfg1.win 6).blk t).view.read (Elt Ideal)
      (updH (V c (Pipeline.arrRef spec1 0) : S16x1024x1024.Idx → EReal) (V c (Pipeline.arrRef spec1 2) : S16x1024x1.Idx → EReal) (V c (Pipeline.arrRef spec1 3) : S16x1024x1.Idx → EReal) (V c (Pipeline.arrRef spec1 5) : S16x1x1024.Idx → EReal)) := by
  show (cfg1.win 6).cut (grid1.coords t) ((dat1 V c).after 6 t) = _
  rw [after1_6]
  funext j
  have hj0 : (j 0).val < 1 := (j 0).isLt
  have hq : (j 1).val < 512 := (j 1).isLt
  have hk : (j 2).val < 1024 := (j 2).isLt
  obtain ⟨e0, e1, e2⟩ := idx1_6 t
  refine (out1_h_at (iblk1 V c 0 t) (iblk1 V c 1 t) (iblk1 V c 2 t) (iblk1 V c 3 t) (iblk1 V c 4 t) (iblk1 V c 5 t)
    ((cfg1.win 6).xinj (grid1.coords t) j) ⟨(j 1).val, hq⟩ ⟨(j 2).val, hk⟩ rfl rfl).trans ?_
  rw [View.read_apply]
  show _ = updH _ _ _ _ (((cfg1.win 6).blk t).view.emb j)
  rw [updH_apply]
  have c0 : ((((cfg1.win 6).blk t).view.emb j) 0).val = t.val / 2 := by
    show win1_6.index t (0 : Fin 3) * 1 + 1 * (j 0).val = _; omega
  have c1 : ((((cfg1.win 6).blk t).view.emb j) 1).val = t.val % 2 * 512 + (j 1).val := by
    show win1_6.index t (1 : Fin 3) * 512 + 1 * (j 1).val = _; omega
  have c2 : ((((cfg1.win 6).blk t).view.emb j) 2).val = (j 2).val := by
    show win1_6.index t (2 : Fin 3) * 1024 + 1 * (j 2).val = _; omega
  refine congrArg₂ (· + ·) (congrArg₂ (· * ·) ?_ ?_) (congrArg₂ (· * ·) ?_ ?_)
  · exact blk1_0_at V c t _ _ c0 c1 c2
  · exact blk1_2_at V c t _ _ c0 c1 rfl
  · exact blk1_3_at V c t _ _ c0 c1 rfl
  · exact blk1_5_at V c t _ _ c0 c2

/-- An index of the array is in point `t`'s block iff each coordinate is in the block's range on its axis. -/
theorem mem_blk1_h (t : Fin cfg1.N) (i : S16x1024x1024.Idx) :
    i ∈ ((cfg1.win 6).blk t).view.set ↔ ∀ a : Fin 3, win1_6.index t a * S1x512x1024.size a ≤ (i a).val ∧ (i a).val < win1_6.index t a * S1x512x1024.size a + S1x512x1024.size a := by
  show i ∈ ((View.whole main_v15_0).slice (win1_6.rect t)).set ↔ _
  rw [View.set_slice_whole, Rect.mem_set_unit]
  exact Iff.rfl

/-- Every entry is written back: entry `(b, r, k)` lies in the block of point `2 b + r / 512`. -/
theorem cover1_h (i : S16x1024x1024.Idx) : ∃ t : Fin cfg1.N, (cfg1.win 6).flush t = true ∧ i ∈ ((cfg1.win 6).blk t).view.set := by
  have hi0 : (i 0).val < 16 := (i 0).isLt
  have hi1 : (i 1).val < 1024 := (i 1).isLt
  have hi2 : (i 2).val < 1024 := (i 2).isLt
  have hN : cfg1.N = 32 := N_1
  obtain ⟨t, ht⟩ : ∃ t : Fin cfg1.N, t.val = 2 * (i 0).val + (i 1).val / 512 := ⟨⟨_, by omega⟩, rfl⟩
  obtain ⟨e0, e1, e2⟩ := idx1_6 t
  refine ⟨t, flush1_6 t, ?_⟩
  rw [mem_blk1_h]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 1024 ≤ (i 2).val ∧ (i 2).val < win1_6.index t (2 : Fin 3) * 1024 + 1024; omega

/-- THE ARRAY after the first launch: entry `(b, r, k)` is `e b r k · f b r + a b r · v b k` of the arrays as the launch finds them. -/
theorem arr1_h (c : Dev nD) :
    (dat1 (F := Ideal) V c).arrAt 6 cfg1.N
      = updH (V c (Pipeline.arrRef spec1 0)) (V c (Pipeline.arrRef spec1 2)) (V c (Pipeline.arrRef spec1 3)) (V c (Pipeline.arrRef spec1 5)) :=
  (dat1 V c).arrAt_eq_of_cover 6 _ (fun t _ => flushed1_h V c t) cover1_h

/-! ## Output window 7: the input-weight eligibility matrix -/

/-- What the body leaves in window 7's buffer, at row `q` and entry `k` of the block: `e · f + a · v` of the input blocks there. -/
theorem out1_x_at (x0 : Vec Ideal S1x512x1024 .f32) (x1 : Vec Ideal S1x512x512 .f32) (x2 x3 : Vec Ideal S1x512x1 .f32)
    (x4 : Vec Ideal S1x1x512 .f32) (x5 : Vec Ideal S1x1x1024 .f32) (y : S1x512x512.Idx) (q : Fin 512) (k : Fin 512)
    (hq : (y 1).val = q.val) (hk : (y 2).val = k.val) :
    out1_7 (F := Ideal) x0 x1 x2 x3 x4 x5 y
      = x1 y * x2 (ix3 (0 : Fin 1) q (0 : Fin 1)) + x3 (ix3 (0 : Fin 1) q (0 : Fin 1)) * x4 (ix3 (0 : Fin 1) (0 : Fin 1) k) := by
  have hy : y = ix3 (0 : Fin 1) q k := funext fun a => Fin.ext (by
    match a with
    | ⟨0, _⟩ => have h : (y 0).val < 1 := (y 0).isLt; show (y 0).val = 0; omega
    | ⟨1, _⟩ => exact hq
    | ⟨2, _⟩ => exact hk)
  subst hy
  unfold out1_7
  rw [View.canon_unit_zero hz3]
  simp only [View.ld_unit_zero (S := S1x512x1) hz3, View.ld_unit_zero (S := S1x1x512) hz3, View.ld_unit_zero (S := S1x512x512) hz3]
  exact pay1_x_apply x2 x3 x4 x1 q k

/-- WHAT POINT `t` WRITES BACK to window 7 is block `t` of the updated matrix: entry `(b, r, k)` is
    `e b r k · f b r + a b r · v b k` of the arrays as the launch finds them. -/
theorem flushed1_x (c : Dev nD) (t : Fin cfg1.N) :
    (dat1 (F := Ideal) V c).flushed 7 t = ((cfg1.win 7).blk t).view.read (Elt Ideal)
      (updX (V c (Pipeline.arrRef spec1 1) : S16x1024x512.Idx → EReal) (V c (Pipeline.arrRef spec1 2) : S16x1024x1.Idx → EReal) (V c (Pipeline.arrRef spec1 3) : S16x1024x1.Idx → EReal) (V c (Pipeline.arrRef spec1 4) : S16x1x512.Idx → EReal)) := by
  show (cfg1.win 7).cut (grid1.coords t) ((dat1 V c).after 7 t) = _
  rw [after1_7]
  funext j
  have hj0 : (j 0).val < 1 := (j 0).isLt
  have hq : (j 1).val < 512 := (j 1).isLt
  have hk : (j 2).val < 512 := (j 2).isLt
  obtain ⟨e0, e1, e2⟩ := idx1_7 t
  refine (out1_x_at (iblk1 V c 0 t) (iblk1 V c 1 t) (iblk1 V c 2 t) (iblk1 V c 3 t) (iblk1 V c 4 t) (iblk1 V c 5 t)
    ((cfg1.win 7).xinj (grid1.coords t) j) ⟨(j 1).val, hq⟩ ⟨(j 2).val, hk⟩ rfl rfl).trans ?_
  rw [View.read_apply]
  show _ = updX _ _ _ _ (((cfg1.win 7).blk t).view.emb j)
  rw [updX_apply]
  have c0 : ((((cfg1.win 7).blk t).view.emb j) 0).val = t.val / 2 := by
    show win1_7.index t (0 : Fin 3) * 1 + 1 * (j 0).val = _; omega
  have c1 : ((((cfg1.win 7).blk t).view.emb j) 1).val = t.val % 2 * 512 + (j 1).val := by
    show win1_7.index t (1 : Fin 3) * 512 + 1 * (j 1).val = _; omega
  have c2 : ((((cfg1.win 7).blk t).view.emb j) 2).val = (j 2).val := by
    show win1_7.index t (2 : Fin 3) * 512 + 1 * (j 2).val = _; omega
  refine congrArg₂ (· + ·) (congrArg₂ (· * ·) ?_ ?_) (congrArg₂ (· * ·) ?_ ?_)
  · exact blk1_1_at V c t _ _ c0 c1 c2
  · exact blk1_2_at V c t _ _ c0 c1 rfl
  · exact blk1_3_at V c t _ _ c0 c1 rfl
  · exact blk1_4_at V c t _ _ c0 c2

/-- An index of the array is in point `t`'s block iff each coordinate is in the block's range on its axis. -/
theorem mem_blk1_x (t : Fin cfg1.N) (i : S16x1024x512.Idx) :
    i ∈ ((cfg1.win 7).blk t).view.set ↔ ∀ a : Fin 3, win1_7.index t a * S1x512x512.size a ≤ (i a).val ∧ (i a).val < win1_7.index t a * S1x512x512.size a + S1x512x512.size a := by
  show i ∈ ((View.whole main_v15_1).slice (win1_7.rect t)).set ↔ _
  rw [View.set_slice_whole, Rect.mem_set_unit]
  exact Iff.rfl

/-- Every entry is written back: entry `(b, r, k)` lies in the block of point `2 b + r / 512`. -/
theorem cover1_x (i : S16x1024x512.Idx) : ∃ t : Fin cfg1.N, (cfg1.win 7).flush t = true ∧ i ∈ ((cfg1.win 7).blk t).view.set := by
  have hi0 : (i 0).val < 16 := (i 0).isLt
  have hi1 : (i 1).val < 1024 := (i 1).isLt
  have hi2 : (i 2).val < 512 := (i 2).isLt
  have hN : cfg1.N = 32 := N_1
  obtain ⟨t, ht⟩ : ∃ t : Fin cfg1.N, t.val = 2 * (i 0).val + (i 1).val / 512 := ⟨⟨_, by omega⟩, rfl⟩
  obtain ⟨e0, e1, e2⟩ := idx1_7 t
  refine ⟨t, flush1_7 t, ?_⟩
  rw [mem_blk1_x]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 512 ≤ (i 1).val ∧ (i 1).val < win1_7.index t (1 : Fin 3) * 512 + 512; omega
  | ⟨2, _⟩ => show win1_7.index t (2 : Fin 3) * 512 ≤ (i 2).val ∧ (i 2).val < win1_7.index t (2 : Fin 3) * 512 + 512; omega

/-- THE ARRAY after the first launch: entry `(b, r, k)` is `e b r k · f b r + a b r · v b k` of the arrays as the launch finds them. -/
theorem arr1_x (c : Dev nD) :
    (dat1 (F := Ideal) V c).arrAt 7 cfg1.N
      = updX (V c (Pipeline.arrRef spec1 1)) (V c (Pipeline.arrRef spec1 2)) (V c (Pipeline.arrRef spec1 3)) (V c (Pipeline.arrRef spec1 4)) :=
  (dat1 V c).arrAt_eq_of_cover 7 _ (fun t _ => flushed1_x V c t) cover1_x

end Cert.KernelIdeal.TraceValue

end
-- ==== Proof.Trace2.lean ====
/-
  The second launch of the trace kernel, read as whole arrays on the extended reals.

  The launch walks a grid of 16 × 2 points. Point `t` works on batch row `t / 2` and on the upper (`t % 2 = 0`) or lower
  half of the 1024 rows of that batch row's two eligibility matrices: it holds rows `512 · (t % 2) … 512 · (t % 2) + 511` of
  each matrix, the same rows of the forget gate `f` and of the factor `a`, and the batch row's previous hidden row and
  input row, and writes back `e · f + a · v` for those rows. The 32 blocks tile each matrix, so after the launch entry
  `(b, r, k)` of each output is `e b r k · f b r + a b r · v b k` of the arrays as the launch found them.
-/
import proofs.«152007_j29575144800638_2_alg».proof.Proof.FrameKernelIdeal
import proofs.«152007_j29575144800638_2_alg».proof.Proof.TraceLib
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.TraceValue

open Cert.KernelIdeal Cert.KernelIdeal.Gen Cert.KernelIdeal.GenP

/-! ## Which block each window holds at a point -/

/-- Window 0's block at point `t` is block `(t / 2, t % 2, 0)`: batch row `t / 2`, upper or lower half of the 1024 rows. -/
theorem idx2_0 : ∀ t : Fin cfg2.N, win2_0.index t (0 : Fin 3) = t.val / 2 ∧ win2_0.index t (1 : Fin 3) = t.val % 2 ∧ win2_0.index t (2 : Fin 3) = 0 :=
  (by decide +kernel : ∀ t : Fin grid2.N, _)
/-- Window 1's block at point `t` is block `(t / 2, t % 2, 0)`: batch row `t / 2`, upper or lower half of the 1024 rows. -/
theorem idx2_1 : ∀ t : Fin cfg2.N, win2_1.index t (0 : Fin 3) = t.val / 2 ∧ win2_1.index t (1 : Fin 3) = t.val % 2 ∧ win2_1.index t (2 : Fin 3) = 0 :=
  (by decide +kernel : ∀ t : Fin grid2.N, _)
/-- Window 2's block at point `t` is block `(t / 2, t % 2, 0)`: batch row `t / 2`, upper or lower half of the 1024 rows. -/
theorem idx2_2 : ∀ t : Fin cfg2.N, win2_2.index t (0 : Fin 3) = t.val / 2 ∧ win2_2.index t (1 : Fin 3) = t.val % 2 ∧ win2_2.index t (2 : Fin 3) = 0 :=
  (by decide +kernel : ∀ t : Fin grid2.N, _)
/-- Window 3's block at point `t` is block `(t / 2, t % 2, 0)`: batch row `t / 2`, upper or lower half of the 1024 rows. -/
theorem idx2_3 : ∀ t : Fin cfg2.N, win2_3.index t (0 : Fin 3) = t.val / 2 ∧ win2_3.index t (1 : Fin 3) = t.val % 2 ∧ win2_3.index t (2 : Fin 3) = 0 :=
  (by decide +kernel : ∀ t : Fin grid2.N, _)
/-- Window 4's block at point `t` is block `(t / 2, 0, 0)`: batch row `t / 2`'s one row, at both halves. -/
theorem idx2_4 : ∀ t : Fin cfg2.N, win2_4.index t (0 : Fin 3) = t.val / 2 ∧ win2_4.index t (1 : Fin 3) = 0 ∧ win2_4.index t (2 : Fin 3) = 0 :=
  (by decide +kernel : ∀ t : Fin grid2.N, _)
/-- Window 5's block at point `t` is block `(t / 2, 0, 0)`: batch row `t / 2`'s one row, at both halves. -/
theorem idx2_5 : ∀ t : Fin cfg2.N, win2_5.index t (0 : Fin 3) = t.val / 2 ∧ win2_5.index t (1 : Fin 3) = 0 ∧ win2_5.index t (2 : Fin 3) = 0 :=
  (by decide +kernel : ∀ t : Fin grid2.N, _)
/-- Window 6's block at point `t` is block `(t / 2, t % 2, 0)`: batch row `t / 2`, upper or lower half of the 1024 rows. -/
theorem idx2_6 : ∀ t : Fin cfg2.N, win2_6.index t (0 : Fin 3) = t.val / 2 ∧ win2_6.index t (1 : Fin 3) = t.val % 2 ∧ win2_6.index t (2 : Fin 3) = 0 :=
  (by decide +kernel : ∀ t : Fin grid2.N, _)
/-- Window 7's block at point `t` is block `(t / 2, t % 2, 0)`: batch row `t / 2`, upper or lower half of the 1024 rows. -/
theorem idx2_7 : ∀ t : Fin cfg2.N, win2_7.index t (0 : Fin 3) = t.val / 2 ∧ win2_7.index t (1 : Fin 3) = t.val % 2 ∧ win2_7.index t (2 : Fin 3) = 0 :=
  (by decide +kernel : ∀ t : Fin grid2.N, _)

/-! ## The input blocks as entries of their arrays -/

variable (V : (c : Dev nD) → (b : Ref sig .tc) → Buf (Elt Ideal) ((c : Thread nD τ).loc b))

/-- Window 0's block at point `t`, read at row `y 1` and entry `y 2`, is the recurrent-weight eligibility matrix at batch row `t / 2`, row `512 · (t % 2) + y 1`, entry `y 2`. -/
theorem blk2_0_at (c : Dev nD) (t : Fin cfg2.N) (y : S1x512x1024.Idx) (i : S16x1024x1024.Idx)
    (h0 : (i 0).val = t.val / 2) (h1 : (i 1).val = t.val % 2 * 512 + (y 1).val) (h2 : (i 2).val = (y 2).val) :
    (iblk2 (F := Ideal) V c 0 t : Vec Ideal S1x512x1024 .f32) y = (V c (Pipeline.arrRef spec2 0) : S16x1024x1024.Idx → EReal) i := by
  obtain ⟨e0, e1, e2⟩ := idx2_0 t
  have hy0 : (y 0).val < 1 := (y 0).isLt
  unfold iblk2
  rw [View.read_apply]
  show (V c (Pipeline.arrRef spec2 0) : S16x1024x1024.Idx → EReal) _ = _
  refine congrArg (V c (Pipeline.arrRef spec2 0) : S16x1024x1024.Idx → EReal) (funext fun a => Fin.ext ?_)
  match a with
  | ⟨0, _⟩ => show win2_0.index t (0 : Fin 3) * 1 + 1 * (y 0).val = (i 0).val; omega
  | ⟨1, _⟩ => show win2_0.index t (1 : Fin 3) * 512 + 1 * (y 1).val = (i 1).val; omega
  | ⟨2, _⟩ => show win2_0.index t (2 : Fin 3) * 1024 + 1 * (y 2).val = (i 2).val; omega

/-- Window 1's block at point `t`, read at row `y 1` and entry `y 2`, is the input-weight eligibility matrix at batch row `t / 2`, row `512 · (t % 2) + y 1`, entry `y 2`. -/
theorem blk2_1_at (c : Dev nD) (t : Fin cfg2.N) (y : S1x512x512.Idx) (i : S16x1024x512.Idx)
    (h0 : (i 0).val = t.val / 2) (h1 : (i 1).val = t.val % 2 * 512 + (y 1).val) (h2 : (i 2).val = (y 2).val) :
    (iblk2 (F := Ideal) V c 1 t : Vec Ideal S1x512x512 .f32) y = (V c (Pipeline.arrRef spec2 1) : S16x1024x512.Idx → EReal) i := by
  obtain ⟨e0, e1, e2⟩ := idx2_1 t
  have hy0 : (y 0).val < 1 := (y 0).isLt
  unfold iblk2
  rw [View.read_apply]
  show (V c (Pipeline.arrRef spec2 1) : S16x1024x512.Idx → EReal) _ = _
  refine congrArg (V c (Pipeline.arrRef spec2 1) : S16x1024x512.Idx → EReal) (funext fun a => Fin.ext ?_)
  match a with
  | ⟨0, _⟩ => show win2_1.index t (0 : Fin 3) * 1 + 1 * (y 0).val = (i 0).val; omega
  | ⟨1, _⟩ => show win2_1.index t (1 : Fin 3) * 512 + 1 * (y 1).val = (i 1).val; omega
  | ⟨2, _⟩ => show win2_1.index t (2 : Fin 3) * 512 + 1 * (y 2).val = (i 2).val; omega

/-- Window 2's block at point `t`, read at row `y 1` and entry `y 2`, is the forget gate's column at batch row `t / 2`, row `512 · (t % 2) + y 1`, entry `y 2`. -/
theorem blk2_2_at (c : Dev nD) (t : Fin cfg2.N) (y : S1x512x1.Idx) (i : S16x1024x1.Idx)
    (h0 : (i 0).val = t.val / 2) (h1 : (i 1).val = t.val % 2 * 512 + (y 1).val) (h2 : (i 2).val = (y 2).val) :
    (iblk2 (F := Ideal) V c 2 t : Vec Ideal S1x512x1 .f32) y = (V c (Pipeline.arrRef spec2 2) : S16x1024x1.Idx → EReal) i := by
  obtain ⟨e0, e1, e2⟩ := idx2_2 t
  have hy0 : (y 0).val < 1 := (y 0).isLt
  unfold iblk2
  rw [View.read_apply]
  show (V c (Pipeline.arrRef spec2 2) : S16x1024x1.Idx → EReal) _ = _
  refine congrArg (V c (Pipeline.arrRef spec2 2) : S16x1024x1.Idx → EReal) (funext fun a => Fin.ext ?_)
  match a with
  | ⟨0, _⟩ => show win2_2.index t (0 : Fin 3) * 1 + 1 * (y 0).val = (i 0).val; omega
  | ⟨1, _⟩ => show win2_2.index t (1 : Fin 3) * 512 + 1 * (y 1).val = (i 1).val; omega
  | ⟨2, _⟩ => show win2_2.index t (2 : Fin 3) * 1 + 1 * (y 2).val = (i 2).val; omega

/-- Window 3's block at point `t`, read at row `y 1` and entry `y 2`, is the factor's column at batch row `t / 2`, row `512 · (t % 2) + y 1`, entry `y 2`. -/
theorem blk2_3_at (c : Dev nD) (t : Fin cfg2.N) (y : S1x512x1.Idx) (i : S16x1024x1.Idx)
    (h0 : (i 0).val = t.val / 2) (h1 : (i 1).val = t.val % 2 * 512 + (y 1).val) (h2 : (i 2).val = (y 2).val) :
    (iblk2 (F := Ideal) V c 3 t : Vec Ideal S1x512x1 .f32) y = (V c (Pipeline.arrRef spec2 3) : S16x1024x1.Idx → EReal) i := by
  obtain ⟨e0, e1, e2⟩ := idx2_3 t
  have hy0 : (y 0).val < 1 := (y 0).isLt
  unfold iblk2
  rw [View.read_apply]
  show (V c (Pipeline.arrRef spec2 3) : S16x1024x1.Idx → EReal) _ = _
  refine congrArg (V c (Pipeline.arrRef spec2 3) : S16x1024x1.Idx → EReal) (funext fun a => Fin.ext ?_)
  match a with
  | ⟨0, _⟩ => show win2_3.index t (0 : Fin 3) * 1 + 1 * (y 0).val = (i 0).val; omega
  | ⟨1, _⟩ => show win2_3.index t (1 : Fin 3) * 512 + 1 * (y 1).val = (i 1).val; omega
  | ⟨2, _⟩ => show win2_3.index t (2 : Fin 3) * 1 + 1 * (y 2).val = (i 2).val; omega

/-- Window 4's block at point `t`, read at entry `y 2`, is the input row at batch row `t / 2`, entry `y 2`. -/
theorem blk2_4_at (c : Dev nD) (t : Fin cfg2.N) (y : S1x1x512.Idx) (i : S16x1x512.Idx)
    (h0 : (i 0).val = t.val / 2) (h2 : (i 2).val = (y 2).val) :
    (iblk2 (F := Ideal) V c 4 t : Vec Ideal S1x1x512 .f32) y = (V c (Pipeline.arrRef spec2 4) : S16x1x512.Idx → EReal) i := by
  obtain ⟨e0, e1, e2⟩ := idx2_4 t
  have hy0 : (y 0).val < 1 := (y 0).isLt
  have hy1 : (y 1).val < 1 := (y 1).isLt
  have hi1 : (i 1).val < 1 := (i 1).isLt
  unfold iblk2
  rw [View.read_apply]
  show (V c (Pipeline.arrRef spec2 4) : S16x1x512.Idx → EReal) _ = _
  refine congrArg (V c (Pipeline.arrRef spec2 4) : S16x1x512.Idx → EReal) (funext fun a => Fin.ext ?_)
  match a with
  | ⟨0, _⟩ => show win2_4.index t (0 : Fin 3) * 1 + 1 * (y 0).val = (i 0).val; omega
  | ⟨1, _⟩ => show win2_4.index t (1 : Fin 3) * 1 + 1 * (y 1).val = (i 1).val; omega
  | ⟨2, _⟩ => show win2_4.index t (2 : Fin 3) * 512 + 1 * (y 2).val = (i 2).val; omega

/-- Window 5's block at point `t`, read at entry `y 2`, is the previous hidden row at batch row `t / 2`, entry `y 2`. -/
theorem blk2_5_at (c : Dev nD) (t : Fin cfg2.N) (y : S1x1x1024.Idx) (i : S16x1x1024.Idx)
    (h0 : (i 0).val = t.val / 2) (h2 : (i 2).val = (y 2).val) :
    (iblk2 (F := Ideal) V c 5 t : Vec Ideal S1x1x1024 .f32) y = (V c (Pipeline.arrRef spec2 5) : S16x1x1024.Idx → EReal) i := by
  obtain ⟨e0, e1, e2⟩ := idx2_5 t
  have hy0 : (y 0).val < 1 := (y 0).isLt
  have hy1 : (y 1).val < 1 := (y 1).isLt
  have hi1 : (i 1).val < 1 := (i 1).isLt
  unfold iblk2
  rw [View.read_apply]
  show (V c (Pipeline.arrRef spec2 5) : S16x1x1024.Idx → EReal) _ = _
  refine congrArg (V c (Pipeline.arrRef spec2 5) : S16x1x1024.Idx → EReal) (funext fun a => Fin.ext ?_)
  match a with
  | ⟨0, _⟩ => show win2_5.index t (0 : Fin 3) * 1 + 1 * (y 0).val = (i 0).val; omega
  | ⟨1, _⟩ => show win2_5.index t (1 : Fin 3) * 1 + 1 * (y 1).val = (i 1).val; omega
  | ⟨2, _⟩ => show win2_5.index t (2 : Fin 3) * 1024 + 1 * (y 2).val = (i 2).val; omega

/-! ## Output window 6: the recurrent-weight eligibility matrix -/

/-- What the body leaves in window 6's buffer, at row `q` and entry `k` of the block: `e · f + a · v` of the input blocks there. -/
theorem out2_h_at (x0 : Vec Ideal S1x512x1024 .f32) (x1 : Vec Ideal S1x512x512 .f32) (x2 x3 : Vec Ideal S1x512x1 .f32)
    (x4 : Vec Ideal S1x1x512 .f32) (x5 : Vec Ideal S1x1x1024 .f32) (y : S1x512x1024.Idx) (q : Fin 512) (k : Fin 1024)
    (hq : (y 1).val = q.val) (hk : (y 2).val = k.val) :
    out2_6 (F := Ideal) x0 x1 x2 x3 x4 x5 y
      = x0 y * x2 (ix3 (0 : Fin 1) q (0 : Fin 1)) + x3 (ix3 (0 : Fin 1) q (0 : Fin 1)) * x5 (ix3 (0 : Fin 1) (0 : Fin 1) k) := by
  have hy : y = ix3 (0 : Fin 1) q k := funext fun a => Fin.ext (by
    match a with
    | ⟨0, _⟩ => have h : (y 0).val < 1 := (y 0).isLt; show (y 0).val = 0; omega
    | ⟨1, _⟩ => exact hq
    | ⟨2, _⟩ => exact hk)
  subst hy
  unfold out2_6
  rw [View.canon_unit_zero hz3]
  simp only [View.ld_unit_zero (S := S1x512x1) hz3, View.ld_unit_zero (S := S1x1x1024) hz3, View.ld_unit_zero (S := S1x512x1024) hz3]
  exact pay2_h_apply x2 x3 x5 x0 q k

/-- WHAT POINT `t` WRITES BACK to window 6 is block `t` of the updated matrix: entry `(b, r, k)` is
    `e b r k · f b r + a b r · v b k` of the arrays as the launch finds them. -/
theorem flushed2_h (c : Dev nD) (t : Fin cfg2.N) :
    (dat2 (F := Ideal) V c).flushed 6 t = ((cfg2.win 6).blk t).view.read (Elt Ideal)
      (updH (V c (Pipeline.arrRef spec2 0) : S16x1024x1024.Idx → EReal) (V c (Pipeline.arrRef spec2 2) : S16x1024x1.Idx → EReal) (V c (Pipeline.arrRef spec2 3) : S16x1024x1.Idx → EReal) (V c (Pipeline.arrRef spec2 5) : S16x1x1024.Idx → EReal)) := by
  show (cfg2.win 6).cut (grid2.coords t) ((dat2 V c).after 6 t) = _
  rw [after2_6]
  funext j
  have hj0 : (j 0).val < 1 := (j 0).isLt
  have hq : (j 1).val < 512 := (j 1).isLt
  have hk : (j 2).val < 1024 := (j 2).isLt
  obtain ⟨e0, e1, e2⟩ := idx2_6 t
  refine (out2_h_at (iblk2 V c 0 t) (iblk2 V c 1 t) (iblk2 V c 2 t) (iblk2 V c 3 t) (iblk2 V c 4 t) (iblk2 V c 5 t)
    ((cfg2.win 6).xinj (grid2.coords t) j) ⟨(j 1).val, hq⟩ ⟨(j 2).val, hk⟩ rfl rfl).trans ?_
  rw [View.read_apply]
  show _ = updH _ _ _ _ (((cfg2.win 6).blk t).view.emb j)
  rw [updH_apply]
  have c0 : ((((cfg2.win 6).blk t).view.emb j) 0).val = t.val / 2 := by
    show win2_6.index t (0 : Fin 3) * 1 + 1 * (j 0).val = _; omega
  have c1 : ((((cfg2.win 6).blk t).view.emb j) 1).val = t.val % 2 * 512 + (j 1).val := by
    show win2_6.index t (1 : Fin 3) * 512 + 1 * (j 1).val = _; omega
  have c2 : ((((cfg2.win 6).blk t).view.emb j) 2).val = (j 2).val := by
    show win2_6.index t (2 : Fin 3) * 1024 + 1 * (j 2).val = _; omega
  refine congrArg₂ (· + ·) (congrArg₂ (· * ·) ?_ ?_) (congrArg₂ (· * ·) ?_ ?_)
  · exact blk2_0_at V c t _ _ c0 c1 c2
  · exact blk2_2_at V c t _ _ c0 c1 rfl
  · exact blk2_3_at V c t _ _ c0 c1 rfl
  · exact blk2_5_at V c t _ _ c0 c2

/-- An index of the array is in point `t`'s block iff each coordinate is in the block's range on its axis. -/
theorem mem_blk2_h (t : Fin cfg2.N) (i : S16x1024x1024.Idx) :
    i ∈ ((cfg2.win 6).blk t).view.set ↔ ∀ a : Fin 3, win2_6.index t a * S1x512x1024.size a ≤ (i a).val ∧ (i a).val < win2_6.index t a * S1x512x1024.size a + S1x512x1024.size a := by
  show i ∈ ((View.whole main_v16_0).slice (win2_6.rect t)).set ↔ _
  rw [View.set_slice_whole, Rect.mem_set_unit]
  exact Iff.rfl

/-- Every entry is written back: entry `(b, r, k)` lies in the block of point `2 b + r / 512`. -/
theorem cover2_h (i : S16x1024x1024.Idx) : ∃ t : Fin cfg2.N, (cfg2.win 6).flush t = true ∧ i ∈ ((cfg2.win 6).blk t).view.set := by
  have hi0 : (i 0).val < 16 := (i 0).isLt
  have hi1 : (i 1).val < 1024 := (i 1).isLt
  have hi2 : (i 2).val < 1024 := (i 2).isLt
  have hN : cfg2.N = 32 := N_2
  obtain ⟨t, ht⟩ : ∃ t : Fin cfg2.N, t.val = 2 * (i 0).val + (i 1).val / 512 := ⟨⟨_, by omega⟩, rfl⟩
  obtain ⟨e0, e1, e2⟩ := idx2_6 t
  refine ⟨t, flush2_6 t, ?_⟩
  rw [mem_blk2_h]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 512 ≤ (i 1).val ∧ (i 1).val < win2_6.index t (1 : Fin 3) * 512 + 512; omega
  | ⟨2, _⟩ => show win2_6.index t (2 : Fin 3) * 1024 ≤ (i 2).val ∧ (i 2).val < win2_6.index t (2 : Fin 3) * 1024 + 1024; omega

/-- THE ARRAY after the second launch: entry `(b, r, k)` is `e b r k · f b r + a b r · v b k` of the arrays as the launch finds them. -/
theorem arr2_h (c : Dev nD) :
    (dat2 (F := Ideal) V c).arrAt 6 cfg2.N
      = updH (V c (Pipeline.arrRef spec2 0)) (V c (Pipeline.arrRef spec2 2)) (V c (Pipeline.arrRef spec2 3)) (V c (Pipeline.arrRef spec2 5)) :=
  (dat2 V c).arrAt_eq_of_cover 6 _ (fun t _ => flushed2_h V c t) cover2_h

/-! ## Output window 7: the input-weight eligibility matrix -/

/-- What the body leaves in window 7's buffer, at row `q` and entry `k` of the block: `e · f + a · v` of the input blocks there. -/
theorem out2_x_at (x0 : Vec Ideal S1x512x1024 .f32) (x1 : Vec Ideal S1x512x512 .f32) (x2 x3 : Vec Ideal S1x512x1 .f32)
    (x4 : Vec Ideal S1x1x512 .f32) (x5 : Vec Ideal S1x1x1024 .f32) (y : S1x512x512.Idx) (q : Fin 512) (k : Fin 512)
    (hq : (y 1).val = q.val) (hk : (y 2).val = k.val) :
    out2_7 (F := Ideal) x0 x1 x2 x3 x4 x5 y
      = x1 y * x2 (ix3 (0 : Fin 1) q (0 : Fin 1)) + x3 (ix3 (0 : Fin 1) q (0 : Fin 1)) * x4 (ix3 (0 : Fin 1) (0 : Fin 1) k) := by
  have hy : y = ix3 (0 : Fin 1) q k := funext fun a => Fin.ext (by
    match a with
    | ⟨0, _⟩ => have h : (y 0).val < 1 := (y 0).isLt; show (y 0).val = 0; omega
    | ⟨1, _⟩ => exact hq
    | ⟨2, _⟩ => exact hk)
  subst hy
  unfold out2_7
  rw [View.canon_unit_zero hz3]
  simp only [View.ld_unit_zero (S := S1x512x1) hz3, View.ld_unit_zero (S := S1x1x512) hz3, View.ld_unit_zero (S := S1x512x512) hz3]
  exact pay2_x_apply x2 x3 x4 x1 q k

/-- WHAT POINT `t` WRITES BACK to window 7 is block `t` of the updated matrix: entry `(b, r, k)` is
    `e b r k · f b r + a b r · v b k` of the arrays as the launch finds them. -/
theorem flushed2_x (c : Dev nD) (t : Fin cfg2.N) :
    (dat2 (F := Ideal) V c).flushed 7 t = ((cfg2.win 7).blk t).view.read (Elt Ideal)
      (updX (V c (Pipeline.arrRef spec2 1) : S16x1024x512.Idx → EReal) (V c (Pipeline.arrRef spec2 2) : S16x1024x1.Idx → EReal) (V c (Pipeline.arrRef spec2 3) : S16x1024x1.Idx → EReal) (V c (Pipeline.arrRef spec2 4) : S16x1x512.Idx → EReal)) := by
  show (cfg2.win 7).cut (grid2.coords t) ((dat2 V c).after 7 t) = _
  rw [after2_7]
  funext j
  have hj0 : (j 0).val < 1 := (j 0).isLt
  have hq : (j 1).val < 512 := (j 1).isLt
  have hk : (j 2).val < 512 := (j 2).isLt
  obtain ⟨e0, e1, e2⟩ := idx2_7 t
  refine (out2_x_at (iblk2 V c 0 t) (iblk2 V c 1 t) (iblk2 V c 2 t) (iblk2 V c 3 t) (iblk2 V c 4 t) (iblk2 V c 5 t)
    ((cfg2.win 7).xinj (grid2.coords t) j) ⟨(j 1).val, hq⟩ ⟨(j 2).val, hk⟩ rfl rfl).trans ?_
  rw [View.read_apply]
  show _ = updX _ _ _ _ (((cfg2.win 7).blk t).view.emb j)
  rw [updX_apply]
  have c0 : ((((cfg2.win 7).blk t).view.emb j) 0).val = t.val / 2 := by
    show win2_7.index t (0 : Fin 3) * 1 + 1 * (j 0).val = _; omega
  have c1 : ((((cfg2.win 7).blk t).view.emb j) 1).val = t.val % 2 * 512 + (j 1).val := by
    show win2_7.index t (1 : Fin 3) * 512 + 1 * (j 1).val = _; omega
  have c2 : ((((cfg2.win 7).blk t).view.emb j) 2).val = (j 2).val := by
    show win2_7.index t (2 : Fin 3) * 512 + 1 * (j 2).val = _; omega
  refine congrArg₂ (· + ·) (congrArg₂ (· * ·) ?_ ?_) (congrArg₂ (· * ·) ?_ ?_)
  · exact blk2_1_at V c t _ _ c0 c1 c2
  · exact blk2_2_at V c t _ _ c0 c1 rfl
  · exact blk2_3_at V c t _ _ c0 c1 rfl
  · exact blk2_4_at V c t _ _ c0 c2

/-- An index of the array is in point `t`'s block iff each coordinate is in the block's range on its axis. -/
theorem mem_blk2_x (t : Fin cfg2.N) (i : S16x1024x512.Idx) :
    i ∈ ((cfg2.win 7).blk t).view.set ↔ ∀ a : Fin 3, win2_7.index t a * S1x512x512.size a ≤ (i a).val ∧ (i a).val < win2_7.index t a * S1x512x512.size a + S1x512x512.size a := by
  show i ∈ ((View.whole main_v16_1).slice (win2_7.rect t)).set ↔ _
  rw [View.set_slice_whole, Rect.mem_set_unit]
  exact Iff.rfl

/-- Every entry is written back: entry `(b, r, k)` lies in the block of point `2 b + r / 512`. -/
theorem cover2_x (i : S16x1024x512.Idx) : ∃ t : Fin cfg2.N, (cfg2.win 7).flush t = true ∧ i ∈ ((cfg2.win 7).blk t).view.set := by
  have hi0 : (i 0).val < 16 := (i 0).isLt
  have hi1 : (i 1).val < 1024 := (i 1).isLt
  have hi2 : (i 2).val < 512 := (i 2).isLt
  have hN : cfg2.N = 32 := N_2
  obtain ⟨t, ht⟩ : ∃ t : Fin cfg2.N, t.val = 2 * (i 0).val + (i 1).val / 512 := ⟨⟨_, by omega⟩, rfl⟩
  obtain ⟨e0, e1, e2⟩ := idx2_7 t
  refine ⟨t, flush2_7 t, ?_⟩
  rw [mem_blk2_x]
  intro a
  match a with
  | ⟨0, _⟩ => show win2_7.index t (0 : Fin 3) * 1 ≤ (i 0).val ∧ (i 0).val < win2_7.index t (0 : Fin 3) * 1 + 1; omega
  | ⟨1, _⟩ => show win2_7.index t (1 : Fin 3) * 512 ≤ (i 1).val ∧ (i 1).val < win2_7.index t (1 : Fin 3) * 512 + 512; omega
  | ⟨2, _⟩ => show win2_7.index t (2 : Fin 3) * 512 ≤ (i 2).val ∧ (i 2).val < win2_7.index t (2 : Fin 3) * 512 + 512; omega

/-- THE ARRAY after the second launch: entry `(b, r, k)` is `e b r k · f b r + a b r · v b k` of the arrays as the launch finds them. -/
theorem arr2_x (c : Dev nD) :
    (dat2 (F := Ideal) V c).arrAt 7 cfg2.N
      = updX (V c (Pipeline.arrRef spec2 1)) (V c (Pipeline.arrRef spec2 2)) (V c (Pipeline.arrRef spec2 3)) (V c (Pipeline.arrRef spec2 4)) :=
  (dat2 V c).arrAt_eq_of_cover 7 _ (fun t _ => flushed2_x V c t) cover2_x

end Cert.KernelIdeal.TraceValue

end
-- ==== Proof.Trace3.lean ====
/-
  The third launch of the trace kernel, read as whole arrays on the extended reals.

  The launch walks a grid of 16 × 2 points. Point `t` works on batch row `t / 2` and on the upper (`t % 2 = 0`) or lower
  half of the 1024 rows of that batch row's two eligibility matrices: it holds rows `512 · (t % 2) … 512 · (t % 2) + 511` of
  each matrix, the same rows of the forget gate `f` and of the factor `a`, and the batch row's previous hidden row and
  input row, and writes back `e · f + a · v` for those rows. The 32 blocks tile each matrix, so after the launch entry
  `(b, r, k)` of each output is `e b r k · f b r + a b r · v b k` of the arrays as the launch found them.
-/
import proofs.«152007_j29575144800638_2_alg».proof.Proof.FrameKernelIdeal
import proofs.«152007_j29575144800638_2_alg».proof.Proof.TraceLib
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.TraceValue

open Cert.KernelIdeal Cert.KernelIdeal.Gen Cert.KernelIdeal.GenP

/-! ## Which block each window holds at a point -/

/-- Window 0's block at point `t` is block `(t / 2, t % 2, 0)`: batch row `t / 2`, upper or lower half of the 1024 rows. -/
theorem idx3_0 : ∀ t : Fin cfg3.N, win3_0.index t (0 : Fin 3) = t.val / 2 ∧ win3_0.index t (1 : Fin 3) = t.val % 2 ∧ win3_0.index t (2 : Fin 3) = 0 :=
  (by decide +kernel : ∀ t : Fin grid3.N, _)
/-- Window 1's block at point `t` is block `(t / 2, t % 2, 0)`: batch row `t / 2`, upper or lower half of the 1024 rows. -/
theorem idx3_1 : ∀ t : Fin cfg3.N, win3_1.index t (0 : Fin 3) = t.val / 2 ∧ win3_1.index t (1 : Fin 3) = t.val % 2 ∧ win3_1.index t (2 : Fin 3) = 0 :=
  (by decide +kernel : ∀ t : Fin grid3.N, _)
/-- Window 2's block at point `t` is block `(t / 2, t % 2, 0)`: batch row `t / 2`, upper or lower half of the 1024 rows. -/
theorem idx3_2 : ∀ t : Fin cfg3.N, win3_2.index t (0 : Fin 3) = t.val / 2 ∧ win3_2.index t (1 : Fin 3) = t.val % 2 ∧ win3_2.index t (2 : Fin 3) = 0 :=
  (by decide +kernel : ∀ t : Fin grid3.N, _)
/-- Window 3's block at point `t` is block `(t / 2, t % 2, 0)`: batch row `t / 2`, upper or lower half of the 1024 rows. -/
theorem idx3_3 : ∀ t : Fin cfg3.N, win3_3.index t (0 : Fin 3) = t.val / 2 ∧ win3_3.index t (1 : Fin 3) = t.val % 2 ∧ win3_3.index t (2 : Fin 3) = 0 :=
  (by decide +kernel : ∀ t : Fin grid3.N, _)
/-- Window 4's block at point `t` is block `(t / 2, 0, 0)`: batch row `t / 2`'s one row, at both halves. -/
theorem idx3_4 : ∀ t : Fin cfg3.N, win3_4.index t (0 : Fin 3) = t.val / 2 ∧ win3_4.index t (1 : Fin 3) = 0 ∧ win3_4.index t (2 : Fin 3) = 0 :=
  (by decide +kernel : ∀ t : Fin grid3.N, _)
/-- Window 5's block at point `t` is block `(t / 2, 0, 0)`: batch row `t / 2`'s one row, at both halves. -/
theorem idx3_5 : ∀ t : Fin cfg3.N, win3_5.index t (0 : Fin 3) = t.val / 2 ∧ win3_5.index t (1 : Fin 3) = 0 ∧ win3_5.index t (2 : Fin 3) = 0 :=
  (by decide +kernel : ∀ t : Fin grid3.N, _)
/-- Window 6's block at point `t` is block `(t / 2, t % 2, 0)`: batch row `t / 2`, upper or lower half of the 1024 rows. -/
theorem idx3_6 : ∀ t : Fin cfg3.N, win3_6.index t (0 : Fin 3) = t.val / 2 ∧ win3_6.index t (1 : Fin 3) = t.val % 2 ∧ win3_6.index t (2 : Fin 3) = 0 :=
  (by decide +kernel : ∀ t : Fin grid3.N, _)
/-- Window 7's block at point `t` is block `(t / 2, t % 2, 0)`: batch row `t / 2`, upper or lower half of the 1024 rows. -/
theorem idx3_7 : ∀ t : Fin cfg3.N, win3_7.index t (0 : Fin 3) = t.val / 2 ∧ win3_7.index t (1 : Fin 3) = t.val % 2 ∧ win3_7.index t (2 : Fin 3) = 0 :=
  (by decide +kernel : ∀ t : Fin grid3.N, _)

/-! ## The input blocks as entries of their arrays -/

variable (V : (c : Dev nD) → (b : Ref sig .tc) → Buf (Elt Ideal) ((c : Thread nD τ).loc b))

/-- Window 0's block at point `t`, read at row `y 1` and entry `y 2`, is the recurrent-weight eligibility matrix at batch row `t / 2`, row `512 · (t % 2) + y 1`, entry `y 2`. -/
theorem blk3_0_at (c : Dev nD) (t : Fin cfg3.N) (y : S1x512x1024.Idx) (i : S16x1024x1024.Idx)
    (h0 : (i 0).val = t.val / 2) (h1 : (i 1).val = t.val % 2 * 512 + (y 1).val) (h2 : (i 2).val = (y 2).val) :
    (iblk3 (F := Ideal) V c 0 t : Vec Ideal S1x512x1024 .f32) y = (V c (Pipeline.arrRef spec3 0) : S16x1024x1024.Idx → EReal) i := by
  obtain ⟨e0, e1, e2⟩ := idx3_0 t
  have hy0 : (y 0).val < 1 := (y 0).isLt
  unfold iblk3
  rw [View.read_apply]
  show (V c (Pipeline.arrRef spec3 0) : S16x1024x1024.Idx → EReal) _ = _
  refine congrArg (V c (Pipeline.arrRef spec3 0) : S16x1024x1024.Idx → EReal) (funext fun a => Fin.ext ?_)
  match a with
  | ⟨0, _⟩ => show win3_0.index t (0 : Fin 3) * 1 + 1 * (y 0).val = (i 0).val; omega
  | ⟨1, _⟩ => show win3_0.index t (1 : Fin 3) * 512 + 1 * (y 1).val = (i 1).val; omega
  | ⟨2, _⟩ => show win3_0.index t (2 : Fin 3) * 1024 + 1 * (y 2).val = (i 2).val; omega

/-- Window 1's block at point `t`, read at row `y 1` and entry `y 2`, is the input-weight eligibility matrix at batch row `t / 2`, row `512 · (t % 2) + y 1`, entry `y 2`. -/
theorem blk3_1_at (c : Dev nD) (t : Fin cfg3.N) (y : S1x512x512.Idx) (i : S16x1024x512.Idx)
    (h0 : (i 0).val = t.val / 2) (h1 : (i 1).val = t.val % 2 * 512 + (y 1).val) (h2 : (i 2).val = (y 2).val) :
    (iblk3 (F := Ideal) V c 1 t : Vec Ideal S1x512x512 .f32) y = (V c (Pipeline.arrRef spec3 1) : S16x1024x512.Idx → EReal) i := by
  obtain ⟨e0, e1, e2⟩ := idx3_1 t
  have hy0 : (y 0).val < 1 := (y 0).isLt
  unfold iblk3
  rw [View.read_apply]
  show (V c (Pipeline.arrRef spec3 1) : S16x1024x512.Idx → EReal) _ = _
  refine congrArg (V c (Pipeline.arrRef spec3 1) : S16x1024x512.Idx → EReal) (funext fun a => Fin.ext ?_)
  match a with
  | ⟨0, _⟩ => show win3_1.index t (0 : Fin 3) * 1 + 1 * (y 0).val = (i 0).val; omega
  | ⟨1, _⟩ => show win3_1.index t (1 : Fin 3) * 512 + 1 * (y 1).val = (i 1).val; omega
  | ⟨2, _⟩ => show win3_1.index t (2 : Fin 3) * 512 + 1 * (y 2).val = (i 2).val; omega

/-- Window 2's block at point `t`, read at row `y 1` and entry `y 2`, is the forget gate's column at batch row `t / 2`, row `512 · (t % 2) + y 1`, entry `y 2`. -/
theorem blk3_2_at (c : Dev nD) (t : Fin cfg3.N) (y : S1x512x1.Idx) (i : S16x1024x1.Idx)
    (h0 : (i 0).val = t.val / 2) (h1 : (i 1).val = t.val % 2 * 512 + (y 1).val) (h2 : (i 2).val = (y 2).val) :
    (iblk3 (F := Ideal) V c 2 t : Vec Ideal S1x512x1 .f32) y = (V c (Pipeline.arrRef spec3 2) : S16x1024x1.Idx → EReal) i := by
  obtain ⟨e0, e1, e2⟩ := idx3_2 t
  have hy0 : (y 0).val < 1 := (y 0).isLt
  unfold iblk3
  rw [View.read_apply]
  show (V c (Pipeline.arrRef spec3 2) : S16x1024x1.Idx → EReal) _ = _
  refine congrArg (V c (Pipeline.arrRef spec3 2) : S16x1024x1.Idx → EReal) (funext fun a => Fin.ext ?_)
  match a with
  | ⟨0, _⟩ => show win3_2.index t (0 : Fin 3) * 1 + 1 * (y 0).val = (i 0).val; omega
  | ⟨1, _⟩ => show win3_2.index t (1 : Fin 3) * 512 + 1 * (y 1).val = (i 1).val; omega
  | ⟨2, _⟩ => show win3_2.index t (2 : Fin 3) * 1 + 1 * (y 2).val = (i 2).val; omega

/-- Window 3's block at point `t`, read at row `y 1` and entry `y 2`, is the factor's column at batch row `t / 2`, row `512 · (t % 2) + y 1`, entry `y 2`. -/
theorem blk3_3_at (c : Dev nD) (t : Fin cfg3.N) (y : S1x512x1.Idx) (i : S16x1024x1.Idx)
    (h0 : (i 0).val = t.val / 2) (h1 : (i 1).val = t.val % 2 * 512 + (y 1).val) (h2 : (i 2).val = (y 2).val) :
    (iblk3 (F := Ideal) V c 3 t : Vec Ideal S1x512x1 .f32) y = (V c (Pipeline.arrRef spec3 3) : S16x1024x1.Idx → EReal) i := by
  obtain ⟨e0, e1, e2⟩ := idx3_3 t
  have hy0 : (y 0).val < 1 := (y 0).isLt
  unfold iblk3
  rw [View.read_apply]
  show (V c (Pipeline.arrRef spec3 3) : S16x1024x1.Idx → EReal) _ = _
  refine congrArg (V c (Pipeline.arrRef spec3 3) : S16x1024x1.Idx → EReal) (funext fun a => Fin.ext ?_)
  match a with
  | ⟨0, _⟩ => show win3_3.index t (0 : Fin 3) * 1 + 1 * (y 0).val = (i 0).val; omega
  | ⟨1, _⟩ => show win3_3.index t (1 : Fin 3) * 512 + 1 * (y 1).val = (i 1).val; omega
  | ⟨2, _⟩ => show win3_3.index t (2 : Fin 3) * 1 + 1 * (y 2).val = (i 2).val; omega

/-- Window 4's block at point `t`, read at entry `y 2`, is the input row at batch row `t / 2`, entry `y 2`. -/
theorem blk3_4_at (c : Dev nD) (t : Fin cfg3.N) (y : S1x1x512.Idx) (i : S16x1x512.Idx)
    (h0 : (i 0).val = t.val / 2) (h2 : (i 2).val = (y 2).val) :
    (iblk3 (F := Ideal) V c 4 t : Vec Ideal S1x1x512 .f32) y = (V c (Pipeline.arrRef spec3 4) : S16x1x512.Idx → EReal) i := by
  obtain ⟨e0, e1, e2⟩ := idx3_4 t
  have hy0 : (y 0).val < 1 := (y 0).isLt
  have hy1 : (y 1).val < 1 := (y 1).isLt
  have hi1 : (i 1).val < 1 := (i 1).isLt
  unfold iblk3
  rw [View.read_apply]
  show (V c (Pipeline.arrRef spec3 4) : S16x1x512.Idx → EReal) _ = _
  refine congrArg (V c (Pipeline.arrRef spec3 4) : S16x1x512.Idx → EReal) (funext fun a => Fin.ext ?_)
  match a with
  | ⟨0, _⟩ => show win3_4.index t (0 : Fin 3) * 1 + 1 * (y 0).val = (i 0).val; omega
  | ⟨1, _⟩ => show win3_4.index t (1 : Fin 3) * 1 + 1 * (y 1).val = (i 1).val; omega
  | ⟨2, _⟩ => show win3_4.index t (2 : Fin 3) * 512 + 1 * (y 2).val = (i 2).val; omega

/-- Window 5's block at point `t`, read at entry `y 2`, is the previous hidden row at batch row `t / 2`, entry `y 2`. -/
theorem blk3_5_at (c : Dev nD) (t : Fin cfg3.N) (y : S1x1x1024.Idx) (i : S16x1x1024.Idx)
    (h0 : (i 0).val = t.val / 2) (h2 : (i 2).val = (y 2).val) :
    (iblk3 (F := Ideal) V c 5 t : Vec Ideal S1x1x1024 .f32) y = (V c (Pipeline.arrRef spec3 5) : S16x1x1024.Idx → EReal) i := by
  obtain ⟨e0, e1, e2⟩ := idx3_5 t
  have hy0 : (y 0).val < 1 := (y 0).isLt
  have hy1 : (y 1).val < 1 := (y 1).isLt
  have hi1 : (i 1).val < 1 := (i 1).isLt
  unfold iblk3
  rw [View.read_apply]
  show (V c (Pipeline.arrRef spec3 5) : S16x1x1024.Idx → EReal) _ = _
  refine congrArg (V c (Pipeline.arrRef spec3 5) : S16x1x1024.Idx → EReal) (funext fun a => Fin.ext ?_)
  match a with
  | ⟨0, _⟩ => show win3_5.index t (0 : Fin 3) * 1 + 1 * (y 0).val = (i 0).val; omega
  | ⟨1, _⟩ => show win3_5.index t (1 : Fin 3) * 1 + 1 * (y 1).val = (i 1).val; omega
  | ⟨2, _⟩ => show win3_5.index t (2 : Fin 3) * 1024 + 1 * (y 2).val = (i 2).val; omega

/-! ## Output window 6: the recurrent-weight eligibility matrix -/

/-- What the body leaves in window 6's buffer, at row `q` and entry `k` of the block: `e · f + a · v` of the input blocks there. -/
theorem out3_h_at (x0 : Vec Ideal S1x512x1024 .f32) (x1 : Vec Ideal S1x512x512 .f32) (x2 x3 : Vec Ideal S1x512x1 .f32)
    (x4 : Vec Ideal S1x1x512 .f32) (x5 : Vec Ideal S1x1x1024 .f32) (y : S1x512x1024.Idx) (q : Fin 512) (k : Fin 1024)
    (hq : (y 1).val = q.val) (hk : (y 2).val = k.val) :
    out3_6 (F := Ideal) x0 x1 x2 x3 x4 x5 y
      = x0 y * x2 (ix3 (0 : Fin 1) q (0 : Fin 1)) + x3 (ix3 (0 : Fin 1) q (0 : Fin 1)) * x5 (ix3 (0 : Fin 1) (0 : Fin 1) k) := by
  have hy : y = ix3 (0 : Fin 1) q k := funext fun a => Fin.ext (by
    match a with
    | ⟨0, _⟩ => have h : (y 0).val < 1 := (y 0).isLt; show (y 0).val = 0; omega
    | ⟨1, _⟩ => exact hq
    | ⟨2, _⟩ => exact hk)
  subst hy
  unfold out3_6
  rw [View.canon_unit_zero hz3]
  simp only [View.ld_unit_zero (S := S1x512x1) hz3, View.ld_unit_zero (S := S1x1x1024) hz3, View.ld_unit_zero (S := S1x512x1024) hz3]
  exact pay3_h_apply x2 x3 x5 x0 q k

/-- WHAT POINT `t` WRITES BACK to window 6 is block `t` of the updated matrix: entry `(b, r, k)` is
    `e b r k · f b r + a b r · v b k` of the arrays as the launch finds them. -/
theorem flushed3_h (c : Dev nD) (t : Fin cfg3.N) :
    (dat3 (F := Ideal) V c).flushed 6 t = ((cfg3.win 6).blk t).view.read (Elt Ideal)
      (updH (V c (Pipeline.arrRef spec3 0) : S16x1024x1024.Idx → EReal) (V c (Pipeline.arrRef spec3 2) : S16x1024x1.Idx → EReal) (V c (Pipeline.arrRef spec3 3) : S16x1024x1.Idx → EReal) (V c (Pipeline.arrRef spec3 5) : S16x1x1024.Idx → EReal)) := by
  show (cfg3.win 6).cut (grid3.coords t) ((dat3 V c).after 6 t) = _
  rw [after3_6]
  funext j
  have hj0 : (j 0).val < 1 := (j 0).isLt
  have hq : (j 1).val < 512 := (j 1).isLt
  have hk : (j 2).val < 1024 := (j 2).isLt
  obtain ⟨e0, e1, e2⟩ := idx3_6 t
  refine (out3_h_at (iblk3 V c 0 t) (iblk3 V c 1 t) (iblk3 V c 2 t) (iblk3 V c 3 t) (iblk3 V c 4 t) (iblk3 V c 5 t)
    ((cfg3.win 6).xinj (grid3.coords t) j) ⟨(j 1).val, hq⟩ ⟨(j 2).val, hk⟩ rfl rfl).trans ?_
  rw [View.read_apply]
  show _ = updH _ _ _ _ (((cfg3.win 6).blk t).view.emb j)
  rw [updH_apply]
  have c0 : ((((cfg3.win 6).blk t).view.emb j) 0).val = t.val / 2 := by
    show win3_6.index t (0 : Fin 3) * 1 + 1 * (j 0).val = _; omega
  have c1 : ((((cfg3.win 6).blk t).view.emb j) 1).val = t.val % 2 * 512 + (j 1).val := by
    show win3_6.index t (1 : Fin 3) * 512 + 1 * (j 1).val = _; omega
  have c2 : ((((cfg3.win 6).blk t).view.emb j) 2).val = (j 2).val := by
    show win3_6.index t (2 : Fin 3) * 1024 + 1 * (j 2).val = _; omega
  refine congrArg₂ (· + ·) (congrArg₂ (· * ·) ?_ ?_) (congrArg₂ (· * ·) ?_ ?_)
  · exact blk3_0_at V c t _ _ c0 c1 c2
  · exact blk3_2_at V c t _ _ c0 c1 rfl
  · exact blk3_3_at V c t _ _ c0 c1 rfl
  · exact blk3_5_at V c t _ _ c0 c2

/-- An index of the array is in point `t`'s block iff each coordinate is in the block's range on its axis. -/
theorem mem_blk3_h (t : Fin cfg3.N) (i : S16x1024x1024.Idx) :
    i ∈ ((cfg3.win 6).blk t).view.set ↔ ∀ a : Fin 3, win3_6.index t a * S1x512x1024.size a ≤ (i a).val ∧ (i a).val < win3_6.index t a * S1x512x1024.size a + S1x512x1024.size a := by
  show i ∈ ((View.whole main_v17_0).slice (win3_6.rect t)).set ↔ _
  rw [View.set_slice_whole, Rect.mem_set_unit]
  exact Iff.rfl

/-- Every entry is written back: entry `(b, r, k)` lies in the block of point `2 b + r / 512`. -/
theorem cover3_h (i : S16x1024x1024.Idx) : ∃ t : Fin cfg3.N, (cfg3.win 6).flush t = true ∧ i ∈ ((cfg3.win 6).blk t).view.set := by
  have hi0 : (i 0).val < 16 := (i 0).isLt
  have hi1 : (i 1).val < 1024 := (i 1).isLt
  have hi2 : (i 2).val < 1024 := (i 2).isLt
  have hN : cfg3.N = 32 := N_3
  obtain ⟨t, ht⟩ : ∃ t : Fin cfg3.N, t.val = 2 * (i 0).val + (i 1).val / 512 := ⟨⟨_, by omega⟩, rfl⟩
  obtain ⟨e0, e1, e2⟩ := idx3_6 t
  refine ⟨t, flush3_6 t, ?_⟩
  rw [mem_blk3_h]
  intro a
  match a with
  | ⟨0, _⟩ => show win3_6.index t (0 : Fin 3) * 1 ≤ (i 0).val ∧ (i 0).val < win3_6.index t (0 : Fin 3) * 1 + 1; omega
  | ⟨1, _⟩ => show win3_6.index t (1 : Fin 3) * 512 ≤ (i 1).val ∧ (i 1).val < win3_6.index t (1 : Fin 3) * 512 + 512; omega
  | ⟨2, _⟩ => show win3_6.index t (2 : Fin 3) * 1024 ≤ (i 2).val ∧ (i 2).val < win3_6.index t (2 : Fin 3) * 1024 + 1024; omega

/-- THE ARRAY after the third launch: entry `(b, r, k)` is `e b r k · f b r + a b r · v b k` of the arrays as the launch finds them. -/
theorem arr3_h (c : Dev nD) :
    (dat3 (F := Ideal) V c).arrAt 6 cfg3.N
      = updH (V c (Pipeline.arrRef spec3 0)) (V c (Pipeline.arrRef spec3 2)) (V c (Pipeline.arrRef spec3 3)) (V c (Pipeline.arrRef spec3 5)) :=
  (dat3 V c).arrAt_eq_of_cover 6 _ (fun t _ => flushed3_h V c t) cover3_h

/-! ## Output window 7: the input-weight eligibility matrix -/

/-- What the body leaves in window 7's buffer, at row `q` and entry `k` of the block: `e · f + a · v` of the input blocks there. -/
theorem out3_x_at (x0 : Vec Ideal S1x512x1024 .f32) (x1 : Vec Ideal S1x512x512 .f32) (x2 x3 : Vec Ideal S1x512x1 .f32)
    (x4 : Vec Ideal S1x1x512 .f32) (x5 : Vec Ideal S1x1x1024 .f32) (y : S1x512x512.Idx) (q : Fin 512) (k : Fin 512)
    (hq : (y 1).val = q.val) (hk : (y 2).val = k.val) :
    out3_7 (F := Ideal) x0 x1 x2 x3 x4 x5 y
      = x1 y * x2 (ix3 (0 : Fin 1) q (0 : Fin 1)) + x3 (ix3 (0 : Fin 1) q (0 : Fin 1)) * x4 (ix3 (0 : Fin 1) (0 : Fin 1) k) := by
  have hy : y = ix3 (0 : Fin 1) q k := funext fun a => Fin.ext (by
    match a with
    | ⟨0, _⟩ => have h : (y 0).val < 1 := (y 0).isLt; show (y 0).val = 0; omega
    | ⟨1, _⟩ => exact hq
    | ⟨2, _⟩ => exact hk)
  subst hy
  unfold out3_7
  rw [View.canon_unit_zero hz3]
  simp only [View.ld_unit_zero (S := S1x512x1) hz3, View.ld_unit_zero (S := S1x1x512) hz3, View.ld_unit_zero (S := S1x512x512) hz3]
  exact pay3_x_apply x2 x3 x4 x1 q k

/-- WHAT POINT `t` WRITES BACK to window 7 is block `t` of the updated matrix: entry `(b, r, k)` is
    `e b r k · f b r + a b r · v b k` of the arrays as the launch finds them. -/
theorem flushed3_x (c : Dev nD) (t : Fin cfg3.N) :
    (dat3 (F := Ideal) V c).flushed 7 t = ((cfg3.win 7).blk t).view.read (Elt Ideal)
      (updX (V c (Pipeline.arrRef spec3 1) : S16x1024x512.Idx → EReal) (V c (Pipeline.arrRef spec3 2) : S16x1024x1.Idx → EReal) (V c (Pipeline.arrRef spec3 3) : S16x1024x1.Idx → EReal) (V c (Pipeline.arrRef spec3 4) : S16x1x512.Idx → EReal)) := by
  show (cfg3.win 7).cut (grid3.coords t) ((dat3 V c).after 7 t) = _
  rw [after3_7]
  funext j
  have hj0 : (j 0).val < 1 := (j 0).isLt
  have hq : (j 1).val < 512 := (j 1).isLt
  have hk : (j 2).val < 512 := (j 2).isLt
  obtain ⟨e0, e1, e2⟩ := idx3_7 t
  refine (out3_x_at (iblk3 V c 0 t) (iblk3 V c 1 t) (iblk3 V c 2 t) (iblk3 V c 3 t) (iblk3 V c 4 t) (iblk3 V c 5 t)
    ((cfg3.win 7).xinj (grid3.coords t) j) ⟨(j 1).val, hq⟩ ⟨(j 2).val, hk⟩ rfl rfl).trans ?_
  rw [View.read_apply]
  show _ = updX _ _ _ _ (((cfg3.win 7).blk t).view.emb j)
  rw [updX_apply]
  have c0 : ((((cfg3.win 7).blk t).view.emb j) 0).val = t.val / 2 := by
    show win3_7.index t (0 : Fin 3) * 1 + 1 * (j 0).val = _; omega
  have c1 : ((((cfg3.win 7).blk t).view.emb j) 1).val = t.val % 2 * 512 + (j 1).val := by
    show win3_7.index t (1 : Fin 3) * 512 + 1 * (j 1).val = _; omega
  have c2 : ((((cfg3.win 7).blk t).view.emb j) 2).val = (j 2).val := by
    show win3_7.index t (2 : Fin 3) * 512 + 1 * (j 2).val = _; omega
  refine congrArg₂ (· + ·) (congrArg₂ (· * ·) ?_ ?_) (congrArg₂ (· * ·) ?_ ?_)
  · exact blk3_1_at V c t _ _ c0 c1 c2
  · exact blk3_2_at V c t _ _ c0 c1 rfl
  · exact blk3_3_at V c t _ _ c0 c1 rfl
  · exact blk3_4_at V c t _ _ c0 c2

/-- An index of the array is in point `t`'s block iff each coordinate is in the block's range on its axis. -/
theorem mem_blk3_x (t : Fin cfg3.N) (i : S16x1024x512.Idx) :
    i ∈ ((cfg3.win 7).blk t).view.set ↔ ∀ a : Fin 3, win3_7.index t a * S1x512x512.size a ≤ (i a).val ∧ (i a).val < win3_7.index t a * S1x512x512.size a + S1x512x512.size a := by
  show i ∈ ((View.whole main_v17_1).slice (win3_7.rect t)).set ↔ _
  rw [View.set_slice_whole, Rect.mem_set_unit]
  exact Iff.rfl

/-- Every entry is written back: entry `(b, r, k)` lies in the block of point `2 b + r / 512`. -/
theorem cover3_x (i : S16x1024x512.Idx) : ∃ t : Fin cfg3.N, (cfg3.win 7).flush t = true ∧ i ∈ ((cfg3.win 7).blk t).view.set := by
  have hi0 : (i 0).val < 16 := (i 0).isLt
  have hi1 : (i 1).val < 1024 := (i 1).isLt
  have hi2 : (i 2).val < 512 := (i 2).isLt
  have hN : cfg3.N = 32 := N_3
  obtain ⟨t, ht⟩ : ∃ t : Fin cfg3.N, t.val = 2 * (i 0).val + (i 1).val / 512 := ⟨⟨_, by omega⟩, rfl⟩
  obtain ⟨e0, e1, e2⟩ := idx3_7 t
  refine ⟨t, flush3_7 t, ?_⟩
  rw [mem_blk3_x]
  intro a
  match a with
  | ⟨0, _⟩ => show win3_7.index t (0 : Fin 3) * 1 ≤ (i 0).val ∧ (i 0).val < win3_7.index t (0 : Fin 3) * 1 + 1; omega
  | ⟨1, _⟩ => show win3_7.index t (1 : Fin 3) * 512 ≤ (i 1).val ∧ (i 1).val < win3_7.index t (1 : Fin 3) * 512 + 512; omega
  | ⟨2, _⟩ => show win3_7.index t (2 : Fin 3) * 512 ≤ (i 2).val ∧ (i 2).val < win3_7.index t (2 : Fin 3) * 512 + 512; omega

/-- THE ARRAY after the third launch: entry `(b, r, k)` is `e b r k · f b r + a b r · v b k` of the arrays as the launch finds them. -/
theorem arr3_x (c : Dev nD) :
    (dat3 (F := Ideal) V c).arrAt 7 cfg3.N
      = updX (V c (Pipeline.arrRef spec3 1)) (V c (Pipeline.arrRef spec3 2)) (V c (Pipeline.arrRef spec3 3)) (V c (Pipeline.arrRef spec3 4)) :=
  (dat3 V c).arrAt_eq_of_cover 7 _ (fun t _ => flushed3_x V c t) cover3_x

end Cert.KernelIdeal.TraceValue

end
-- ==== Proof.LibUnitAxis.lean ====
/-
  Two reshapes that insert a unit axis, read at an index.

  A row-major array keeps its linear order under a reshape, so inserting an axis of extent one after the last axis, or
  between the two axes, of a two-axis array changes no entry: the entry at `(i, j, 0)`, respectively `(i, 0, j)`, is the
  entry at `(i, j)`.
-/
import Idealize.ShloMosaic.Lib.Pipeline.Value
import Idealize.ShloMosaic.Lib.ValueIdx
import Idealize.ShloMosaic.Lib.ValueLayout

namespace Cert.UnitAxis

open Idealize.ShloMosaic Idealize.ShloMosaic.ValueIdx

variable {α : Type}

/-- `[a, b] → [a, b, 1]`: the entry at `(i, j, u)` is the entry at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b] → [a, 1, b]`: the entry at `(i, u, j)` is the entry at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.UnitAxis
-- ==== Proof.TraceSpec.lean ====
/-
  The trace update, with its three small operands read as reshapes, is the specification's eligibility matrix.

  A trace launch computes `e · f + a · v` entry by entry from the old matrix `e`, the forget gate and the factor `a`
  given as columns `[16, 1024, 1]` and a row array `[16, 1, K]`. The host makes the columns and the rows by inserting a
  unit axis, which changes no entry, so with `f` the logistic of the forget pre-activation the result is `ewArr`.
-/
import proofs.«152007_j29575144800638_2_alg».proof.Proof.TraceLib
import proofs.«152007_j29575144800638_2_alg».proof.Proof.Cell
import proofs.«152007_j29575144800638_2_alg».proof.Proof.LibUnitAxis

noncomputable section

namespace Cert.KernelIdeal.TraceSpec

open Idealize.ShloMosaic Idealize.ShloMosaic.ValueIdx
open Cert.KernelIdeal Cert.KernelIdeal.Gen Cert.KernelIdeal.TraceValue

/-- The recurrent-weight matrices: the row array is the previous hidden state. -/
theorem updH_spec (e : S16x1024x1024.Idx → EReal) (f zf a : Fin 16 → Fin 1024 → EReal)
    (hf : ∀ p q, f p q = Cell.sig (zf p q)) (v : S16x1024.Idx → EReal) :
    updH e (shapeCast S16x1024x1 (Cell.at2 f) shapeCasts_S16x1024_S16x1024x1)
        (shapeCast S16x1024x1 (Cell.at2 a) shapeCasts_S16x1024_S16x1024x1)
        (shapeCast S16x1x1024 v shapeCasts_S16x1024_S16x1x1024)
      = Cell.ewArr e zf a (Cell.c2 v) := by
  funext i
  obtain ⟨b, j, k, rfl⟩ : ∃ (b : Fin 16) (j : Fin 1024) (k : Fin 1024), i = ix3 b j k := ⟨i 0, i 1, i 2, eq_ix3 i⟩
  show ((fun x : S16x1024x1024.Idx → EReal => x) e) (ix3 b j k)
        * shapeCast S16x1024x1 (Cell.at2 f) shapeCasts_S16x1024_S16x1024x1 (ix3 b j (0 : Fin 1))
      + shapeCast S16x1024x1 (Cell.at2 a) shapeCasts_S16x1024_S16x1024x1 (ix3 b j (0 : Fin 1))
        * shapeCast S16x1x1024 v shapeCasts_S16x1024_S16x1x1024 (ix3 b (0 : Fin 1) k)
      = Cell.ewNew (e (ix3 b j k)) (zf b j) (a b j) (v (ix2 b k))
  rw [Cert.UnitAxis.shapeCast_ab_ab1_apply, Cert.UnitAxis.shapeCast_ab_ab1_apply, Cert.UnitAxis.shapeCast_ab_a1b_apply]
  show e (ix3 b j k) * f b j + a b j * v (ix2 b k) = e (ix3 b j k) * Cell.sig (zf b j) + a b j * v (ix2 b k)
  rw [hf]

/-- The input-weight matrices: the row array is the input. -/
theorem updX_spec (e : S16x1024x512.Idx → EReal) (f zf a : Fin 16 → Fin 1024 → EReal)
    (hf : ∀ p q, f p q = Cell.sig (zf p q)) (v : S16x512.Idx → EReal) :
    updX e (shapeCast S16x1024x1 (Cell.at2 f) shapeCasts_S16x1024_S16x1024x1)
        (shapeCast S16x1024x1 (Cell.at2 a) shapeCasts_S16x1024_S16x1024x1)
        (shapeCast S16x1x512 v shapeCasts_S16x512_S16x1x512)
      = Cell.ewArr e zf a (Cell.c2 v) := by
  funext i
  obtain ⟨b, j, k, rfl⟩ : ∃ (b : Fin 16) (j : Fin 1024) (k : Fin 512), i = ix3 b j k := ⟨i 0, i 1, i 2, eq_ix3 i⟩
  show ((fun x : S16x1024x512.Idx → EReal => x) e) (ix3 b j k)
        * shapeCast S16x1024x1 (Cell.at2 f) shapeCasts_S16x1024_S16x1024x1 (ix3 b j (0 : Fin 1))
      + shapeCast S16x1024x1 (Cell.at2 a) shapeCasts_S16x1024_S16x1024x1 (ix3 b j (0 : Fin 1))
        * shapeCast S16x1x512 v shapeCasts_S16x512_S16x1x512 (ix3 b (0 : Fin 1) k)
      = Cell.ewNew (e (ix3 b j k)) (zf b j) (a b j) (v (ix2 b k))
  rw [Cert.UnitAxis.shapeCast_ab_ab1_apply, Cert.UnitAxis.shapeCast_ab_ab1_apply, Cert.UnitAxis.shapeCast_ab_a1b_apply]
  show e (ix3 b j k) * f b j + a b j * v (ix2 b k) = e (ix3 b j k) * Cell.sig (zf b j) + a b j * v (ix2 b k)
  rw [hf]

end Cert.KernelIdeal.TraceSpec

end
-- ==== Proof.KernelValue.lean ====
/-
  What the kernel program's eleven results hold, as functions of the launch memory.

  The first launch computes the gates from the fifteen arrays it reads (the arguments, eight of them after a change of
  float format that changes no extended real): the new hidden and cell states, the forget gate, the three factors and
  the three eligibility vectors. Each later launch updates two eligibility matrices from their old contents, the forget
  gate and one factor (reshaped into columns) and the input or previous hidden rows (reshaped into rows). Read back
  through the fold of buffer contents, every result is the specification's function of the arguments as launched.
-/
import proofs.«152007_j29575144800638_2_alg».proof.Proof.FrameKernelIdeal
import proofs.«152007_j29575144800638_2_alg».proof.Proof.Chase
import proofs.«152007_j29575144800638_2_alg».proof.Proof.GatesOut
import proofs.«152007_j29575144800638_2_alg».proof.Proof.Trace1
import proofs.«152007_j29575144800638_2_alg».proof.Proof.Trace2
import proofs.«152007_j29575144800638_2_alg».proof.Proof.Trace3
import proofs.«152007_j29575144800638_2_alg».proof.Proof.TraceSpec

set_option maxRecDepth 16384

noncomputable section

namespace Cert.KernelIdeal.Results

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg)

/-- The gates' fifteen inputs on core `c`, as launched. -/
def inp (c : Dev nD) : Cell.In :=
  Cell.In.ofArrays (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))

/-- The first launch finds the gates' inputs as launched: the arguments it reads directly are untouched, and the eight
    weight matrices reach it through a change of float format, the identity on extended reals. -/
theorem gates_in (c : Dev nD) : GatesValue.gateIn (V1 m ρ) c = inp m c := by
  show Cell.In.ofArrays
      (W1 m ρ c (Proc.devRef .tc main_arg0))
      (W1 m ρ c (Proc.devRef .tc main_v0))
      (W1 m ρ c (Proc.devRef .tc main_v1))
      (W1 m ρ c (Proc.devRef .tc main_arg3))
      (W1 m ρ c (Proc.devRef .tc main_v2))
      (W1 m ρ c (Proc.devRef .tc main_v3))
      (W1 m ρ c (Proc.devRef .tc main_arg6))
      (W1 m ρ c (Proc.devRef .tc main_v4))
      (W1 m ρ c (Proc.devRef .tc main_v5))
      (W1 m ρ c (Proc.devRef .tc main_arg9))
      (W1 m ρ c (Proc.devRef .tc main_v6))
      (W1 m ρ c (Proc.devRef .tc main_v7))
      (W1 m ρ c (Proc.devRef .tc main_arg12))
      (W1 m ρ c (Proc.devRef .tc main_arg13))
      (W1 m ρ c (Proc.devRef .tc main_arg14)) = _
  rw [Chase.at1_arg0 m ρ c, Chase.at1_v0 m ρ c, Chase.at1_v1 m ρ c, Chase.at1_arg3 m ρ c, Chase.at1_v2 m ρ c, Chase.at1_v3 m ρ c, Chase.at1_arg6 m ρ c, Chase.at1_v4 m ρ c, Chase.at1_v5 m ρ c, Chase.at1_arg9 m ρ c, Chase.at1_v6 m ρ c, Chase.at1_v7 m ρ c, Chase.at1_arg12 m ρ c, Chase.at1_arg13 m ρ c, Chase.at1_arg14 m ρ c]
  rfl

/-! ## The first launch's results -/

theorem res_v8_0 (c : Dev nD) : W8 m ρ c (Proc.devRef .tc main_v8_0) = Cell.at2 (inp m c).h :=
  (Chase.res_v8_0 m ρ c).trans ((GatesValue.arr_h (V1 m ρ) c).trans (by rw [gates_in m ρ c]))

theorem res_v8_1 (c : Dev nD) : W8 m ρ c (Proc.devRef .tc main_v8_1) = Cell.at2 (inp m c).c :=
  (Chase.res_v8_1 m ρ c).trans ((GatesValue.arr_c (V1 m ρ) c).trans (by rw [gates_in m ρ c]))

theorem res_v8_6 (c : Dev nD) : W8 m ρ c (Proc.devRef .tc main_v8_6) = Cell.ebArr (m ((c : Thread nD τ).loc main_arg17)) (inp m c).zf (inp m c).ai := by
  refine (Chase.res_v8_6 m ρ c).trans ((GatesValue.arr_ebi (V1 m ρ) c).trans ?_)
  have e : V1 m ρ c (Pipeline.arrRef spec0 15) = (m ((c : Thread nD τ).loc main_arg17)) := Chase.at1_arg17 m ρ c
  rw [e, gates_in m ρ c]

theorem res_v8_7 (c : Dev nD) : W8 m ρ c (Proc.devRef .tc main_v8_7) = Cell.ebArr (m ((c : Thread nD τ).loc main_arg20)) (inp m c).zf (inp m c).af := by
  refine (Chase.res_v8_7 m ρ c).trans ((GatesValue.arr_ebf (V1 m ρ) c).trans ?_)
  have e : V1 m ρ c (Pipeline.arrRef spec0 16) = (m ((c : Thread nD τ).loc main_arg20)) := Chase.at1_arg20 m ρ c
  rw [e, gates_in m ρ c]

theorem res_v8_8 (c : Dev nD) : W8 m ρ c (Proc.devRef .tc main_v8_8) = Cell.ebArr (m ((c : Thread nD τ).loc main_arg23)) (inp m c).zf (inp m c).ac := by
  refine (Chase.res_v8_8 m ρ c).trans ((GatesValue.arr_ebc (V1 m ρ) c).trans ?_)
  have e : V1 m ρ c (Pipeline.arrRef spec0 17) = (m ((c : Thread nD τ).loc main_arg23)) := Chase.at1_arg23 m ρ c
  rw [e, gates_in m ρ c]

/-! ## The three later launches' results -/

/-- Region 1's recurrent-weight eligibility matrix. -/
theorem res_v15_0 (c : Dev nD) : W8 m ρ c (Proc.devRef .tc main_v15_0)
    = Cell.ewArr (m ((c : Thread nD τ).loc main_arg16)) (inp m c).zf (inp m c).ai (inp m c).hl := by
  refine (Chase.res_v15_0 m ρ c).trans ((TraceValue.arr1_h (V3 m ρ) c).trans ?_)
  have e0 : V3 m ρ c (Pipeline.arrRef spec1 0) = (m ((c : Thread nD τ).loc main_arg16)) := Chase.at3_arg16 m ρ c
  have e2 : V3 m ρ c (Pipeline.arrRef spec1 2) = shapeCast S16x1024x1 ((dat0 (V1 m ρ) c).arrAt 20 cfg0.N) shapeCasts_S16x1024_S16x1024x1 := Chase.at3_v9 m ρ c
  have e3 : V3 m ρ c (Pipeline.arrRef spec1 3) = shapeCast S16x1024x1 ((dat0 (V1 m ρ) c).arrAt 21 cfg0.N) shapeCasts_S16x1024_S16x1024x1 := Chase.at3_v10 m ρ c
  have e5 : V3 m ρ c (Pipeline.arrRef spec1 5) = shapeCast S16x1x1024 (m ((c : Thread nD τ).loc main_arg13)) shapeCasts_S16x1024_S16x1x1024 := Chase.at3_v14 m ρ c
  rw [e0, e2, e3, e5, GatesValue.arr_f (V1 m ρ) c, GatesValue.arr_ai (V1 m ρ) c, gates_in m ρ c]
  exact TraceSpec.updH_spec _ (inp m c).f (inp m c).zf (inp m c).ai (fun _ _ => rfl) _

/-- Region 1's input-weight eligibility matrix. -/
theorem res_v15_1 (c : Dev nD) : W8 m ρ c (Proc.devRef .tc main_v15_1)
    = Cell.ewArr (m ((c : Thread nD τ).loc main_arg15)) (inp m c).zf (inp m c).ai (inp m c).x := by
  refine (Chase.res_v15_1 m ρ c).trans ((TraceValue.arr1_x (V3 m ρ) c).trans ?_)
  have e0 : V3 m ρ c (Pipeline.arrRef spec1 1) = (m ((c : Thread nD τ).loc main_arg15)) := Chase.at3_arg15 m ρ c
  have e2 : V3 m ρ c (Pipeline.arrRef spec1 2) = shapeCast S16x1024x1 ((dat0 (V1 m ρ) c).arrAt 20 cfg0.N) shapeCasts_S16x1024_S16x1024x1 := Chase.at3_v9 m ρ c
  have e3 : V3 m ρ c (Pipeline.arrRef spec1 3) = shapeCast S16x1024x1 ((dat0 (V1 m ρ) c).arrAt 21 cfg0.N) shapeCasts_S16x1024_S16x1024x1 := Chase.at3_v10 m ρ c
  have e5 : V3 m ρ c (Pipeline.arrRef spec1 4) = shapeCast S16x1x512 (m ((c : Thread nD τ).loc main_arg0)) shapeCasts_S16x512_S16x1x512 := Chase.at3_v13 m ρ c
  rw [e0, e2, e3, e5, GatesValue.arr_f (V1 m ρ) c, GatesValue.arr_ai (V1 m ρ) c, gates_in m ρ c]
  exact TraceSpec.updX_spec _ (inp m c).f (inp m c).zf (inp m c).ai (fun _ _ => rfl) _

/-- Region 2's recurrent-weight eligibility matrix. -/
theorem res_v16_0 (c : Dev nD) : W8 m ρ c (Proc.devRef .tc main_v16_0)
    = Cell.ewArr (m ((c : Thread nD τ).loc main_arg19)) (inp m c).zf (inp m c).af (inp m c).hl := by
  refine (Chase.res_v16_0 m ρ c).trans ((TraceValue.arr2_h (V5 m ρ) c).trans ?_)
  have e0 : V5 m ρ c (Pipeline.arrRef spec2 0) = (m ((c : Thread nD τ).loc main_arg19)) := Chase.at5_arg19 m ρ c
  have e2 : V5 m ρ c (Pipeline.arrRef spec2 2) = shapeCast S16x1024x1 ((dat0 (V1 m ρ) c).arrAt 20 cfg0.N) shapeCasts_S16x1024_S16x1024x1 := (Chase.at5_v9 m ρ c).trans (Chase.at3_v9 m ρ c)
  have e3 : V5 m ρ c (Pipeline.arrRef spec2 3) = shapeCast S16x1024x1 ((dat0 (V1 m ρ) c).arrAt 22 cfg0.N) shapeCasts_S16x1024_S16x1024x1 := (Chase.at5_v11 m ρ c).trans (Chase.at3_v11 m ρ c)
  have e5 : V5 m ρ c (Pipeline.arrRef spec2 5) = shapeCast S16x1x1024 (m ((c : Thread nD τ).loc main_arg13)) shapeCasts_S16x1024_S16x1x1024 := (Chase.at5_v14 m ρ c).trans (Chase.at3_v14 m ρ c)
  rw [e0, e2, e3, e5, GatesValue.arr_f (V1 m ρ) c, GatesValue.arr_af (V1 m ρ) c, gates_in m ρ c]
  exact TraceSpec.updH_spec _ (inp m c).f (inp m c).zf (inp m c).af (fun _ _ => rfl) _

/-- Region 2's input-weight eligibility matrix. -/
theorem res_v16_1 (c : Dev nD) : W8 m ρ c (Proc.devRef .tc main_v16_1)
    = Cell.ewArr (m ((c : Thread nD τ).loc main_arg18)) (inp m c).zf (inp m c).af (inp m c).x := by
  refine (Chase.res_v16_1 m ρ c).trans ((TraceValue.arr2_x (V5 m ρ) c).trans ?_)
  have e0 : V5 m ρ c (Pipeline.arrRef spec2 1) = (m ((c : Thread nD τ).loc main_arg18)) := Chase.at5_arg18 m ρ c
  have e2 : V5 m ρ c (Pipeline.arrRef spec2 2) = shapeCast S16x1024x1 ((dat0 (V1 m ρ) c).arrAt 20 cfg0.N) shapeCasts_S16x1024_S16x1024x1 := (Chase.at5_v9 m ρ c).trans (Chase.at3_v9 m ρ c)
  have e3 : V5 m ρ c (Pipeline.arrRef spec2 3) = shapeCast S16x1024x1 ((dat0 (V1 m ρ) c).arrAt 22 cfg0.N) shapeCasts_S16x1024_S16x1024x1 := (Chase.at5_v11 m ρ c).trans (Chase.at3_v11 m ρ c)
  have e5 : V5 m ρ c (Pipeline.arrRef spec2 4) = shapeCast S16x1x512 (m ((c : Thread nD τ).loc main_arg0)) shapeCasts_S16x512_S16x1x512 := (Chase.at5_v13 m ρ c).trans (Chase.at3_v13 m ρ c)
  rw [e0, e2, e3, e5, GatesValue.arr_f (V1 m ρ) c, GatesValue.arr_af (V1 m ρ) c, gates_in m ρ c]
  exact TraceSpec.updX_spec _ (inp m c).f (inp m c).zf (inp m c).af (fun _ _ => rfl) _

/-- Region 3's recurrent-weight eligibility matrix. -/
theorem res_v17_0 (c : Dev nD) : W8 m ρ c (Proc.devRef .tc main_v17_0)
    = Cell.ewArr (m ((c : Thread nD τ).loc main_arg22)) (inp m c).zf (inp m c).ac (inp m c).hl := by
  refine (Chase.res_v17_0 m ρ c).trans ((TraceValue.arr3_h (V7 m ρ) c).trans ?_)
  have e0 : V7 m ρ c (Pipeline.arrRef spec3 0) = (m ((c : Thread nD τ).loc main_arg22)) := Chase.at7_arg22 m ρ c
  have e2 : V7 m ρ c (Pipeline.arrRef spec3 2) = shapeCast S16x1024x1 ((dat0 (V1 m ρ) c).arrAt 20 cfg0.N) shapeCasts_S16x1024_S16x1024x1 := (Chase.at7_v9 m ρ c).trans (Chase.at3_v9 m ρ c)
  have e3 : V7 m ρ c (Pipeline.arrRef spec3 3) = shapeCast S16x1024x1 ((dat0 (V1 m ρ) c).arrAt 23 cfg0.N) shapeCasts_S16x1024_S16x1024x1 := (Chase.at7_v12 m ρ c).trans (Chase.at3_v12 m ρ c)
  have e5 : V7 m ρ c (Pipeline.arrRef spec3 5) = shapeCast S16x1x1024 (m ((c : Thread nD τ).loc main_arg13)) shapeCasts_S16x1024_S16x1x1024 := (Chase.at7_v14 m ρ c).trans (Chase.at3_v14 m ρ c)
  rw [e0, e2, e3, e5, GatesValue.arr_f (V1 m ρ) c, GatesValue.arr_ac (V1 m ρ) c, gates_in m ρ c]
  exact TraceSpec.updH_spec _ (inp m c).f (inp m c).zf (inp m c).ac (fun _ _ => rfl) _

/-- Region 3's input-weight eligibility matrix. -/
theorem res_v17_1 (c : Dev nD) : W8 m ρ c (Proc.devRef .tc main_v17_1)
    = Cell.ewArr (m ((c : Thread nD τ).loc main_arg21)) (inp m c).zf (inp m c).ac (inp m c).x := by
  refine (Chase.res_v17_1 m ρ c).trans ((TraceValue.arr3_x (V7 m ρ) c).trans ?_)
  have e0 : V7 m ρ c (Pipeline.arrRef spec3 1) = (m ((c : Thread nD τ).loc main_arg21)) := Chase.at7_arg21 m ρ c
  have e2 : V7 m ρ c (Pipeline.arrRef spec3 2) = shapeCast S16x1024x1 ((dat0 (V1 m ρ) c).arrAt 20 cfg0.N) shapeCasts_S16x1024_S16x1024x1 := (Chase.at7_v9 m ρ c).trans (Chase.at3_v9 m ρ c)
  have e3 : V7 m ρ c (Pipeline.arrRef spec3 3) = shapeCast S16x1024x1 ((dat0 (V1 m ρ) c).arrAt 23 cfg0.N) shapeCasts_S16x1024_S16x1024x1 := (Chase.at7_v12 m ρ c).trans (Chase.at3_v12 m ρ c)
  have e5 : V7 m ρ c (Pipeline.arrRef spec3 4) = shapeCast S16x1x512 (m ((c : Thread nD τ).loc main_arg0)) shapeCasts_S16x512_S16x1x512 := (Chase.at7_v13 m ρ c).trans (Chase.at3_v13 m ρ c)
  rw [e0, e2, e3, e5, GatesValue.arr_f (V1 m ρ) c, GatesValue.arr_ac (V1 m ρ) c, gates_in m ρ c]
  exact TraceSpec.updX_spec _ (inp m c).f (inp m c).zf (inp m c).ac (fun _ _ => rfl) _

end Cert.KernelIdeal.Results

end
-- ==== Proof.RefGates.lean ====
/-
  The reference program's four gates, entry by entry.

  Each gate's pre-activation is computed as a transpose and a contraction for the input rows, the same for the previous
  hidden rows, their sum, and the bias broadcast over the batch. Read at batch row `p` and hidden unit `q` this is
  `(∑ₖ x p k · wx q k + ∑ₖ hl p k · wh q k) + b q`, the specification's `Cell.pre`. The input, forget and output gates
  are then `1 / (1 + e^(-z))` spelt with the literal one broadcast twice, which is `Cell.sig`; the candidate is the
  hyperbolic tangent. Nothing is rearranged: every step is the reading of one operation at an index.
-/
import proofs.«152007_j29575144800638_2_alg».proof.Proof.Cell
import proofs.«152007_j29575144800638_2_alg».proof.Proof.Gen.ReferenceIdeal.Read

noncomputable section

namespace Cert.RefSide

open Cert.ReferenceIdeal Cert.ReferenceIdeal.Read Idealize.ShloMosaic Cert

/-- The input gate's pre-activation at `(p, q)`: the two contractions run over the second coordinate of both factors,
    because the weights enter transposed, and the bias is read at `q`. -/
theorem z_i (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x13 : (⟨S16x1024, .f32⟩ : BufTy).Contents (Elt Ideal))
    (p : Fin 16) (q : Fin 1024) :
    val_main_v7 (F := Ideal) x0 x1 x2 x3 x13 (ValueIdx.ix2 p q)
      = Cell.pre (Cell.c2 x0) (Cell.c2 x13) (Cell.c2 x1) (Cell.c2 x2) (Cell.c1 x3) p q := by
  rw [val_main_v7_apply, val_main_v4_apply, val_main_v1_apply, val_main_v3_apply, val_main_v6_apply, val_main_v5_apply]
  simp only [val_main_v0_apply, val_main_v2_apply]
  have ex : ∀ k : Fin 512, lidx_main_v1 (ValueIdx.ix2 p q) k = ValueIdx.ix2 p k :=
    fun k => funext fun a => match a with | ⟨0, _⟩ => rfl | ⟨1, _⟩ => rfl
  have ewx : ∀ k : Fin 512, idx_main_v0 (ridx_main_v1 (ValueIdx.ix2 p q) k) = ValueIdx.ix2 q k :=
    fun k => funext fun a => match a with | ⟨0, _⟩ => rfl | ⟨1, _⟩ => rfl
  have eh : ∀ k : Fin 1024, lidx_main_v3 (ValueIdx.ix2 p q) k = ValueIdx.ix2 p k :=
    fun k => funext fun a => match a with | ⟨0, _⟩ => rfl | ⟨1, _⟩ => rfl
  have ewh : ∀ k : Fin 1024, idx_main_v2 (ridx_main_v3 (ValueIdx.ix2 p q) k) = ValueIdx.ix2 q k :=
    fun k => funext fun a => match a with | ⟨0, _⟩ => rfl | ⟨1, _⟩ => rfl
  have eb : idx_main_v5 (idx_main_v6 (ValueIdx.ix2 p q)) = ValueIdx.ix1 q :=
    funext fun a => match a with | ⟨0, _⟩ => rfl
  simp only [ex, ewx, eh, ewh, eb, Ideal.addf_def]
  rfl

/-- The forget gate's pre-activation at `(p, q)`: the two contractions run over the second coordinate of both factors,
    because the weights enter transposed, and the bias is read at `q`. -/
theorem z_f (x0 : (⟨S16x512, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x13 : (⟨S16x1024, .f32⟩ : BufTy).Contents (Elt Ideal))
    (p : Fin 16) (q : Fin 1024) :
    val_main_v21 (F := Ideal) x0 x4 x5 x6 x13 (ValueIdx.ix2 p q)
      = Cell.pre (Cell.c2 x0) (Cell.c2 x13) (Cell.c2 x4) (Cell.c2 x5) (Cell.c1 x6) p q := by
  rw [val_main_v21_apply, val_main_v18_apply, val_main_v15_apply, val_main_v17_apply, val_main_v20_apply, val_main_v19_apply]
  simp only [val_main_v14_apply, val_main_v16_apply]
  have ex : ∀ k : Fin 512, lidx_main_v15 (ValueIdx.ix2 p q) k = ValueIdx.ix2 p k :=
    fun k => funext fun a => match a with | ⟨0, _⟩ => rfl | ⟨1, _⟩ => rfl
  have ewx : ∀ k : Fin 512, idx_main_v14 (ridx_main_v15 (ValueIdx.ix2 p q) k) = ValueIdx.ix2 q k :=
    fun k => funext fun a => match a with | ⟨0, _⟩ => rfl | ⟨1, _⟩ => rfl
  have eh : ∀ k : Fin 1024, lidx_main_v17 (ValueIdx.ix2 p q) k = ValueIdx.ix2 p k :=
    fun k => funext fun a => match a with | ⟨0, _⟩ => rfl | ⟨1, _⟩ => rfl
  have ewh : ∀ k : Fin 1024, idx_main_v16 (ridx_main_v17 (ValueIdx.ix2 p q) k) = ValueIdx.ix2 q k :=
    fun k => funext fun a => match a with | ⟨0, _⟩ => rfl | ⟨1, _⟩ => rfl
  have eb : idx_main_v19 (idx_main_v20 (ValueIdx.ix2 p q)) = ValueIdx.ix1 q :=
    funext fun a => match a with | ⟨0, _⟩ => rfl
  simp only [ex, ewx, eh, ewh, eb, Ideal.addf_def]
  rfl

/-- The output gate's pre-activation at `(p, q)`: the two contractions run over the second coordinate of both factors,
    because the weights enter transposed, and the bias is read at `q`. -/
theorem z_o (x0 : (⟨S16x512, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x13 : (⟨S16x1024, .f32⟩ : BufTy).Contents (Elt Ideal))
    (p : Fin 16) (q : Fin 1024) :
    val_main_v35 (F := Ideal) x0 x7 x8 x9 x13 (ValueIdx.ix2 p q)
      = Cell.pre (Cell.c2 x0) (Cell.c2 x13) (Cell.c2 x7) (Cell.c2 x8) (Cell.c1 x9) p q := by
  rw [val_main_v35_apply, val_main_v32_apply, val_main_v29_apply, val_main_v31_apply, val_main_v34_apply, val_main_v33_apply]
  simp only [val_main_v28_apply, val_main_v30_apply]
  have ex : ∀ k : Fin 512, lidx_main_v29 (ValueIdx.ix2 p q) k = ValueIdx.ix2 p k :=
    fun k => funext fun a => match a with | ⟨0, _⟩ => rfl | ⟨1, _⟩ => rfl
  have ewx : ∀ k : Fin 512, idx_main_v28 (ridx_main_v29 (ValueIdx.ix2 p q) k) = ValueIdx.ix2 q k :=
    fun k => funext fun a => match a with | ⟨0, _⟩ => rfl | ⟨1, _⟩ => rfl
  have eh : ∀ k : Fin 1024, lidx_main_v31 (ValueIdx.ix2 p q) k = ValueIdx.ix2 p k :=
    fun k => funext fun a => match a with | ⟨0, _⟩ => rfl | ⟨1, _⟩ => rfl
  have ewh : ∀ k : Fin 1024, idx_main_v30 (ridx_main_v31 (ValueIdx.ix2 p q) k) = ValueIdx.ix2 q k :=
    fun k => funext fun a => match a with | ⟨0, _⟩ => rfl | ⟨1, _⟩ => rfl
  have eb : idx_main_v33 (idx_main_v34 (ValueIdx.ix2 p q)) = ValueIdx.ix1 q :=
    funext fun a => match a with | ⟨0, _⟩ => rfl
  simp only [ex, ewx, eh, ewh, eb, Ideal.addf_def]
  rfl

/-- The candidate's pre-activation at `(p, q)`: the two contractions run over the second coordinate of both factors,
    because the weights enter transposed, and the bias is read at `q`. -/
theorem z_c (x0 : (⟨S16x512, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal))
    (p : Fin 16) (q : Fin 1024) :
    val_main_v49 (F := Ideal) x0 x10 x11 x12 x13 (ValueIdx.ix2 p q)
      = Cell.pre (Cell.c2 x0) (Cell.c2 x13) (Cell.c2 x10) (Cell.c2 x11) (Cell.c1 x12) p q := by
  rw [val_main_v49_apply, val_main_v46_apply, val_main_v43_apply, val_main_v45_apply, val_main_v48_apply, val_main_v47_apply]
  simp only [val_main_v42_apply, val_main_v44_apply]
  have ex : ∀ k : Fin 512, lidx_main_v43 (ValueIdx.ix2 p q) k = ValueIdx.ix2 p k :=
    fun k => funext fun a => match a with | ⟨0, _⟩ => rfl | ⟨1, _⟩ => rfl
  have ewx : ∀ k : Fin 512, idx_main_v42 (ridx_main_v43 (ValueIdx.ix2 p q) k) = ValueIdx.ix2 q k :=
    fun k => funext fun a => match a with | ⟨0, _⟩ => rfl | ⟨1, _⟩ => rfl
  have eh : ∀ k : Fin 1024, lidx_main_v45 (ValueIdx.ix2 p q) k = ValueIdx.ix2 p k :=
    fun k => funext fun a => match a with | ⟨0, _⟩ => rfl | ⟨1, _⟩ => rfl
  have ewh : ∀ k : Fin 1024, idx_main_v44 (ridx_main_v45 (ValueIdx.ix2 p q) k) = ValueIdx.ix2 q k :=
    fun k => funext fun a => match a with | ⟨0, _⟩ => rfl | ⟨1, _⟩ => rfl
  have eb : idx_main_v47 (idx_main_v48 (ValueIdx.ix2 p q)) = ValueIdx.ix1 q :=
    funext fun a => match a with | ⟨0, _⟩ => rfl
  simp only [ex, ewx, eh, ewh, eb, Ideal.addf_def]
  rfl

/-- The input gate at `(p, q)` is the quotient spelling of the logistic function at its pre-activation. -/
theorem gate_i (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x13 : (⟨S16x1024, .f32⟩ : BufTy).Contents (Elt Ideal))
    (p : Fin 16) (q : Fin 1024) :
    val_main_v13 (F := Ideal) x0 x1 x2 x3 x13 (ValueIdx.ix2 p q)
      = Cell.sig (Cell.pre (Cell.c2 x0) (Cell.c2 x13) (Cell.c2 x1) (Cell.c2 x2) (Cell.c1 x3) p q) := by
  rw [val_main_v13_apply, val_main_v12_apply, val_main_cst_0_apply, val_main_v11_apply, val_main_v10_apply, val_main_cst_apply,
    val_main_v9_apply, val_main_v8_apply, z_i]
  rfl

/-- The forget gate at `(p, q)` is the quotient spelling of the logistic function at its pre-activation. -/
theorem gate_f (x0 : (⟨S16x512, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x13 : (⟨S16x1024, .f32⟩ : BufTy).Contents (Elt Ideal))
    (p : Fin 16) (q : Fin 1024) :
    val_main_v27 (F := Ideal) x0 x4 x5 x6 x13 (ValueIdx.ix2 p q)
      = Cell.sig (Cell.pre (Cell.c2 x0) (Cell.c2 x13) (Cell.c2 x4) (Cell.c2 x5) (Cell.c1 x6) p q) := by
  rw [val_main_v27_apply, val_main_v26_apply, val_main_cst_2_apply, val_main_v25_apply, val_main_v24_apply, val_main_cst_1_apply,
    val_main_v23_apply, val_main_v22_apply, z_f]
  rfl

/-- The output gate at `(p, q)` is the quotient spelling of the logistic function at its pre-activation. -/
theorem gate_o (x0 : (⟨S16x512, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x13 : (⟨S16x1024, .f32⟩ : BufTy).Contents (Elt Ideal))
    (p : Fin 16) (q : Fin 1024) :
    val_main_v41 (F := Ideal) x0 x7 x8 x9 x13 (ValueIdx.ix2 p q)
      = Cell.sig (Cell.pre (Cell.c2 x0) (Cell.c2 x13) (Cell.c2 x7) (Cell.c2 x8) (Cell.c1 x9) p q) := by
  rw [val_main_v41_apply, val_main_v40_apply, val_main_cst_4_apply, val_main_v39_apply, val_main_v38_apply, val_main_cst_3_apply,
    val_main_v37_apply, val_main_v36_apply, z_o]
  rfl

/-- The candidate at `(p, q)` is the hyperbolic tangent of its pre-activation. -/
theorem gate_c (x0 : (⟨S16x512, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal))
    (p : Fin 16) (q : Fin 1024) :
    val_main_v50 (F := Ideal) x0 x10 x11 x12 x13 (ValueIdx.ix2 p q)
      = Ideal.tanh (Cell.pre (Cell.c2 x0) (Cell.c2 x13) (Cell.c2 x10) (Cell.c2 x11) (Cell.c1 x12) p q) := by
  rw [val_main_v50_apply, z_c]
  rfl

end Cert.RefSide

end
-- ==== Proof.RefCell.lean ====
/-
  The reference program's cell, entry by entry.

  From the four gates at `(p, q)`: the new cell state `f · c_last + i · ĉ`, the new hidden state `o · c`, and the three
  factors `i (1 - i) ĉ`, `f (1 - f) c_last`, `(1 - ĉ²) i` of the eligibility updates. The program computes each factor
  twice (once for the eligibility matrices, once for the eligibility vectors) with the same operations; both copies are
  read here. The two results `h` and `c` follow as whole arrays.
-/
import proofs.«152007_j29575144800638_2_alg».proof.Proof.RefGates

noncomputable section

namespace Cert.RefSide

open Cert.ReferenceIdeal Cert.ReferenceIdeal.Read Idealize.ShloMosaic Cert

/-- The new cell state at `(p, q)`. -/
theorem c_at (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal))
    (p : Fin 16) (q : Fin 1024) :
    val_main_v53 (F := Ideal) x0 x1 x2 x3 x4 x5 x6 x10 x11 x12 x13 x14 (ValueIdx.ix2 p q)
      = Cell.cNew (Cell.pre (Cell.c2 x0) (Cell.c2 x13) (Cell.c2 x1) (Cell.c2 x2) (Cell.c1 x3) p q) (Cell.pre (Cell.c2 x0) (Cell.c2 x13) (Cell.c2 x4) (Cell.c2 x5) (Cell.c1 x6) p q)
          (Cell.pre (Cell.c2 x0) (Cell.c2 x13) (Cell.c2 x10) (Cell.c2 x11) (Cell.c1 x12) p q) (x14 (ValueIdx.ix2 p q)) := by
  rw [val_main_v53_apply, val_main_v51_apply, val_main_v52_apply, gate_f, gate_i, gate_c]
  rfl

/-- The new hidden state at `(p, q)`. -/
theorem h_at (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal))
    (p : Fin 16) (q : Fin 1024) :
    val_main_v54 (F := Ideal) x0 x1 x2 x3 x4 x5 x6 x7 x8 x9 x10 x11 x12 x13 x14 (ValueIdx.ix2 p q)
      = Cell.hNew (Cell.pre (Cell.c2 x0) (Cell.c2 x13) (Cell.c2 x1) (Cell.c2 x2) (Cell.c1 x3) p q) (Cell.pre (Cell.c2 x0) (Cell.c2 x13) (Cell.c2 x4) (Cell.c2 x5) (Cell.c1 x6) p q)
          (Cell.pre (Cell.c2 x0) (Cell.c2 x13) (Cell.c2 x7) (Cell.c2 x8) (Cell.c1 x9) p q) (Cell.pre (Cell.c2 x0) (Cell.c2 x13) (Cell.c2 x10) (Cell.c2 x11) (Cell.c1 x12) p q) (x14 (ValueIdx.ix2 p q)) := by
  rw [val_main_v54_apply, gate_o, c_at]
  rfl

/-- The factor `i (1 - i) ĉ` at `(p, q)`, as the eligibility matrices use it. -/
theorem aI_at (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal))
    (p : Fin 16) (q : Fin 1024) :
    val_main_v67 (F := Ideal) x0 x1 x2 x3 x10 x11 x12 x13 (ValueIdx.ix2 p q)
      = Cell.aI (Cell.pre (Cell.c2 x0) (Cell.c2 x13) (Cell.c2 x1) (Cell.c2 x2) (Cell.c1 x3) p q) (Cell.pre (Cell.c2 x0) (Cell.c2 x13) (Cell.c2 x10) (Cell.c2 x11) (Cell.c1 x12) p q) := by
  rw [val_main_v67_apply, val_main_v57_apply, val_main_v56_apply, val_main_v55_apply, val_main_cst_5_apply, gate_i, gate_c]
  rfl

/-- The factor `i (1 - i) ĉ` at `(p, q)`, as the eligibility vector uses it. -/
theorem aI_at' (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal))
    (p : Fin 16) (q : Fin 1024) :
    val_main_v86 (F := Ideal) x0 x1 x2 x3 x10 x11 x12 x13 (ValueIdx.ix2 p q)
      = Cell.aI (Cell.pre (Cell.c2 x0) (Cell.c2 x13) (Cell.c2 x1) (Cell.c2 x2) (Cell.c1 x3) p q) (Cell.pre (Cell.c2 x0) (Cell.c2 x13) (Cell.c2 x10) (Cell.c2 x11) (Cell.c1 x12) p q) := by
  rw [val_main_v86_apply, val_main_v57_apply, val_main_v56_apply, val_main_v55_apply, val_main_cst_5_apply, gate_i, gate_c]
  rfl

/-- The factor `f (1 - f) c_last` at `(p, q)`, as the eligibility matrices use it. -/
theorem aF_at (x0 : (⟨S16x512, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x13 : (⟨S16x1024, .f32⟩ : BufTy).Contents (Elt Ideal)) (x14 : (⟨S16x1024, .f32⟩ : BufTy).Contents (Elt Ideal))
    (p : Fin 16) (q : Fin 1024) :
    val_main_v69 (F := Ideal) x0 x4 x5 x6 x13 x14 (ValueIdx.ix2 p q)
      = Cell.aF (Cell.pre (Cell.c2 x0) (Cell.c2 x13) (Cell.c2 x4) (Cell.c2 x5) (Cell.c1 x6) p q) (x14 (ValueIdx.ix2 p q)) := by
  rw [val_main_v69_apply, val_main_v60_apply, val_main_v59_apply, val_main_v58_apply, val_main_cst_6_apply, gate_f]
  rfl

/-- The factor `f (1 - f) c_last` at `(p, q)`, as the eligibility vector uses it. -/
theorem aF_at' (x0 : (⟨S16x512, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x13 : (⟨S16x1024, .f32⟩ : BufTy).Contents (Elt Ideal)) (x14 : (⟨S16x1024, .f32⟩ : BufTy).Contents (Elt Ideal))
    (p : Fin 16) (q : Fin 1024) :
    val_main_v101 (F := Ideal) x0 x4 x5 x6 x13 x14 (ValueIdx.ix2 p q)
      = Cell.aF (Cell.pre (Cell.c2 x0) (Cell.c2 x13) (Cell.c2 x4) (Cell.c2 x5) (Cell.c1 x6) p q) (x14 (ValueIdx.ix2 p q)) := by
  rw [val_main_v101_apply, val_main_v60_apply, val_main_v59_apply, val_main_v58_apply, val_main_cst_6_apply, gate_f]
  rfl

/-- The factor `(1 - ĉ²) i` at `(p, q)`, as the eligibility matrices use it. -/
theorem aC_at (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal))
    (p : Fin 16) (q : Fin 1024) :
    val_main_v71 (F := Ideal) x0 x1 x2 x3 x10 x11 x12 x13 (ValueIdx.ix2 p q)
      = Cell.aC (Cell.pre (Cell.c2 x0) (Cell.c2 x13) (Cell.c2 x1) (Cell.c2 x2) (Cell.c1 x3) p q) (Cell.pre (Cell.c2 x0) (Cell.c2 x13) (Cell.c2 x10) (Cell.c2 x11) (Cell.c1 x12) p q) := by
  rw [val_main_v71_apply, val_main_v63_apply, val_main_v62_apply, val_main_cst_7_apply, val_main_v61_apply, gate_i, gate_c]
  rfl

/-- The factor `(1 - ĉ²) i` at `(p, q)`, as the eligibility vector uses it. -/
theorem aC_at' (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal))
    (p : Fin 16) (q : Fin 1024) :
    val_main_v116 (F := Ideal) x0 x1 x2 x3 x10 x11 x12 x13 (ValueIdx.ix2 p q)
      = Cell.aC (Cell.pre (Cell.c2 x0) (Cell.c2 x13) (Cell.c2 x1) (Cell.c2 x2) (Cell.c1 x3) p q) (Cell.pre (Cell.c2 x0) (Cell.c2 x13) (Cell.c2 x10) (Cell.c2 x11) (Cell.c1 x12) p q) := by
  rw [val_main_v116_apply, val_main_v63_apply, val_main_v62_apply, val_main_cst_7_apply, val_main_v61_apply, gate_i, gate_c]
  rfl

/-- The reference's first result is the specification's new hidden state. -/
theorem val_h (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal)) :
    val_main_v54 (F := Ideal) x0 x1 x2 x3 x4 x5 x6 x7 x8 x9 x10 x11 x12 x13 x14
      = Cell.at2 (Cell.In.ofArrays x0 x1 x2 x3 x4 x5 x6 x7 x8 x9 x10 x11 x12 x13 x14).h := by
  funext i
  obtain ⟨p, q, rfl⟩ : ∃ (p : Fin 16) (q : Fin 1024), i = ValueIdx.ix2 p q := ⟨i 0, i 1, ValueIdx.eq_ix2 i⟩
  rw [h_at]
  rfl

/-- The reference's second result is the specification's new cell state. -/
theorem val_c (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal)) :
    val_main_v53 (F := Ideal) x0 x1 x2 x3 x4 x5 x6 x10 x11 x12 x13 x14
      = Cell.at2 (Cell.In.ofArrays x0 x1 x2 x3 x4 x5 x6 x7 x8 x9 x10 x11 x12 x13 x14).c := by
  funext i
  obtain ⟨p, q, rfl⟩ : ∃ (p : Fin 16) (q : Fin 1024), i = ValueIdx.ix2 p q := ⟨i 0, i 1, ValueIdx.eq_ix2 i⟩
  rw [c_at]
  rfl

end Cert.RefSide

end
-- ==== Proof.RefVec.lean ====
/-
  The reference program's three eligibility vectors.

  Each is `e · f + a` entry by entry, with `f` the forget gate and `a` one of the three factors of the cell's module; the
  program multiplies the old eligibility by the forget gate's array and adds the factor's array, so reading the three
  operations at `(p, q)` gives the specification's entry.
-/
import proofs.«152007_j29575144800638_2_alg».proof.Proof.RefCell

noncomputable section

namespace Cert.RefSide

open Cert.ReferenceIdeal Cert.ReferenceIdeal.Read Idealize.ShloMosaic Cert

/-- The eligibility vector of the input gate's bias after the step. -/
theorem val_ebi (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal)) (x17 : (⟨S16x1024, .f32⟩ : BufTy).Contents (Elt Ideal)) :
    val_main_v87 (F := Ideal) x0 x1 x2 x3 x4 x5 x6 x10 x11 x12 x13 x17
      = Cell.ebArr x17 (Cell.In.ofArrays x0 x1 x2 x3 x4 x5 x6 x7 x8 x9 x10 x11 x12 x13 x14).zf
          (Cell.In.ofArrays x0 x1 x2 x3 x4 x5 x6 x7 x8 x9 x10 x11 x12 x13 x14).ai := by
  funext i
  obtain ⟨p, q, rfl⟩ : ∃ (p : Fin 16) (q : Fin 1024), i = ValueIdx.ix2 p q := ⟨i 0, i 1, ValueIdx.eq_ix2 i⟩
  rw [val_main_v87_apply, val_main_v85_apply, gate_f, aI_at']
  rfl

/-- The eligibility vector of the forget gate's bias after the step. -/
theorem val_ebf (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal)) (x20 : (⟨S16x1024, .f32⟩ : BufTy).Contents (Elt Ideal)) :
    val_main_v102 (F := Ideal) x0 x4 x5 x6 x13 x14 x20
      = Cell.ebArr x20 (Cell.In.ofArrays x0 x1 x2 x3 x4 x5 x6 x7 x8 x9 x10 x11 x12 x13 x14).zf
          (Cell.In.ofArrays x0 x1 x2 x3 x4 x5 x6 x7 x8 x9 x10 x11 x12 x13 x14).af := by
  funext i
  obtain ⟨p, q, rfl⟩ : ∃ (p : Fin 16) (q : Fin 1024), i = ValueIdx.ix2 p q := ⟨i 0, i 1, ValueIdx.eq_ix2 i⟩
  rw [val_main_v102_apply, val_main_v100_apply, gate_f, aF_at']
  rfl

/-- The eligibility vector of the candidate's bias after the step. -/
theorem val_ebc (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal)) (x23 : (⟨S16x1024, .f32⟩ : BufTy).Contents (Elt Ideal)) :
    val_main_v117 (F := Ideal) x0 x1 x2 x3 x4 x5 x6 x10 x11 x12 x13 x23
      = Cell.ebArr x23 (Cell.In.ofArrays x0 x1 x2 x3 x4 x5 x6 x7 x8 x9 x10 x11 x12 x13 x14).zf
          (Cell.In.ofArrays x0 x1 x2 x3 x4 x5 x6 x7 x8 x9 x10 x11 x12 x13 x14).ac := by
  funext i
  obtain ⟨p, q, rfl⟩ : ∃ (p : Fin 16) (q : Fin 1024), i = ValueIdx.ix2 p q := ⟨i 0, i 1, ValueIdx.eq_ix2 i⟩
  rw [val_main_v117_apply, val_main_v115_apply, gate_f, aC_at']
  rfl

end Cert.RefSide

end
-- ==== Proof.RefMat.lean ====
/-
  The reference program's six eligibility matrices.

  Each is `e · f + a · v` entry by entry: at `(p, q, r)` the forget gate `f` and the factor `a` are read at `(p, q)` and the
  row `v` (the input row or the previous hidden row) at `(p, r)`. The program gets there by giving `f` and `a` a trailing
  axis of size one and `v` a middle axis of size one and broadcasting the three to the matrix's shape; composing the two
  index maps of each broadcast drops the third coordinate for `f` and `a` and the second for `v`.
-/
import proofs.«152007_j29575144800638_2_alg».proof.Proof.RefCell

noncomputable section

namespace Cert.RefSide

open Cert.ReferenceIdeal Cert.ReferenceIdeal.Read Idealize.ShloMosaic Cert

/-- The eligibility matrix of the input gate's input weights after the step. -/
theorem val_ewix (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal)) (x15 : (⟨S16x1024x512, .f32⟩ : BufTy).Contents (Elt Ideal)) :
    val_main_v84 (F := Ideal) x0 x1 x2 x3 x4 x5 x6 x10 x11 x12 x13 x15
      = Cell.ewArr x15 (Cell.In.ofArrays x0 x1 x2 x3 x4 x5 x6 x7 x8 x9 x10 x11 x12 x13 x14).zf
          (Cell.In.ofArrays x0 x1 x2 x3 x4 x5 x6 x7 x8 x9 x10 x11 x12 x13 x14).ai
          (Cell.In.ofArrays x0 x1 x2 x3 x4 x5 x6 x7 x8 x9 x10 x11 x12 x13 x14).x := by
  funext i
  obtain ⟨p, q, r, rfl⟩ : ∃ (p : Fin 16) (q : Fin 1024) (r : Fin 512), i = ValueIdx.ix3 p q r :=
    ⟨i 0, i 1, i 2, ValueIdx.eq_ix3 i⟩
  have ef : idx_main_v64 (idx_main_v79 (ValueIdx.ix3 p q r)) = ValueIdx.ix2 p q :=
    funext fun a => match a with | ⟨0, _⟩ => rfl | ⟨1, _⟩ => rfl
  have ea : idx_main_v68 (idx_main_v81 (ValueIdx.ix3 p q r)) = ValueIdx.ix2 p q :=
    funext fun a => match a with | ⟨0, _⟩ => rfl | ⟨1, _⟩ => rfl
  have ev : idx_main_v65 (idx_main_v82 (ValueIdx.ix3 p q r)) = ValueIdx.ix2 p r :=
    funext fun a => match a with | ⟨0, _⟩ => rfl | ⟨1, _⟩ => rfl
  rw [val_main_v84_apply, val_main_v80_apply, val_main_v79_apply, val_main_v64_apply, val_main_v83_apply, val_main_v81_apply,
    val_main_v68_apply, val_main_v82_apply, val_main_v65_apply, ef, ea, ev, gate_f, aI_at]
  rfl

/-- The eligibility matrix of the input gate's recurrent weights after the step. -/
theorem val_ewih (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal)) (x16 : (⟨S16x1024x1024, .f32⟩ : BufTy).Contents (Elt Ideal)) :
    val_main_v78 (F := Ideal) x0 x1 x2 x3 x4 x5 x6 x10 x11 x12 x13 x16
      = Cell.ewArr x16 (Cell.In.ofArrays x0 x1 x2 x3 x4 x5 x6 x7 x8 x9 x10 x11 x12 x13 x14).zf
          (Cell.In.ofArrays x0 x1 x2 x3 x4 x5 x6 x7 x8 x9 x10 x11 x12 x13 x14).ai
          (Cell.In.ofArrays x0 x1 x2 x3 x4 x5 x6 x7 x8 x9 x10 x11 x12 x13 x14).hl := by
  funext i
  obtain ⟨p, q, r, rfl⟩ : ∃ (p : Fin 16) (q : Fin 1024) (r : Fin 1024), i = ValueIdx.ix3 p q r :=
    ⟨i 0, i 1, i 2, ValueIdx.eq_ix3 i⟩
  have ef : idx_main_v64 (idx_main_v73 (ValueIdx.ix3 p q r)) = ValueIdx.ix2 p q :=
    funext fun a => match a with | ⟨0, _⟩ => rfl | ⟨1, _⟩ => rfl
  have ea : idx_main_v68 (idx_main_v75 (ValueIdx.ix3 p q r)) = ValueIdx.ix2 p q :=
    funext fun a => match a with | ⟨0, _⟩ => rfl | ⟨1, _⟩ => rfl
  have ev : idx_main_v66 (idx_main_v76 (ValueIdx.ix3 p q r)) = ValueIdx.ix2 p r :=
    funext fun a => match a with | ⟨0, _⟩ => rfl | ⟨1, _⟩ => rfl
  rw [val_main_v78_apply, val_main_v74_apply, val_main_v73_apply, val_main_v64_apply, val_main_v77_apply, val_main_v75_apply,
    val_main_v68_apply, val_main_v76_apply, val_main_v66_apply, ef, ea, ev, gate_f, aI_at]
  rfl

/-- The eligibility matrix of the forget gate's input weights after the step. -/
theorem val_ewfx (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal)) (x18 : (⟨S16x1024x512, .f32⟩ : BufTy).Contents (Elt Ideal)) :
    val_main_v99 (F := Ideal) x0 x4 x5 x6 x13 x14 x18
      = Cell.ewArr x18 (Cell.In.ofArrays x0 x1 x2 x3 x4 x5 x6 x7 x8 x9 x10 x11 x12 x13 x14).zf
          (Cell.In.ofArrays x0 x1 x2 x3 x4 x5 x6 x7 x8 x9 x10 x11 x12 x13 x14).af
          (Cell.In.ofArrays x0 x1 x2 x3 x4 x5 x6 x7 x8 x9 x10 x11 x12 x13 x14).x := by
  funext i
  obtain ⟨p, q, r, rfl⟩ : ∃ (p : Fin 16) (q : Fin 1024) (r : Fin 512), i = ValueIdx.ix3 p q r :=
    ⟨i 0, i 1, i 2, ValueIdx.eq_ix3 i⟩
  have ef : idx_main_v64 (idx_main_v94 (ValueIdx.ix3 p q r)) = ValueIdx.ix2 p q :=
    funext fun a => match a with | ⟨0, _⟩ => rfl | ⟨1, _⟩ => rfl
  have ea : idx_main_v70 (idx_main_v96 (ValueIdx.ix3 p q r)) = ValueIdx.ix2 p q :=
    funext fun a => match a with | ⟨0, _⟩ => rfl | ⟨1, _⟩ => rfl
  have ev : idx_main_v65 (idx_main_v97 (ValueIdx.ix3 p q r)) = ValueIdx.ix2 p r :=
    funext fun a => match a with | ⟨0, _⟩ => rfl | ⟨1, _⟩ => rfl
  rw [val_main_v99_apply, val_main_v95_apply, val_main_v94_apply, val_main_v64_apply, val_main_v98_apply, val_main_v96_apply,
    val_main_v70_apply, val_main_v97_apply, val_main_v65_apply, ef, ea, ev, gate_f, aF_at]
  rfl

/-- The eligibility matrix of the forget gate's recurrent weights after the step. -/
theorem val_ewfh (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal)) (x19 : (⟨S16x1024x1024, .f32⟩ : BufTy).Contents (Elt Ideal)) :
    val_main_v93 (F := Ideal) x0 x4 x5 x6 x13 x14 x19
      = Cell.ewArr x19 (Cell.In.ofArrays x0 x1 x2 x3 x4 x5 x6 x7 x8 x9 x10 x11 x12 x13 x14).zf
          (Cell.In.ofArrays x0 x1 x2 x3 x4 x5 x6 x7 x8 x9 x10 x11 x12 x13 x14).af
          (Cell.In.ofArrays x0 x1 x2 x3 x4 x5 x6 x7 x8 x9 x10 x11 x12 x13 x14).hl := by
  funext i
  obtain ⟨p, q, r, rfl⟩ : ∃ (p : Fin 16) (q : Fin 1024) (r : Fin 1024), i = ValueIdx.ix3 p q r :=
    ⟨i 0, i 1, i 2, ValueIdx.eq_ix3 i⟩
  have ef : idx_main_v64 (idx_main_v88 (ValueIdx.ix3 p q r)) = ValueIdx.ix2 p q :=
    funext fun a => match a with | ⟨0, _⟩ => rfl | ⟨1, _⟩ => rfl
  have ea : idx_main_v70 (idx_main_v90 (ValueIdx.ix3 p q r)) = ValueIdx.ix2 p q :=
    funext fun a => match a with | ⟨0, _⟩ => rfl | ⟨1, _⟩ => rfl
  have ev : idx_main_v66 (idx_main_v91 (ValueIdx.ix3 p q r)) = ValueIdx.ix2 p r :=
    funext fun a => match a with | ⟨0, _⟩ => rfl | ⟨1, _⟩ => rfl
  rw [val_main_v93_apply, val_main_v89_apply, val_main_v88_apply, val_main_v64_apply, val_main_v92_apply, val_main_v90_apply,
    val_main_v70_apply, val_main_v91_apply, val_main_v66_apply, ef, ea, ev, gate_f, aF_at]
  rfl

/-- The eligibility matrix of the candidate's input weights after the step. -/
theorem val_ewcx (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal)) (x21 : (⟨S16x1024x512, .f32⟩ : BufTy).Contents (Elt Ideal)) :
    val_main_v114 (F := Ideal) x0 x1 x2 x3 x4 x5 x6 x10 x11 x12 x13 x21
      = Cell.ewArr x21 (Cell.In.ofArrays x0 x1 x2 x3 x4 x5 x6 x7 x8 x9 x10 x11 x12 x13 x14).zf
          (Cell.In.ofArrays x0 x1 x2 x3 x4 x5 x6 x7 x8 x9 x10 x11 x12 x13 x14).ac
          (Cell.In.ofArrays x0 x1 x2 x3 x4 x5 x6 x7 x8 x9 x10 x11 x12 x13 x14).x := by
  funext i
  obtain ⟨p, q, r, rfl⟩ : ∃ (p : Fin 16) (q : Fin 1024) (r : Fin 512), i = ValueIdx.ix3 p q r :=
    ⟨i 0, i 1, i 2, ValueIdx.eq_ix3 i⟩
  have ef : idx_main_v64 (idx_main_v109 (ValueIdx.ix3 p q r)) = ValueIdx.ix2 p q :=
    funext fun a => match a with | ⟨0, _⟩ => rfl | ⟨1, _⟩ => rfl
  have ea : idx_main_v72 (idx_main_v111 (ValueIdx.ix3 p q r)) = ValueIdx.ix2 p q :=
    funext fun a => match a with | ⟨0, _⟩ => rfl | ⟨1, _⟩ => rfl
  have ev : idx_main_v65 (idx_main_v112 (ValueIdx.ix3 p q r)) = ValueIdx.ix2 p r :=
    funext fun a => match a with | ⟨0, _⟩ => rfl | ⟨1, _⟩ => rfl
  rw [val_main_v114_apply, val_main_v110_apply, val_main_v109_apply, val_main_v64_apply, val_main_v113_apply, val_main_v111_apply,
    val_main_v72_apply, val_main_v112_apply, val_main_v65_apply, ef, ea, ev, gate_f, aC_at]
  rfl

/-- The eligibility matrix of the candidate's recurrent weights after the step. -/
theorem val_ewch (x0 : (⟨S16x512, .f32⟩ : BufTy).Contents (Elt Ideal)) (x1 : (⟨S1024x512, .f32⟩ : BufTy).Contents (Elt Ideal)) (x2 : (⟨S1024x1024, .f32⟩ : BufTy).Contents (Elt Ideal)) (x3 : (⟨S1024, .f32⟩ : BufTy).Contents (Elt Ideal)) (x4 : (⟨S1024x512, .f32⟩ : BufTy).Contents (Elt Ideal)) (x5 : (⟨S1024x1024, .f32⟩ : BufTy).Contents (Elt Ideal)) (x6 : (⟨S1024, .f32⟩ : BufTy).Contents (Elt Ideal)) (x7 : (⟨S1024x512, .f32⟩ : BufTy).Contents (Elt Ideal)) (x8 : (⟨S1024x1024, .f32⟩ : BufTy).Contents (Elt Ideal)) (x9 : (⟨S1024, .f32⟩ : BufTy).Contents (Elt Ideal)) (x10 : (⟨S1024x512, .f32⟩ : BufTy).Contents (Elt Ideal)) (x11 : (⟨S1024x1024, .f32⟩ : BufTy).Contents (Elt Ideal)) (x12 : (⟨S1024, .f32⟩ : BufTy).Contents (Elt Ideal)) (x13 : (⟨S16x1024, .f32⟩ : BufTy).Contents (Elt Ideal)) (x14 : (⟨S16x1024, .f32⟩ : BufTy).Contents (Elt Ideal)) (x22 : (⟨S16x1024x1024, .f32⟩ : BufTy).Contents (Elt Ideal)) :
    val_main_v108 (F := Ideal) x0 x1 x2 x3 x4 x5 x6 x10 x11 x12 x13 x22
      = Cell.ewArr x22 (Cell.In.ofArrays x0 x1 x2 x3 x4 x5 x6 x7 x8 x9 x10 x11 x12 x13 x14).zf
          (Cell.In.ofArrays x0 x1 x2 x3 x4 x5 x6 x7 x8 x9 x10 x11 x12 x13 x14).ac
          (Cell.In.ofArrays x0 x1 x2 x3 x4 x5 x6 x7 x8 x9 x10 x11 x12 x13 x14).hl := by
  funext i
  obtain ⟨p, q, r, rfl⟩ : ∃ (p : Fin 16) (q : Fin 1024) (r : Fin 1024), i = ValueIdx.ix3 p q r :=
    ⟨i 0, i 1, i 2, ValueIdx.eq_ix3 i⟩
  have ef : idx_main_v64 (idx_main_v103 (ValueIdx.ix3 p q r)) = ValueIdx.ix2 p q :=
    funext fun a => match a with | ⟨0, _⟩ => rfl | ⟨1, _⟩ => rfl
  have ea : idx_main_v72 (idx_main_v105 (ValueIdx.ix3 p q r)) = ValueIdx.ix2 p q :=
    funext fun a => match a with | ⟨0, _⟩ => rfl | ⟨1, _⟩ => rfl
  have ev : idx_main_v66 (idx_main_v106 (ValueIdx.ix3 p q r)) = ValueIdx.ix2 p r :=
    funext fun a => match a with | ⟨0, _⟩ => rfl | ⟨1, _⟩ => rfl
  rw [val_main_v108_apply, val_main_v104_apply, val_main_v103_apply, val_main_v64_apply, val_main_v107_apply, val_main_v105_apply,
    val_main_v72_apply, val_main_v106_apply, val_main_v66_apply, ef, ea, ev, gate_f, aC_at]
  rfl

end Cert.RefSide

end
-- ==== Proof.lean ====
/-
  The certificate of a recurrent cell's step with eligibility traces: a four-launch kernel against its array-language
  reference, equal on the extended reals.

  Both programs compute, for sixteen batch rows and 1024 hidden units, four gate pre-activations
  `(x · Wxᵀ + h · Whᵀ) + b`, their logistic (tanh for the candidate), the new cell and hidden states, three factors
  `i (1 - i) ĉ`, `f (1 - f) c`, `(1 - ĉ²) i`, and nine eligibility updates `e · f + a` and `e · f + a · v`. The kernel does
  the gates in one launch over whole arrays (with the weights' float format narrowed first, which changes no extended
  real, and the logistic as one operation where the reference spells the quotient) and each pair of eligibility
  matrices in a launch over blocks of 512 rows; the reference is a line of whole-array operations. Operation by
  operation the two apply the same arithmetic in the same order, so at exact arithmetic they agree entry by entry with no
  algebraic law and no use of the inputs' finiteness: `Cell.lean` states the common function, `RefCell` / `RefVec` /
  `RefMat` read the reference's run as that function, `GatesOut` and `Trace1`–`Trace3` read each launch's output arrays,
  `Chase` walks each result and each launch's operands back through the program's fold of buffer contents, and
  `KernelValue` puts those together. That the kernel program runs and leaves its arguments as launched is cited from
  `FrameKernel` and `FrameKernelIdeal`; the idealization rewrote no operation, so `preserves` is trivial.
-/
import proofs.«152007_j29575144800638_2_alg».proof.Defs
import proofs.«152007_j29575144800638_2_alg».proof.Proof.Gen.Kernel
import proofs.«152007_j29575144800638_2_alg».proof.Proof.Gen.Kernel.Skeleton
import proofs.«152007_j29575144800638_2_alg».proof.Proof.Gen.Kernel.Launch
import proofs.«152007_j29575144800638_2_alg».proof.Proof.Gen.Kernel.Points
import proofs.«152007_j29575144800638_2_alg».proof.Proof.FrameKernel
import proofs.«152007_j29575144800638_2_alg».proof.Proof.Gen.KernelIdeal
import proofs.«152007_j29575144800638_2_alg».proof.Proof.Gen.KernelIdeal.Skeleton
import proofs.«152007_j29575144800638_2_alg».proof.Proof.Gen.KernelIdeal.Launch
import proofs.«152007_j29575144800638_2_alg».proof.Proof.Gen.KernelIdeal.Points
import proofs.«152007_j29575144800638_2_alg».proof.Proof.FrameKernelIdeal
import proofs.«152007_j29575144800638_2_alg».proof.Proof.Gen.ReferenceIdeal
import proofs.«152007_j29575144800638_2_alg».proof.Proof.Gen.Pre_finite_inputs
import proofs.«152007_j29575144800638_2_alg».proof.Proof.Gen.ReferenceIdeal.Run
import proofs.«152007_j29575144800638_2_alg».proof.Proof.Gen.ReferenceIdeal.Read
import proofs.«152007_j29575144800638_2_alg».proof.Proof.KernelRun
import proofs.«152007_j29575144800638_2_alg».proof.Proof.KernelValue
import proofs.«152007_j29575144800638_2_alg».proof.Proof.RefCell
import proofs.«152007_j29575144800638_2_alg».proof.Proof.RefVec
import proofs.«152007_j29575144800638_2_alg».proof.Proof.RefMat
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : @Cert.frame_Kernel Cert.Kernel.Gen.facts Cert.Pre_finite_inputs.Gen.facts :=
  fun m ρ _ => Cert.Kernel.GenP.frame m ρ

/-- So does its reading at exact arithmetic. -/
theorem frame_ki : @Cert.frame_KernelIdeal Cert.KernelIdeal.Gen.facts Cert.Pre_finite_inputs.Gen.facts :=
  fun m ρ _ => Cert.KernelIdeal.GenP.frame m ρ

/-- The reference is a line of host operations: its run, with the eleven results dropped, is its frame. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2.2.2.2.2.2.2.2)
    (Cert.ReferenceIdeal.Value.run (F := Ideal) m ρ)

set_option maxHeartbeats 1000000 in
/-- At exact arithmetic the kernel program's eleven result arrays and the reference's are the same functions of
    arguments that agree: the new hidden and cell states, and the nine eligibility updates. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨
    (fun c => Cert.Cell.at2 (Cert.KernelIdeal.Results.inp m c).h),
    (fun c => Cert.Cell.at2 (Cert.KernelIdeal.Results.inp m c).c),
    (fun c => Cert.Cell.ewArr (m ((c.tc : Thread Cert.KernelIdeal.nD Cert.KernelIdeal.τ).loc Cert.KernelIdeal.main_arg15)) (Cert.KernelIdeal.Results.inp m c).zf (Cert.KernelIdeal.Results.inp m c).ai (Cert.KernelIdeal.Results.inp m c).x),
    (fun c => Cert.Cell.ewArr (m ((c.tc : Thread Cert.KernelIdeal.nD Cert.KernelIdeal.τ).loc Cert.KernelIdeal.main_arg16)) (Cert.KernelIdeal.Results.inp m c).zf (Cert.KernelIdeal.Results.inp m c).ai (Cert.KernelIdeal.Results.inp m c).hl),
    (fun c => Cert.Cell.ebArr (m ((c.tc : Thread Cert.KernelIdeal.nD Cert.KernelIdeal.τ).loc Cert.KernelIdeal.main_arg17)) (Cert.KernelIdeal.Results.inp m c).zf (Cert.KernelIdeal.Results.inp m c).ai),
    (fun c => Cert.Cell.ewArr (m ((c.tc : Thread Cert.KernelIdeal.nD Cert.KernelIdeal.τ).loc Cert.KernelIdeal.main_arg18)) (Cert.KernelIdeal.Results.inp m c).zf (Cert.KernelIdeal.Results.inp m c).af (Cert.KernelIdeal.Results.inp m c).x),
    (fun c => Cert.Cell.ewArr (m ((c.tc : Thread Cert.KernelIdeal.nD Cert.KernelIdeal.τ).loc Cert.KernelIdeal.main_arg19)) (Cert.KernelIdeal.Results.inp m c).zf (Cert.KernelIdeal.Results.inp m c).af (Cert.KernelIdeal.Results.inp m c).hl),
    (fun c => Cert.Cell.ebArr (m ((c.tc : Thread Cert.KernelIdeal.nD Cert.KernelIdeal.τ).loc Cert.KernelIdeal.main_arg20)) (Cert.KernelIdeal.Results.inp m c).zf (Cert.KernelIdeal.Results.inp m c).af),
    (fun c => Cert.Cell.ewArr (m ((c.tc : Thread Cert.KernelIdeal.nD Cert.KernelIdeal.τ).loc Cert.KernelIdeal.main_arg21)) (Cert.KernelIdeal.Results.inp m c).zf (Cert.KernelIdeal.Results.inp m c).ac (Cert.KernelIdeal.Results.inp m c).x),
    (fun c => Cert.Cell.ewArr (m ((c.tc : Thread Cert.KernelIdeal.nD Cert.KernelIdeal.τ).loc Cert.KernelIdeal.main_arg22)) (Cert.KernelIdeal.Results.inp m c).zf (Cert.KernelIdeal.Results.inp m c).ac (Cert.KernelIdeal.Results.inp m c).hl),
    (fun c => Cert.Cell.ebArr (m ((c.tc : Thread Cert.KernelIdeal.nD Cert.KernelIdeal.τ).loc Cert.KernelIdeal.main_arg23)) (Cert.KernelIdeal.Results.inp m c).zf (Cert.KernelIdeal.Results.inp m c).ac),
    ?_, ?_⟩
  · refine (θ_run Cert.KernelIdeal.defs _ _).mono (fun r h c => ?_) (Cert.KernelIdeal.RunAll.run_all (F := Ideal) m ρ)
    have H := h c
    exact ⟨
      (H Cert.KernelIdeal.main_v8_0 (by decide)).trans (Cert.KernelIdeal.Results.res_v8_0 m ρ c),
      (H Cert.KernelIdeal.main_v8_1 (by decide)).trans (Cert.KernelIdeal.Results.res_v8_1 m ρ c),
      (H Cert.KernelIdeal.main_v15_1 (by decide)).trans (Cert.KernelIdeal.Results.res_v15_1 m ρ c),
      (H Cert.KernelIdeal.main_v15_0 (by decide)).trans (Cert.KernelIdeal.Results.res_v15_0 m ρ c),
      (H Cert.KernelIdeal.main_v8_6 (by decide)).trans (Cert.KernelIdeal.Results.res_v8_6 m ρ c),
      (H Cert.KernelIdeal.main_v16_1 (by decide)).trans (Cert.KernelIdeal.Results.res_v16_1 m ρ c),
      (H Cert.KernelIdeal.main_v16_0 (by decide)).trans (Cert.KernelIdeal.Results.res_v16_0 m ρ c),
      (H Cert.KernelIdeal.main_v8_7 (by decide)).trans (Cert.KernelIdeal.Results.res_v8_7 m ρ c),
      (H Cert.KernelIdeal.main_v17_1 (by decide)).trans (Cert.KernelIdeal.Results.res_v17_1 m ρ c),
      (H Cert.KernelIdeal.main_v17_0 (by decide)).trans (Cert.KernelIdeal.Results.res_v17_0 m ρ c),
      (H Cert.KernelIdeal.main_v8_8 (by decide)).trans (Cert.KernelIdeal.Results.res_v8_8 m ρ c),
      (H Cert.KernelIdeal.main_arg0 (by decide)).trans (Cert.KernelIdeal.GenP.W8_main_arg0 m ρ c),
      (H Cert.KernelIdeal.main_arg1 (by decide)).trans (Cert.KernelIdeal.GenP.W8_main_arg1 m ρ c),
      (H Cert.KernelIdeal.main_arg2 (by decide)).trans (Cert.KernelIdeal.GenP.W8_main_arg2 m ρ c),
      (H Cert.KernelIdeal.main_arg3 (by decide)).trans (Cert.KernelIdeal.GenP.W8_main_arg3 m ρ c),
      (H Cert.KernelIdeal.main_arg4 (by decide)).trans (Cert.KernelIdeal.GenP.W8_main_arg4 m ρ c),
      (H Cert.KernelIdeal.main_arg5 (by decide)).trans (Cert.KernelIdeal.GenP.W8_main_arg5 m ρ c),
      (H Cert.KernelIdeal.main_arg6 (by decide)).trans (Cert.KernelIdeal.GenP.W8_main_arg6 m ρ c),
      (H Cert.KernelIdeal.main_arg7 (by decide)).trans (Cert.KernelIdeal.GenP.W8_main_arg7 m ρ c),
      (H Cert.KernelIdeal.main_arg8 (by decide)).trans (Cert.KernelIdeal.GenP.W8_main_arg8 m ρ c),
      (H Cert.KernelIdeal.main_arg9 (by decide)).trans (Cert.KernelIdeal.GenP.W8_main_arg9 m ρ c),
      (H Cert.KernelIdeal.main_arg10 (by decide)).trans (Cert.KernelIdeal.GenP.W8_main_arg10 m ρ c),
      (H Cert.KernelIdeal.main_arg11 (by decide)).trans (Cert.KernelIdeal.GenP.W8_main_arg11 m ρ c),
      (H Cert.KernelIdeal.main_arg12 (by decide)).trans (Cert.KernelIdeal.GenP.W8_main_arg12 m ρ c),
      (H Cert.KernelIdeal.main_arg13 (by decide)).trans (Cert.KernelIdeal.GenP.W8_main_arg13 m ρ c),
      (H Cert.KernelIdeal.main_arg14 (by decide)).trans (Cert.KernelIdeal.GenP.W8_main_arg14 m ρ c),
      (H Cert.KernelIdeal.main_arg15 (by decide)).trans (Cert.KernelIdeal.GenP.W8_main_arg15 m ρ c),
      (H Cert.KernelIdeal.main_arg16 (by decide)).trans (Cert.KernelIdeal.GenP.W8_main_arg16 m ρ c),
      (H Cert.KernelIdeal.main_arg17 (by decide)).trans (Cert.KernelIdeal.GenP.W8_main_arg17 m ρ c),
      (H Cert.KernelIdeal.main_arg18 (by decide)).trans (Cert.KernelIdeal.GenP.W8_main_arg18 m ρ c),
      (H Cert.KernelIdeal.main_arg19 (by decide)).trans (Cert.KernelIdeal.GenP.W8_main_arg19 m ρ c),
      (H Cert.KernelIdeal.main_arg20 (by decide)).trans (Cert.KernelIdeal.GenP.W8_main_arg20 m ρ c),
      (H Cert.KernelIdeal.main_arg21 (by decide)).trans (Cert.KernelIdeal.GenP.W8_main_arg21 m ρ c),
      (H Cert.KernelIdeal.main_arg22 (by decide)).trans (Cert.KernelIdeal.GenP.W8_main_arg22 m ρ c),
      (H Cert.KernelIdeal.main_arg23 (by decide)).trans (Cert.KernelIdeal.GenP.W8_main_arg23 m ρ c)⟩
  · refine (θ_run Cert.ReferenceIdeal.defs _ _).mono (fun r h c => ?_) (Cert.ReferenceIdeal.Value.run (F := Ideal) m' ρ')
    obtain ⟨r0, r1, r2, r3, r4, r5, r6, r7, r8, r9, r10, hargs⟩ := h c
    obtain ⟨g0, g1, g2, g3, g4, g5, g6, g7, g8, g9, g10, g11, g12, g13, g14, g15, g16, g17, g18, g19, g20, g21, g22, g23⟩ := hagree c
    have hI : Cert.Cell.In.ofArrays (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
        = Cert.KernelIdeal.Results.inp m c := by
      rw [g0, g1, g2, g3, g4, g5, g6, g7, g8, g9, g10, g11, g12, g13, g14]; rfl
    exact ⟨
      r0.trans ((Cert.ReferenceIdeal.Read.val_main_v54_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans ((Cert.RefSide.val_h (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans (by rw [hI]))),
      r1.trans ((Cert.ReferenceIdeal.Read.val_main_v53_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans ((Cert.RefSide.val_c (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans (by rw [hI]))),
      r2.trans ((Cert.ReferenceIdeal.Read.val_main_v84_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg15))).trans ((Cert.RefSide.val_ewix (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans (by rw [hI, g15]))),
      r3.trans ((Cert.ReferenceIdeal.Read.val_main_v78_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg16))).trans ((Cert.RefSide.val_ewih (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg16))).trans (by rw [hI, g16]))),
      r4.trans ((Cert.ReferenceIdeal.Read.val_main_v87_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg17))).trans ((Cert.RefSide.val_ebi (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg17))).trans (by rw [hI, g17]))),
      r5.trans ((Cert.ReferenceIdeal.Read.val_main_v99_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg18))).trans ((Cert.RefSide.val_ewfx (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg18))).trans (by rw [hI, g18]))),
      r6.trans ((Cert.ReferenceIdeal.Read.val_main_v93_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg19))).trans ((Cert.RefSide.val_ewfh (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg19))).trans (by rw [hI, g19]))),
      r7.trans ((Cert.ReferenceIdeal.Read.val_main_v102_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg20))).trans ((Cert.RefSide.val_ebf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg20))).trans (by rw [hI, g20]))),
      r8.trans ((Cert.ReferenceIdeal.Read.val_main_v114_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg21))).trans ((Cert.RefSide.val_ewcx (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg21))).trans (by rw [hI, g21]))),
      r9.trans ((Cert.ReferenceIdeal.Read.val_main_v108_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg22))).trans ((Cert.RefSide.val_ewch (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg22))).trans (by rw [hI, g22]))),
      r10.trans ((Cert.ReferenceIdeal.Read.val_main_v117_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg23))).trans ((Cert.RefSide.val_ebc (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg23))).trans (by rw [hI, g23]))),
      hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
